-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v68_0)) (v1 : (c : Dev Cert.KernelIdeal.nD) → Buf (Elt Ideal) ((c.tc : Thread Cert.KernelIdeal.nD Cert.KernelIdeal.τ).loc Cert.KernelIdeal.main_v68_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68_0) = v0 c
          ∧ r.2.mem ((c.tc : Thread Cert.KernelIdeal.nD Cert.KernelIdeal.τ).loc Cert.KernelIdeal.main_v68_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v120) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64 : Shape := ⟨2, ![32, 64]⟩
abbrev S32x64x256 : Shape := ⟨3, ![32, 64, 256]⟩
abbrev S128 : Shape := ⟨1, ![128]⟩
abbrev S_ : Shape := ⟨0, ![]⟩

class Facts : Prop where
  bcast_S_S32x64 : S_.BroadcastsInDim S32x64 (![] : Fin 0 → Fin S32x64.rank)
  reducesTo_S32x64_S_d0_1 : S32x64.ReducesTo [0, 1] S_
  h_S_ : 0 < S_.numel
  bcast_S_S32x64x256 : S_.BroadcastsInDim S32x64x256 (![] : Fin 0 → Fin S32x64x256.rank)
  reducesTo_S32x64x256_S_d0_1_2 : S32x64x256.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S32x64 .f32) (main_arg1 : FVec F S32x64x256 .f32) (main_arg2 : FVec F S128 .f32) (main_arg3 : FVec F S128 .f32) (main_arg4 : FVec F S128 .f32) : IVec S_ 1 :=
  let main_v0 : FVec F S32x64 .f32 := Host.absf main_arg0
  let main_cst : FVec F S_ .f32 := constant S_ .f32 0x7F800000#32
  let main_v1 : FVec F S32x64 .f32 := broadcastInDim S32x64 ![] bcast_S_S32x64 main_cst
  let main_v2 : IVec S32x64 1 := cmpf .olt main_v0 main_v1
  let main_c : IVec S_ 1 := constantI S_ 1 1#1
  let main_v3 : IVec S_ 1 := (fun x v => Host.reduce IntOp.andi x v reducesTo_S32x64_S_d0_1 h_S_) main_v2 main_c
  let main_v4 : FVec F S32x64x256 .f32 := Host.absf main_arg1
  let main_cst_0 : FVec F S_ .f32 := constant S_ .f32 0x7F800000#32
  let main_v5 : FVec F S32x64x256 .f32 := broadcastInDim S32x64x256 ![] bcast_S_S32x64x256 main_cst_0
  let main_v6 : IVec S32x64x256 1 := cmpf .olt main_v4 main_v5
  let main_c_1 : IVec S_ 1 := constantI S_ 1 1#1
  let main_v7 : IVec S_ 1 := (fun x v => Host.reduce IntOp.andi x v reducesTo_S32x64x256_S_d0_1_2 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S32x64 : Shape := ⟨2, ![32, 64]⟩
abbrev S32x64x256 : Shape := ⟨3, ![32, 64, 256]⟩
abbrev S128 : Shape := ⟨1, ![128]⟩
abbrev S_ : Shape := ⟨0, ![]⟩
abbrev S128x128 : Shape := ⟨2, ![128, 128]⟩
abbrev S128x1 : Shape := ⟨2, ![128, 1]⟩
abbrev S127 : Shape := ⟨1, ![127]⟩
abbrev S127x127 : Shape := ⟨2, ![127, 127]⟩
abbrev S127x1 : Shape := ⟨2, ![127, 1]⟩
abbrev S1 : Shape := ⟨1, ![1]⟩
abbrev S2 : Shape := ⟨1, ![2]⟩
abbrev S256x256 : Shape := ⟨2, ![256, 256]⟩
abbrev S32x64x1 : Shape := ⟨3, ![32, 64, 1]⟩
abbrev S32x64x256x256 : Shape := ⟨4, ![32, 64, 256, 256]⟩
abbrev S1x32x1 : Shape := ⟨3, ![1, 32, 1]⟩
abbrev S1x32x256 : Shape := ⟨3, ![1, 32, 256]⟩
abbrev S1x32x256x256 : Shape := ⟨4, ![1, 32, 256, 256]⟩
abbrev S1x32x128 : Shape := ⟨3, ![1, 32, 128]⟩
abbrev S1x32x127 : Shape := ⟨3, ![1, 32, 127]⟩
abbrev S1x1x127 : Shape := ⟨3, ![1, 1, 127]⟩
abbrev S1x32 : Shape := ⟨2, ![1, 32]⟩
abbrev S1x1x256x256 : Shape := ⟨4, ![1, 1, 256, 256]⟩

abbrev nBuf : Space → Nat
  | .hbm => 185
  | .vmem => 12
  | .smem => 0
  | _ => 0

abbrev hbmTy0_0 (i : Nat) : BufTy := match i % 128 with
  | 0 => ⟨S32x64, .f32⟩
  | 1 => ⟨S32x64x256, .f32⟩
  | 2 => ⟨S128, .f32⟩
  | 3 => ⟨S128, .f32⟩
  | 4 => ⟨S128, .f32⟩
  | 5 => ⟨S_, .f32⟩
  | 6 => ⟨S128, .f32⟩
  | 7 => ⟨S128, .f32⟩
  | 8 => ⟨S_, .f32⟩
  | 9 => ⟨S128, .f32⟩
  | 10 => ⟨S128, .f32⟩
  | 11 => ⟨S128, .f32⟩
  | 12 => ⟨S128, .f32⟩
  | 13 => ⟨S_, .f32⟩
  | 14 => ⟨S128, .f32⟩
  | 15 => ⟨S128x128, .i32⟩
  | 16 => ⟨S128x128, .i32⟩
  | 17 => ⟨S_, .i32⟩
  | 18 => ⟨S128x128, .i32⟩
  | 19 => ⟨S128x128, .i32⟩
  | 20 => ⟨S128x128, .i1⟩
  | 21 => ⟨S128x1, .f32⟩
  | 22 => ⟨S_, .f32⟩
  | 23 => ⟨S128x128, .f32⟩
  | 24 => ⟨S128x128, .f32⟩
  | 25 => ⟨S128x128, .f32⟩
  | 26 => ⟨S127, .f32⟩
  | 27 => ⟨S127, .f32⟩
  | 28 => ⟨S127, .f32⟩
  | 29 => ⟨S127, .f32⟩
  | 30 => ⟨S_, .f32⟩
  | 31 => ⟨S127, .f32⟩
  | 32 => ⟨S127x127, .i32⟩
  | 33 => ⟨S127x127, .i32⟩
  | 34 => ⟨S_, .i32⟩
  | 35 => ⟨S127x127, .i32⟩
  | 36 => ⟨S127x127, .i32⟩
  | 37 => ⟨S127x127, .i1⟩
  | 38 => ⟨S127x1, .f32⟩
  | 39 => ⟨S_, .f32⟩
  | 40 => ⟨S127x127, .f32⟩
  | 41 => ⟨S127x127, .f32⟩
  | 42 => ⟨S127x127, .f32⟩
  | 43 => ⟨S_, .i32⟩
  | 44 => ⟨S1, .i32⟩
  | 45 => ⟨S_, .i32⟩
  | 46 => ⟨S1, .i32⟩
  | 47 => ⟨S2, .i32⟩
  | 48 => ⟨S128x128, .f32⟩
  | 49 => ⟨S127, .f32⟩
  | 50 => ⟨S127, .f32⟩
  | 51 => ⟨S127, .f32⟩
  | 52 => ⟨S_, .f32⟩
  | 53 => ⟨S128, .f32⟩
  | 54 => ⟨S128x128, .i32⟩
  | 55 => ⟨S128x128, .i32⟩
  | 56 => ⟨S_, .i32⟩
  | 57 => ⟨S128x128, .i32⟩
  | 58 => ⟨S128x128, .i32⟩
  | 59 => ⟨S128x128, .i1⟩
  | 60 => ⟨S128x1, .f32⟩
  | 61 => ⟨S_, .f32⟩
  | 62 => ⟨S128x128, .f32⟩
  | 63 => ⟨S128x128, .f32⟩
  | 64 => ⟨S128x128, .f32⟩
  | 65 => ⟨S128x128, .f32⟩
  | 66 => ⟨S127, .f32⟩
  | 67 => ⟨S127, .f32⟩
  | 68 => ⟨S127, .f32⟩
  | 69 => ⟨S_, .f32⟩
  | 70 => ⟨S128, .f32⟩
  | 71 => ⟨S128x128, .i32⟩
  | 72 => ⟨S128x128, .i32⟩
  | 73 => ⟨S_, .i32⟩
  | 74 => ⟨S128x128, .i32⟩
  | 75 => ⟨S128x128, .i32⟩
  | 76 => ⟨S128x128, .i1⟩
  | 77 => ⟨S128x1, .f32⟩
  | 78 => ⟨S_, .f32⟩
  | 79 => ⟨S128x128, .f32⟩
  | 80 => ⟨S128x128, .f32⟩
  | 81 => ⟨S128x128, .f32⟩
  | 82 => ⟨S128x128, .f32⟩
  | 83 => ⟨S128, .f32⟩
  | 84 => ⟨S128, .f32⟩
  | 85 => ⟨S_, .f32⟩
  | 86 => ⟨S128, .f32⟩
  | 87 => ⟨S128x128, .i32⟩
  | 88 => ⟨S128x128, .i32⟩
  | 89 => ⟨S_, .i32⟩
  | 90 => ⟨S128x128, .i32⟩
  | 91 => ⟨S128x128, .i32⟩
  | 92 => ⟨S128x128, .i1⟩
  | 93 => ⟨S128x1, .f32⟩
  | 94 => ⟨S_, .f32⟩
  | 95 => ⟨S128x128, .f32⟩
  | 96 => ⟨S128x128, .f32⟩
  | 97 => ⟨S128x128, .f32⟩
  | 98 => ⟨S127, .f32⟩
  | 99 => ⟨S127, .f32⟩
  | 100 => ⟨S127, .f32⟩
  | 101 => ⟨S127, .f32⟩
  | 102 => ⟨S_, .f32⟩
  | 103 => ⟨S127, .f32⟩
  | 104 => ⟨S127x127, .i32⟩
  | 105 => ⟨S127x127, .i32⟩
  | 106 => ⟨S_, .i32⟩
  | 107 => ⟨S127x127, .i32⟩
  | 108 => ⟨S127x127, .i32⟩
  | 109 => ⟨S127x127, .i1⟩
  | 110 => ⟨S127x1, .f32⟩
  | 111 => ⟨S_, .f32⟩
  | 112 => ⟨S127x127, .f32⟩
  | 113 => ⟨S127x127, .f32⟩
  | 114 => ⟨S127x127, .f32⟩
  | 115 => ⟨S_, .i32⟩
  | 116 => ⟨S1, .i32⟩
  | 117 => ⟨S_, .i32⟩
  | 118 => ⟨S1, .i32⟩
  | 119 => ⟨S2, .i32⟩
  | 120 => ⟨S128x128, .f32⟩
  | 121 => ⟨S127, .f32⟩
  | 122 => ⟨S127, .f32⟩
  | 123 => ⟨S127, .f32⟩
  | 124 => ⟨S_, .f32⟩
  | 125 => ⟨S128, .f32⟩
  | 126 => ⟨S128x128, .i32⟩
  | 127 => ⟨S128x128, .i32⟩
  | _ => ⟨S32x64, .f32⟩

abbrev hbmTy0_1 (i : Nat) : BufTy := match i % 128 with
  | 0 => ⟨S_, .i32⟩
  | 1 => ⟨S128x128, .i32⟩
  | 2 => ⟨S128x128, .i32⟩
  | 3 => ⟨S128x128, .i1⟩
  | 4 => ⟨S128x1, .f32⟩
  | 5 => ⟨S_, .f32⟩
  | 6 => ⟨S128x128, .f32⟩
  | 7 => ⟨S128x128, .f32⟩
  | 8 => ⟨S128x128, .f32⟩
  | 9 => ⟨S128x128, .f32⟩
  | 10 => ⟨S127, .f32⟩
  | 11 => ⟨S127, .f32⟩
  | 12 => ⟨S127, .f32⟩
  | 13 => ⟨S_, .f32⟩
  | 14 => ⟨S128, .f32⟩
  | 15 => ⟨S128x128, .i32⟩
  | 16 => ⟨S128x128, .i32⟩
  | 17 => ⟨S_, .i32⟩
  | 18 => ⟨S128x128, .i32⟩
  | 19 => ⟨S128x128, .i32⟩
  | 20 => ⟨S128x128, .i1⟩
  | 21 => ⟨S128x1, .f32⟩
  | 22 => ⟨S_, .f32⟩
  | 23 => ⟨S128x128, .f32⟩
  | 24 => ⟨S128x128, .f32⟩
  | 25 => ⟨S128x128, .f32⟩
  | 26 => ⟨S128x128, .f32⟩
  | 27 => ⟨S_, .f32⟩
  | 28 => ⟨S256x256, .f32⟩
  | 29 => ⟨S128x128, .i32⟩
  | 30 => ⟨S128x128, .i32⟩
  | 31 => ⟨S_, .i32⟩
  | 32 => ⟨S128x128, .i32⟩
  | 33 => ⟨S128x128, .i32⟩
  | 34 => ⟨S128x128, .i1⟩
  | 35 => ⟨S128x128, .f32⟩
  | 36 => ⟨S_, .i32⟩
  | 37 => ⟨S1, .i32⟩
  | 38 => ⟨S_, .i32⟩
  | 39 => ⟨S1, .i32⟩
  | 40 => ⟨S2, .i32⟩
  | 41 => ⟨S256x256, .f32⟩
  | 42 => ⟨S_, .i32⟩
  | 43 => ⟨S1, .i32⟩
  | 44 => ⟨S_, .i32⟩
  | 45 => ⟨S1, .i32⟩
  | 46 => ⟨S2, .i32⟩
  | 47 => ⟨S256x256, .f32⟩
  | 48 => ⟨S_, .i32⟩
  | 49 => ⟨S1, .i32⟩
  | 50 => ⟨S_, .i32⟩
  | 51 => ⟨S1, .i32⟩
  | 52 => ⟨S2, .i32⟩
  | 53 => ⟨S256x256, .f32⟩
  | 54 => ⟨S32x64x1, .f32⟩
  | 55 => ⟨S32x64x256, .f32⟩
  | 56 => ⟨S32x64x256x256, .f32⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | .local _ .vmem, ⟨0, _⟩ => ⟨S1x32x1, .f32⟩
  | .local _ .vmem, ⟨1, _⟩ => ⟨S1x32x1, .f32⟩
  | .local _ .vmem, ⟨2, _⟩ => ⟨S1x32x256, .f32⟩
  | .local _ .vmem, ⟨3, _⟩ => ⟨S1x32x256, .f32⟩
  | .local _ .vmem, ⟨4, _⟩ => ⟨S128, .f32⟩
  | .local _ .vmem, ⟨5, _⟩ => ⟨S128, .f32⟩
  | .local _ .vmem, ⟨6, _⟩ => ⟨S128, .f32⟩
  | .local _ .vmem, ⟨7, _⟩ => ⟨S256x256, .f32⟩
  | .local _ .vmem, ⟨8, _⟩ => ⟨S1x32x256, .f32⟩
  | .local _ .vmem, ⟨9, _⟩ => ⟨S1x32x256, .f32⟩
  | .local _ .vmem, ⟨10, _⟩ => ⟨S1x32x256x256, .f32⟩
  | .local _ .vmem, ⟨11, _⟩ => ⟨S1x32x256x256, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_c : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_cst_0 : Ref sig .tc := ⟨.hbm, 22, rfl⟩
abbrev main_call0_call0_v0 : Ref sig .tc := ⟨.hbm, 23, rfl⟩
abbrev main_call0_call0_v1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_call1_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_c : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_cst_0 : Ref sig .tc := ⟨.hbm, 39, rfl⟩
abbrev main_call1_call0_v0 : Ref sig .tc := ⟨.hbm, 40, rfl⟩
abbrev main_call1_call0_v1 : Ref sig .tc := ⟨.hbm, 41, rfl⟩
abbrev main_v11 : Ref sig .tc := ⟨.hbm, 42, rfl⟩
abbrev main_c : Ref sig .tc := ⟨.hbm, 43, rfl⟩
abbrev main_v12 : Ref sig .tc := ⟨.hbm, 44, rfl⟩
abbrev main_c_1 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_call2_cst : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_c : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_cst_0 : Ref sig .tc := ⟨.hbm, 61, rfl⟩
abbrev main_call2_call0_v0 : Ref sig .tc := ⟨.hbm, 62, rfl⟩
abbrev main_call2_call0_v1 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_call3_cst : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_c : Ref sig .tc := ⟨.hbm, 73, rfl⟩
abbrev main_call3_v3 : Ref sig .tc := ⟨.hbm, 74, rfl⟩
abbrev main_call3_v4 : Ref sig .tc := ⟨.hbm, 75, rfl⟩
abbrev main_call3_v5 : Ref sig .tc := ⟨.hbm, 76, rfl⟩
abbrev main_call3_v6 : Ref sig .tc := ⟨.hbm, 77, rfl⟩
abbrev main_call3_cst_0 : Ref sig .tc := ⟨.hbm, 78, rfl⟩
abbrev main_call3_call0_v0 : Ref sig .tc := ⟨.hbm, 79, rfl⟩
abbrev main_call3_call0_v1 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_call4_cst : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_call4_c : Ref sig .tc := ⟨.hbm, 89, rfl⟩
abbrev main_call4_v3 : Ref sig .tc := ⟨.hbm, 90, rfl⟩
abbrev main_call4_v4 : Ref sig .tc := ⟨.hbm, 91, rfl⟩
abbrev main_call4_v5 : Ref sig .tc := ⟨.hbm, 92, rfl⟩
abbrev main_call4_v6 : Ref sig .tc := ⟨.hbm, 93, rfl⟩
abbrev main_call4_cst_0 : Ref sig .tc := ⟨.hbm, 94, rfl⟩
abbrev main_call4_call0_v0 : Ref sig .tc := ⟨.hbm, 95, rfl⟩
abbrev main_call4_call0_v1 : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩
abbrev main_v31 : Ref sig .tc := ⟨.hbm, 100, rfl⟩
abbrev main_v32 : Ref sig .tc := ⟨.hbm, 101, rfl⟩
abbrev main_call5_cst : Ref sig .tc := ⟨.hbm, 102, rfl⟩
abbrev main_call5_v0 : Ref sig .tc := ⟨.hbm, 103, rfl⟩
abbrev main_call5_v1 : Ref sig .tc := ⟨.hbm, 104, rfl⟩
abbrev main_call5_v2 : Ref sig .tc := ⟨.hbm, 105, rfl⟩
abbrev main_call5_c : Ref sig .tc := ⟨.hbm, 106, rfl⟩
abbrev main_call5_v3 : Ref sig .tc := ⟨.hbm, 107, rfl⟩
abbrev main_call5_v4 : Ref sig .tc := ⟨.hbm, 108, rfl⟩
abbrev main_call5_v5 : Ref sig .tc := ⟨.hbm, 109, rfl⟩
abbrev main_call5_v6 : Ref sig .tc := ⟨.hbm, 110, rfl⟩
abbrev main_call5_cst_0 : Ref sig .tc := ⟨.hbm, 111, rfl⟩
abbrev main_call5_call0_v0 : Ref sig .tc := ⟨.hbm, 112, rfl⟩
abbrev main_call5_call0_v1 : Ref sig .tc := ⟨.hbm, 113, rfl⟩
abbrev main_v33 : Ref sig .tc := ⟨.hbm, 114, rfl⟩
abbrev main_c_2 : Ref sig .tc := ⟨.hbm, 115, rfl⟩
abbrev main_v34 : Ref sig .tc := ⟨.hbm, 116, rfl⟩
abbrev main_c_3 : Ref sig .tc := ⟨.hbm, 117, rfl⟩
abbrev main_v35 : Ref sig .tc := ⟨.hbm, 118, rfl⟩
abbrev main_v36 : Ref sig .tc := ⟨.hbm, 119, rfl⟩
abbrev main_v37 : Ref sig .tc := ⟨.hbm, 120, rfl⟩
abbrev main_v38 : Ref sig .tc := ⟨.hbm, 121, rfl⟩
abbrev main_v39 : Ref sig .tc := ⟨.hbm, 122, rfl⟩
abbrev main_v40 : Ref sig .tc := ⟨.hbm, 123, rfl⟩
abbrev main_call6_cst : Ref sig .tc := ⟨.hbm, 124, rfl⟩
abbrev main_call6_v0 : Ref sig .tc := ⟨.hbm, 125, rfl⟩
abbrev main_call6_v1 : Ref sig .tc := ⟨.hbm, 126, rfl⟩
abbrev main_call6_v2 : Ref sig .tc := ⟨.hbm, 127, rfl⟩
abbrev main_call6_c : Ref sig .tc := ⟨.hbm, 128, rfl⟩
abbrev main_call6_v3 : Ref sig .tc := ⟨.hbm, 129, rfl⟩
abbrev main_call6_v4 : Ref sig .tc := ⟨.hbm, 130, rfl⟩
abbrev main_call6_v5 : Ref sig .tc := ⟨.hbm, 131, rfl⟩
abbrev main_call6_v6 : Ref sig .tc := ⟨.hbm, 132, rfl⟩
abbrev main_call6_cst_0 : Ref sig .tc := ⟨.hbm, 133, rfl⟩
abbrev main_call6_call0_v0 : Ref sig .tc := ⟨.hbm, 134, rfl⟩
abbrev main_call6_call0_v1 : Ref sig .tc := ⟨.hbm, 135, rfl⟩
abbrev main_v41 : Ref sig .tc := ⟨.hbm, 136, rfl⟩
abbrev main_v42 : Ref sig .tc := ⟨.hbm, 137, rfl⟩
abbrev main_v43 : Ref sig .tc := ⟨.hbm, 138, rfl⟩
abbrev main_v44 : Ref sig .tc := ⟨.hbm, 139, rfl⟩
abbrev main_v45 : Ref sig .tc := ⟨.hbm, 140, rfl⟩
abbrev main_call7_cst : Ref sig .tc := ⟨.hbm, 141, rfl⟩
abbrev main_call7_v0 : Ref sig .tc := ⟨.hbm, 142, rfl⟩
abbrev main_call7_v1 : Ref sig .tc := ⟨.hbm, 143, rfl⟩
abbrev main_call7_v2 : Ref sig .tc := ⟨.hbm, 144, rfl⟩
abbrev main_call7_c : Ref sig .tc := ⟨.hbm, 145, rfl⟩
abbrev main_call7_v3 : Ref sig .tc := ⟨.hbm, 146, rfl⟩
abbrev main_call7_v4 : Ref sig .tc := ⟨.hbm, 147, rfl⟩
abbrev main_call7_v5 : Ref sig .tc := ⟨.hbm, 148, rfl⟩
abbrev main_call7_v6 : Ref sig .tc := ⟨.hbm, 149, rfl⟩
abbrev main_call7_cst_0 : Ref sig .tc := ⟨.hbm, 150, rfl⟩
abbrev main_call7_call0_v0 : Ref sig .tc := ⟨.hbm, 151, rfl⟩
abbrev main_call7_call0_v1 : Ref sig .tc := ⟨.hbm, 152, rfl⟩
abbrev main_v46 : Ref sig .tc := ⟨.hbm, 153, rfl⟩
abbrev main_v47 : Ref sig .tc := ⟨.hbm, 154, rfl⟩
abbrev main_cst_4 : Ref sig .tc := ⟨.hbm, 155, rfl⟩
abbrev main_v48 : Ref sig .tc := ⟨.hbm, 156, rfl⟩
abbrev main_v49 : Ref sig .tc := ⟨.hbm, 157, rfl⟩
abbrev main_v50 : Ref sig .tc := ⟨.hbm, 158, rfl⟩
abbrev main_c_5 : Ref sig .tc := ⟨.hbm, 159, rfl⟩
abbrev main_v51 : Ref sig .tc := ⟨.hbm, 160, rfl⟩
abbrev main_v52 : Ref sig .tc := ⟨.hbm, 161, rfl⟩
abbrev main_v53 : Ref sig .tc := ⟨.hbm, 162, rfl⟩
abbrev main_v54 : Ref sig .tc := ⟨.hbm, 163, rfl⟩
abbrev main_c_6 : Ref sig .tc := ⟨.hbm, 164, rfl⟩
abbrev main_v55 : Ref sig .tc := ⟨.hbm, 165, rfl⟩
abbrev main_c_7 : Ref sig .tc := ⟨.hbm, 166, rfl⟩
abbrev main_v56 : Ref sig .tc := ⟨.hbm, 167, rfl⟩
abbrev main_v57 : Ref sig .tc := ⟨.hbm, 168, rfl⟩
abbrev main_v58 : Ref sig .tc := ⟨.hbm, 169, rfl⟩
abbrev main_c_8 : Ref sig .tc := ⟨.hbm, 170, rfl⟩
abbrev main_v59 : Ref sig .tc := ⟨.hbm, 171, rfl⟩
abbrev main_c_9 : Ref sig .tc := ⟨.hbm, 172, rfl⟩
abbrev main_v60 : Ref sig .tc := ⟨.hbm, 173, rfl⟩
abbrev main_v61 : Ref sig .tc := ⟨.hbm, 174, rfl⟩
abbrev main_v62 : Ref sig .tc := ⟨.hbm, 175, rfl⟩
abbrev main_c_10 : Ref sig .tc := ⟨.hbm, 176, rfl⟩
abbrev main_v63 : Ref sig .tc := ⟨.hbm, 177, rfl⟩
abbrev main_c_11 : Ref sig .tc := ⟨.hbm, 178, rfl⟩
abbrev main_v64 : Ref sig .tc := ⟨.hbm, 179, rfl⟩
abbrev main_v65 : Ref sig .tc := ⟨.hbm, 180, rfl⟩
abbrev main_v66 : Ref sig .tc := ⟨.hbm, 181, rfl⟩
abbrev main_v67 : Ref sig .tc := ⟨.hbm, 182, rfl⟩
abbrev main_v68_0 : Ref sig .tc := ⟨.hbm, 183, rfl⟩
abbrev main_v68_1 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bcast_S_S128 : S_.BroadcastsInDim S128 (![] : Fin 0 → Fin S128.rank)
  pads_S128_S128_000 : S128.Pads (![0] : Fin 1 → Nat) ![0] ![0] S128
  h_S_ : 0 < S_.numel
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  slices_S128_S127_0 : S128.Slices ![0] S127
  slices_S128_S127_1 : S128.Slices ![1] S127
  pads_S127_S127_000 : S127.Pads (![0] : Fin 1 → Nat) ![0] ![0] S127
  bcast_S_S127x127 : S_.BroadcastsInDim S127x127 (![] : Fin 0 → Fin S127x127.rank)
  bcast_S127_S127x1_0 : S127.BroadcastsInDim S127x1 (![0] : Fin 1 → Fin S127x1.rank)
  bcast_S127x1_S127x127_0_1 : S127x1.BroadcastsInDim S127x127 (![0, 1] : Fin 2 → Fin S127x127.rank)
  bcast_S_S1 : S_.BroadcastsInDim S1 (![] : Fin 0 → Fin S1.rank)
  concatenates_S1_S1_S2_d0 : Shape.Concatenates [S1, S1] S2 0
  pads_S127_S128_010 : S127.Pads (![0] : Fin 1 → Nat) ![1] ![0] S128
  pads_S127_S128_100 : S127.Pads (![1] : Fin 1 → Nat) ![0] ![0] S128
  bcast_S_S256x256 : S_.BroadcastsInDim S256x256 (![] : Fin 0 → Fin S256x256.rank)
  bcast_S32x64_S32x64x1_0_1 : S32x64.BroadcastsInDim S32x64x1 (![0, 1] : Fin 2 → Fin S32x64x1.rank)
  inb_S128_S128_0 : ∀ a, (![0] : Fin 1 → Nat) a + S128.size a ≤ S128.size a
  h_S128 : 0 < S128.numel
  inb_S1x32x256_S1x32x256_0_0_0 : ∀ a, (![0, 0, 0] : Fin 3 → Nat) a + S1x32x256.size a ≤ S1x32x256.size a
  h_S1x32x256 : 0 < S1x32x256.numel
  slices_S1x32x256_o0_0_0_S1x32x128 : S1x32x256.Slices ![0, 0, 0] S1x32x128
  slices_S1x32x256_o0_0_128_S1x32x128 : S1x32x256.Slices ![0, 0, 128] S1x32x128
  slices_S1x32x128_o0_0_1_S1x32x127 : S1x32x128.Slices ![0, 0, 1] S1x32x127
  slices_S1x32x128_o0_0_0_S1x32x127 : S1x32x128.Slices ![0, 0, 0] S1x32x127
  slices_S128_o0_S127 : S128.Slices ![0] S127
  shapeCasts_S127_S1x1x127 : S127.ShapeCasts S1x1x127
  broadcasts_S1x1x127_S1x32x127 : S1x1x127.Broadcasts S1x32x127
  slices_S128_o1_S127 : S128.Slices ![1] S127
  concatenates_S1x32x127_S1x32x1_S1x32x128_d2 : Shape.Concatenates [S1x32x127, S1x32x1] S1x32x128 2
  concatenates_S1x32x1_S1x32x127_S1x32x128_d2 : Shape.Concatenates [S1x32x1, S1x32x127] S1x32x128 2
  slices_S128_o127_S1 : S128.Slices ![127] S1
  inpos_S1_p0 : ∀ a, (![0] : Fin 1 → Nat) a < S1.size a
  slices_S1x32x128_o0_0_127_S1x32x1 : S1x32x128.Slices ![0, 0, 127] S1x32x1
  shapeCasts_S1x32x1_S1x32 : S1x32x1.ShapeCasts S1x32
  inb_S1x32x1_S1x32x1_0_0_0 : ∀ a, (![0, 0, 0] : Fin 3 → Nat) a + S1x32x1.size a ≤ S1x32x1.size a
  h_S1x32x1 : 0 < S1x32x1.numel
  slices_S128_o0_S1 : S128.Slices ![0] S1
  shapeCasts_S1x32_S1x32x1 : S1x32.ShapeCasts S1x32x1
  concatenates_S1x32x128_S1x32x128_S1x32x256_d2 : Shape.Concatenates [S1x32x128, S1x32x128] S1x32x256 2
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256x256_S1x1x256x256 : S256x256.ShapeCasts S1x1x256x256
  broadcasts_S1x1x256x256_S1x32x256x256 : S1x1x256x256.Broadcasts S1x32x256x256
  inb_S1x32x256x256_S1x32x256x256_0_0_0_0 : ∀ a, (![0, 0, 0, 0] : Fin 4 → Nat) a + S1x32x256x256.size a ≤ S1x32x256x256.size a
  h_S1x32x256x256 : 0 < S1x32x256x256.numel
  scatter_S128x128_S2_S127x127_01_n_01_0_wf : ScatterDims.WF S128x128 S2 S127x127 [0, 1] [] [0, 1] 0
  scatter_S256x256_S2_S128x128_01_n_01_0_wf : ScatterDims.WF S256x256 S2 S128x128 [0, 1] [] [0, 1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x1.size a ≤ S32x64x1.size a
  hwx0_0 : ∀ i : grid0.Coords, EltTy.bits .f32 = 32 ∨ (Rect.block (s := S32x64x1) S1x32x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x256.size a ≤ S32x64x256.size a
  hwx0_1 : ∀ i : grid0.Coords, EltTy.bits .f32 = 32 ∨ (Rect.block (s := S32x64x256) S1x32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x32x256.size a ≤ S32x64x256.size a
  hwx0_6 : ∀ i : grid0.Coords, EltTy.bits .f32 = 32 ∨ (Rect.block (s := S32x64x256) S1x32x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32x256x256.size a ≤ S32x64x256x256.size a
  hwx0_7 : ∀ i : grid0.Coords, EltTy.bits .f32 = 32 ∨ (Rect.block (s := S32x64x256x256) S1x32x256x256.size (cc0_transform_7 i) (hinb0_7 i)).WholeWords (EltTy.packing .f32)

variable [Facts₀]

def scatter_S128x128_S2_S127x127_01_n_01_0 : ScatterDims S128x128 S2 S127x127 where
  updateWindowDims := [0, 1]
  insertedWindowDims := []
  scatterDimsToOperandDims := [0, 1]
  indexVectorDim := 0
  wf := scatter_S128x128_S2_S127x127_01_n_01_0_wf
def scatter_S256x256_S2_S128x128_01_n_01_0 : ScatterDims S256x256 S2 S128x128 where
  updateWindowDims := [0, 1]
  insertedWindowDims := []
  scatterDimsToOperandDims := [0, 1]
  indexVectorDim := 0
  wf := scatter_S256x256_S2_S128x128_01_n_01_0_wf

abbrev win0_0 : Pipeline.Window sig grid0 :=
  Pipeline.Window.ofSpec (Memref.whole main_v67) S1x32x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v66) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v68_0) S1x32x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v68_1) S1x32x256x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x64 : Shape := ⟨2, ![32, 64]⟩
abbrev S32x64x256 : Shape := ⟨3, ![32, 64, 256]⟩
abbrev S128 : Shape := ⟨1, ![128]⟩
abbrev S_ : Shape := ⟨0, ![]⟩
abbrev S32x64x128 : Shape := ⟨3, ![32, 64, 128]⟩
abbrev S32x64x127 : Shape := ⟨3, ![32, 64, 127]⟩
abbrev S127 : Shape := ⟨1, ![127]⟩
abbrev S1x1x127 : Shape := ⟨3, ![1, 1, 127]⟩
abbrev S1 : Shape := ⟨1, ![1]⟩
abbrev S32x64x1 : Shape := ⟨3, ![32, 64, 1]⟩
abbrev S128x128 : Shape := ⟨2, ![128, 128]⟩
abbrev S128x1 : Shape := ⟨2, ![128, 1]⟩
abbrev S127x127 : Shape := ⟨2, ![127, 127]⟩
abbrev S127x1 : Shape := ⟨2, ![127, 1]⟩
abbrev S2 : Shape := ⟨1, ![2]⟩
abbrev S256x256 : Shape := ⟨2, ![256, 256]⟩
abbrev S32x64x256x256 : Shape := ⟨4, ![32, 64, 256, 256]⟩

abbrev nBuf : Space → Nat
  | .hbm => 246
  | .vmem => 0
  | .smem => 0
  | _ => 0

abbrev hbmTy0_0 (i : Nat) : BufTy := match i % 128 with
  | 0 => ⟨S32x64, .f32⟩
  | 1 => ⟨S32x64x256, .f32⟩
  | 2 => ⟨S128, .f32⟩
  | 3 => ⟨S128, .f32⟩
  | 4 => ⟨S128, .f32⟩
  | 5 => ⟨S_, .f32⟩
  | 6 => ⟨S128, .f32⟩
  | 7 => ⟨S128, .f32⟩
  | 8 => ⟨S_, .f32⟩
  | 9 => ⟨S128, .f32⟩
  | 10 => ⟨S128, .f32⟩
  | 11 => ⟨S32x64x128, .f32⟩
  | 12 => ⟨S32x64x128, .f32⟩
  | 13 => ⟨S32x64x127, .f32⟩
  | 14 => ⟨S32x64x127, .f32⟩
  | 15 => ⟨S32x64x127, .f32⟩
  | 16 => ⟨S32x64x127, .f32⟩
  | 17 => ⟨S32x64x127, .f32⟩
  | 18 => ⟨S32x64x127, .f32⟩
  | 19 => ⟨S127, .f32⟩
  | 20 => ⟨S1x1x127, .f32⟩
  | 21 => ⟨S32x64x127, .f32⟩
  | 22 => ⟨S32x64x127, .f32⟩
  | 23 => ⟨S127, .f32⟩
  | 24 => ⟨S1x1x127, .f32⟩
  | 25 => ⟨S32x64x127, .f32⟩
  | 26 => ⟨S32x64x127, .f32⟩
  | 27 => ⟨S32x64x127, .f32⟩
  | 28 => ⟨S127, .f32⟩
  | 29 => ⟨S1x1x127, .f32⟩
  | 30 => ⟨S32x64x127, .f32⟩
  | 31 => ⟨S32x64x127, .f32⟩
  | 32 => ⟨S_, .i32⟩
  | 33 => ⟨S_, .f32⟩
  | 34 => ⟨S32x64x128, .f32⟩
  | 35 => ⟨S32x64x127, .f32⟩
  | 36 => ⟨S127, .f32⟩
  | 37 => ⟨S1x1x127, .f32⟩
  | 38 => ⟨S32x64x127, .f32⟩
  | 39 => ⟨S32x64x127, .f32⟩
  | 40 => ⟨S_, .i32⟩
  | 41 => ⟨S_, .f32⟩
  | 42 => ⟨S32x64x128, .f32⟩
  | 43 => ⟨S32x64x128, .f32⟩
  | 44 => ⟨S1, .f32⟩
  | 45 => ⟨S_, .f32⟩
  | 46 => ⟨S32x64x1, .f32⟩
  | 47 => ⟨S32x64, .f32⟩
  | 48 => ⟨S32x64, .f32⟩
  | 49 => ⟨S32x64, .f32⟩
  | 50 => ⟨S1, .f32⟩
  | 51 => ⟨S_, .f32⟩
  | 52 => ⟨S32x64x1, .f32⟩
  | 53 => ⟨S32x64, .f32⟩
  | 54 => ⟨S32x64, .f32⟩
  | 55 => ⟨S32x64, .f32⟩
  | 56 => ⟨S32x64, .f32⟩
  | 57 => ⟨S32x64, .f32⟩
  | 58 => ⟨S1, .f32⟩
  | 59 => ⟨S_, .f32⟩
  | 60 => ⟨S32x64, .f32⟩
  | 61 => ⟨S32x64, .f32⟩
  | 62 => ⟨S_, .i32⟩
  | 63 => ⟨S1, .i32⟩
  | 64 => ⟨S32x64x128, .f32⟩
  | 65 => ⟨S32x64, .f32⟩
  | 66 => ⟨S1, .f32⟩
  | 67 => ⟨S_, .f32⟩
  | 68 => ⟨S32x64, .f32⟩
  | 69 => ⟨S32x64, .f32⟩
  | 70 => ⟨S_, .i32⟩
  | 71 => ⟨S1, .i32⟩
  | 72 => ⟨S32x64x128, .f32⟩
  | 73 => ⟨S32x64x256, .f32⟩
  | 74 => ⟨S128, .f32⟩
  | 75 => ⟨S128, .f32⟩
  | 76 => ⟨S_, .f32⟩
  | 77 => ⟨S128, .f32⟩
  | 78 => ⟨S128x128, .i32⟩
  | 79 => ⟨S128x128, .i32⟩
  | 80 => ⟨S_, .i32⟩
  | 81 => ⟨S128x128, .i32⟩
  | 82 => ⟨S128x128, .i32⟩
  | 83 => ⟨S128x128, .i1⟩
  | 84 => ⟨S128x1, .f32⟩
  | 85 => ⟨S_, .f32⟩
  | 86 => ⟨S128x128, .f32⟩
  | 87 => ⟨S128x128, .f32⟩
  | 88 => ⟨S128x128, .f32⟩
  | 89 => ⟨S127, .f32⟩
  | 90 => ⟨S127, .f32⟩
  | 91 => ⟨S127, .f32⟩
  | 92 => ⟨S127, .f32⟩
  | 93 => ⟨S_, .f32⟩
  | 94 => ⟨S127, .f32⟩
  | 95 => ⟨S127x127, .i32⟩
  | 96 => ⟨S127x127, .i32⟩
  | 97 => ⟨S_, .i32⟩
  | 98 => ⟨S127x127, .i32⟩
  | 99 => ⟨S127x127, .i32⟩
  | 100 => ⟨S127x127, .i1⟩
  | 101 => ⟨S127x1, .f32⟩
  | 102 => ⟨S_, .f32⟩
  | 103 => ⟨S127x127, .f32⟩
  | 104 => ⟨S127x127, .f32⟩
  | 105 => ⟨S127x127, .f32⟩
  | 106 => ⟨S_, .i32⟩
  | 107 => ⟨S1, .i32⟩
  | 108 => ⟨S_, .i32⟩
  | 109 => ⟨S1, .i32⟩
  | 110 => ⟨S2, .i32⟩
  | 111 => ⟨S128x128, .f32⟩
  | 112 => ⟨S127, .f32⟩
  | 113 => ⟨S127, .f32⟩
  | 114 => ⟨S127, .f32⟩
  | 115 => ⟨S_, .f32⟩
  | 116 => ⟨S128, .f32⟩
  | 117 => ⟨S128x128, .i32⟩
  | 118 => ⟨S128x128, .i32⟩
  | 119 => ⟨S_, .i32⟩
  | 120 => ⟨S128x128, .i32⟩
  | 121 => ⟨S128x128, .i32⟩
  | 122 => ⟨S128x128, .i1⟩
  | 123 => ⟨S128x1, .f32⟩
  | 124 => ⟨S_, .f32⟩
  | 125 => ⟨S128x128, .f32⟩
  | 126 => ⟨S128x128, .f32⟩
  | 127 => ⟨S128x128, .f32⟩
  | _ => ⟨S32x64, .f32⟩

abbrev hbmTy0_1 (i : Nat) : BufTy := match i % 128 with
  | 0 => ⟨S128x128, .f32⟩
  | 1 => ⟨S127, .f32⟩
  | 2 => ⟨S127, .f32⟩
  | 3 => ⟨S127, .f32⟩
  | 4 => ⟨S_, .f32⟩
  | 5 => ⟨S128, .f32⟩
  | 6 => ⟨S128x128, .i32⟩
  | 7 => ⟨S128x128, .i32⟩
  | 8 => ⟨S_, .i32⟩
  | 9 => ⟨S128x128, .i32⟩
  | 10 => ⟨S128x128, .i32⟩
  | 11 => ⟨S128x128, .i1⟩
  | 12 => ⟨S128x1, .f32⟩
  | 13 => ⟨S_, .f32⟩
  | 14 => ⟨S128x128, .f32⟩
  | 15 => ⟨S128x128, .f32⟩
  | 16 => ⟨S128x128, .f32⟩
  | 17 => ⟨S128x128, .f32⟩
  | 18 => ⟨S128, .f32⟩
  | 19 => ⟨S128, .f32⟩
  | 20 => ⟨S_, .f32⟩
  | 21 => ⟨S128, .f32⟩
  | 22 => ⟨S128x128, .i32⟩
  | 23 => ⟨S128x128, .i32⟩
  | 24 => ⟨S_, .i32⟩
  | 25 => ⟨S128x128, .i32⟩
  | 26 => ⟨S128x128, .i32⟩
  | 27 => ⟨S128x128, .i1⟩
  | 28 => ⟨S128x1, .f32⟩
  | 29 => ⟨S_, .f32⟩
  | 30 => ⟨S128x128, .f32⟩
  | 31 => ⟨S128x128, .f32⟩
  | 32 => ⟨S128x128, .f32⟩
  | 33 => ⟨S127, .f32⟩
  | 34 => ⟨S127, .f32⟩
  | 35 => ⟨S127, .f32⟩
  | 36 => ⟨S127, .f32⟩
  | 37 => ⟨S_, .f32⟩
  | 38 => ⟨S127, .f32⟩
  | 39 => ⟨S127x127, .i32⟩
  | 40 => ⟨S127x127, .i32⟩
  | 41 => ⟨S_, .i32⟩
  | 42 => ⟨S127x127, .i32⟩
  | 43 => ⟨S127x127, .i32⟩
  | 44 => ⟨S127x127, .i1⟩
  | 45 => ⟨S127x1, .f32⟩
  | 46 => ⟨S_, .f32⟩
  | 47 => ⟨S127x127, .f32⟩
  | 48 => ⟨S127x127, .f32⟩
  | 49 => ⟨S127x127, .f32⟩
  | 50 => ⟨S_, .i32⟩
  | 51 => ⟨S1, .i32⟩
  | 52 => ⟨S_, .i32⟩
  | 53 => ⟨S1, .i32⟩
  | 54 => ⟨S2, .i32⟩
  | 55 => ⟨S128x128, .f32⟩
  | 56 => ⟨S127, .f32⟩
  | 57 => ⟨S127, .f32⟩
  | 58 => ⟨S127, .f32⟩
  | 59 => ⟨S_, .f32⟩
  | 60 => ⟨S128, .f32⟩
  | 61 => ⟨S128x128, .i32⟩
  | 62 => ⟨S128x128, .i32⟩
  | 63 => ⟨S_, .i32⟩
  | 64 => ⟨S128x128, .i32⟩
  | 65 => ⟨S128x128, .i32⟩
  | 66 => ⟨S128x128, .i1⟩
  | 67 => ⟨S128x1, .f32⟩
  | 68 => ⟨S_, .f32⟩
  | 69 => ⟨S128x128, .f32⟩
  | 70 => ⟨S128x128, .f32⟩
  | 71 => ⟨S128x128, .f32⟩
  | 72 => ⟨S128x128, .f32⟩
  | 73 => ⟨S127, .f32⟩
  | 74 => ⟨S127, .f32⟩
  | 75 => ⟨S127, .f32⟩
  | 76 => ⟨S_, .f32⟩
  | 77 => ⟨S128, .f32⟩
  | 78 => ⟨S128x128, .i32⟩
  | 79 => ⟨S128x128, .i32⟩
  | 80 => ⟨S_, .i32⟩
  | 81 => ⟨S128x128, .i32⟩
  | 82 => ⟨S128x128, .i32⟩
  | 83 => ⟨S128x128, .i1⟩
  | 84 => ⟨S128x1, .f32⟩
  | 85 => ⟨S_, .f32⟩
  | 86 => ⟨S128x128, .f32⟩
  | 87 => ⟨S128x128, .f32⟩
  | 88 => ⟨S128x128, .f32⟩
  | 89 => ⟨S128x128, .f32⟩
  | 90 => ⟨S_, .f32⟩
  | 91 => ⟨S256x256, .f32⟩
  | 92 => ⟨S128x128, .i32⟩
  | 93 => ⟨S128x128, .i32⟩
  | 94 => ⟨S_, .i32⟩
  | 95 => ⟨S128x128, .i32⟩
  | 96 => ⟨S128x128, .i32⟩
  | 97 => ⟨S128x128, .i1⟩
  | 98 => ⟨S128x128, .f32⟩
  | 99 => ⟨S_, .i32⟩
  | 100 => ⟨S1, .i32⟩
  | 101 => ⟨S_, .i32⟩
  | 102 => ⟨S1, .i32⟩
  | 103 => ⟨S2, .i32⟩
  | 104 => ⟨S256x256, .f32⟩
  | 105 => ⟨S_, .i32⟩
  | 106 => ⟨S1, .i32⟩
  | 107 => ⟨S_, .i32⟩
  | 108 => ⟨S1, .i32⟩
  | 109 => ⟨S2, .i32⟩
  | 110 => ⟨S256x256, .f32⟩
  | 111 => ⟨S_, .i32⟩
  | 112 => ⟨S1, .i32⟩
  | 113 => ⟨S_, .i32⟩
  | 114 => ⟨S1, .i32⟩
  | 115 => ⟨S2, .i32⟩
  | 116 => ⟨S256x256, .f32⟩
  | 117 => ⟨S32x64x256x256, .f32⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_v6 : Ref sig .tc := ⟨.hbm, 15, rfl⟩
abbrev main_call1_v0 : Ref sig .tc := ⟨.hbm, 16, rfl⟩
abbrev main_call1_v1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_call2_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_1 : Ref sig .tc := ⟨.hbm, 40, rfl⟩
abbrev main_call3_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_2 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_3 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_call4_cst : Ref sig .tc := ⟨.hbm, 76, rfl⟩
abbrev main_call4_v0 : Ref sig .tc := ⟨.hbm, 77, rfl⟩
abbrev main_call4_v1 : Ref sig .tc := ⟨.hbm, 78, rfl⟩
abbrev main_call4_v2 : Ref sig .tc := ⟨.hbm, 79, rfl⟩
abbrev main_call4_c : Ref sig .tc := ⟨.hbm, 80, rfl⟩
abbrev main_call4_v3 : Ref sig .tc := ⟨.hbm, 81, rfl⟩
abbrev main_call4_v4 : Ref sig .tc := ⟨.hbm, 82, rfl⟩
abbrev main_call4_v5 : Ref sig .tc := ⟨.hbm, 83, rfl⟩
abbrev main_call4_v6 : Ref sig .tc := ⟨.hbm, 84, rfl⟩
abbrev main_call4_cst_0 : Ref sig .tc := ⟨.hbm, 85, rfl⟩
abbrev main_call4_call0_v0 : Ref sig .tc := ⟨.hbm, 86, rfl⟩
abbrev main_call4_call0_v1 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_call5_cst : Ref sig .tc := ⟨.hbm, 93, rfl⟩
abbrev main_call5_v0 : Ref sig .tc := ⟨.hbm, 94, rfl⟩
abbrev main_call5_v1 : Ref sig .tc := ⟨.hbm, 95, rfl⟩
abbrev main_call5_v2 : Ref sig .tc := ⟨.hbm, 96, rfl⟩
abbrev main_call5_c : Ref sig .tc := ⟨.hbm, 97, rfl⟩
abbrev main_call5_v3 : Ref sig .tc := ⟨.hbm, 98, rfl⟩
abbrev main_call5_v4 : Ref sig .tc := ⟨.hbm, 99, rfl⟩
abbrev main_call5_v5 : Ref sig .tc := ⟨.hbm, 100, rfl⟩
abbrev main_call5_v6 : Ref sig .tc := ⟨.hbm, 101, rfl⟩
abbrev main_call5_cst_0 : Ref sig .tc := ⟨.hbm, 102, rfl⟩
abbrev main_call5_call0_v0 : Ref sig .tc := ⟨.hbm, 103, rfl⟩
abbrev main_call5_call0_v1 : Ref sig .tc := ⟨.hbm, 104, rfl⟩
abbrev main_v64 : Ref sig .tc := ⟨.hbm, 105, rfl⟩
abbrev main_c_4 : Ref sig .tc := ⟨.hbm, 106, rfl⟩
abbrev main_v65 : Ref sig .tc := ⟨.hbm, 107, rfl⟩
abbrev main_c_5 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_call6_cst : Ref sig .tc := ⟨.hbm, 115, rfl⟩
abbrev main_call6_v0 : Ref sig .tc := ⟨.hbm, 116, rfl⟩
abbrev main_call6_v1 : Ref sig .tc := ⟨.hbm, 117, rfl⟩
abbrev main_call6_v2 : Ref sig .tc := ⟨.hbm, 118, rfl⟩
abbrev main_call6_c : Ref sig .tc := ⟨.hbm, 119, rfl⟩
abbrev main_call6_v3 : Ref sig .tc := ⟨.hbm, 120, rfl⟩
abbrev main_call6_v4 : Ref sig .tc := ⟨.hbm, 121, rfl⟩
abbrev main_call6_v5 : Ref sig .tc := ⟨.hbm, 122, rfl⟩
abbrev main_call6_v6 : Ref sig .tc := ⟨.hbm, 123, rfl⟩
abbrev main_call6_cst_0 : Ref sig .tc := ⟨.hbm, 124, rfl⟩
abbrev main_call6_call0_v0 : Ref sig .tc := ⟨.hbm, 125, rfl⟩
abbrev main_call6_call0_v1 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_call7_cst : Ref sig .tc := ⟨.hbm, 132, rfl⟩
abbrev main_call7_v0 : Ref sig .tc := ⟨.hbm, 133, rfl⟩
abbrev main_call7_v1 : Ref sig .tc := ⟨.hbm, 134, rfl⟩
abbrev main_call7_v2 : Ref sig .tc := ⟨.hbm, 135, rfl⟩
abbrev main_call7_c : Ref sig .tc := ⟨.hbm, 136, rfl⟩
abbrev main_call7_v3 : Ref sig .tc := ⟨.hbm, 137, rfl⟩
abbrev main_call7_v4 : Ref sig .tc := ⟨.hbm, 138, rfl⟩
abbrev main_call7_v5 : Ref sig .tc := ⟨.hbm, 139, rfl⟩
abbrev main_call7_v6 : Ref sig .tc := ⟨.hbm, 140, rfl⟩
abbrev main_call7_cst_0 : Ref sig .tc := ⟨.hbm, 141, rfl⟩
abbrev main_call7_call0_v0 : Ref sig .tc := ⟨.hbm, 142, rfl⟩
abbrev main_call7_call0_v1 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_call8_cst : Ref sig .tc := ⟨.hbm, 148, rfl⟩
abbrev main_call8_v0 : Ref sig .tc := ⟨.hbm, 149, rfl⟩
abbrev main_call8_v1 : Ref sig .tc := ⟨.hbm, 150, rfl⟩
abbrev main_call8_v2 : Ref sig .tc := ⟨.hbm, 151, rfl⟩
abbrev main_call8_c : Ref sig .tc := ⟨.hbm, 152, rfl⟩
abbrev main_call8_v3 : Ref sig .tc := ⟨.hbm, 153, rfl⟩
abbrev main_call8_v4 : Ref sig .tc := ⟨.hbm, 154, rfl⟩
abbrev main_call8_v5 : Ref sig .tc := ⟨.hbm, 155, rfl⟩
abbrev main_call8_v6 : Ref sig .tc := ⟨.hbm, 156, rfl⟩
abbrev main_call8_cst_0 : Ref sig .tc := ⟨.hbm, 157, rfl⟩
abbrev main_call8_call0_v0 : Ref sig .tc := ⟨.hbm, 158, rfl⟩
abbrev main_call8_call0_v1 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_call9_cst : Ref sig .tc := ⟨.hbm, 165, rfl⟩
abbrev main_call9_v0 : Ref sig .tc := ⟨.hbm, 166, rfl⟩
abbrev main_call9_v1 : Ref sig .tc := ⟨.hbm, 167, rfl⟩
abbrev main_call9_v2 : Ref sig .tc := ⟨.hbm, 168, rfl⟩
abbrev main_call9_c : Ref sig .tc := ⟨.hbm, 169, rfl⟩
abbrev main_call9_v3 : Ref sig .tc := ⟨.hbm, 170, rfl⟩
abbrev main_call9_v4 : Ref sig .tc := ⟨.hbm, 171, rfl⟩
abbrev main_call9_v5 : Ref sig .tc := ⟨.hbm, 172, rfl⟩
abbrev main_call9_v6 : Ref sig .tc := ⟨.hbm, 173, rfl⟩
abbrev main_call9_cst_0 : Ref sig .tc := ⟨.hbm, 174, rfl⟩
abbrev main_call9_call0_v0 : Ref sig .tc := ⟨.hbm, 175, rfl⟩
abbrev main_call9_call0_v1 : Ref sig .tc := ⟨.hbm, 176, rfl⟩
abbrev main_v86 : Ref sig .tc := ⟨.hbm, 177, rfl⟩
abbrev main_c_6 : Ref sig .tc := ⟨.hbm, 178, rfl⟩
abbrev main_v87 : Ref sig .tc := ⟨.hbm, 179, rfl⟩
abbrev main_c_7 : Ref sig .tc := ⟨.hbm, 180, rfl⟩
abbrev main_v88 : Ref sig .tc := ⟨.hbm, 181, rfl⟩
abbrev main_v89 : Ref sig .tc := ⟨.hbm, 182, rfl⟩
abbrev main_v90 : Ref sig .tc := ⟨.hbm, 183, rfl⟩
abbrev main_v91 : Ref sig .tc := ⟨.hbm, 184, rfl⟩
abbrev main_v92 : Ref sig .tc := ⟨.hbm, 185, rfl⟩
abbrev main_v93 : Ref sig .tc := ⟨.hbm, 186, rfl⟩
abbrev main_call10_cst : Ref sig .tc := ⟨.hbm, 187, rfl⟩
abbrev main_call10_v0 : Ref sig .tc := ⟨.hbm, 188, rfl⟩
abbrev main_call10_v1 : Ref sig .tc := ⟨.hbm, 189, rfl⟩
abbrev main_call10_v2 : Ref sig .tc := ⟨.hbm, 190, rfl⟩
abbrev main_call10_c : Ref sig .tc := ⟨.hbm, 191, rfl⟩
abbrev main_call10_v3 : Ref sig .tc := ⟨.hbm, 192, rfl⟩
abbrev main_call10_v4 : Ref sig .tc := ⟨.hbm, 193, rfl⟩
abbrev main_call10_v5 : Ref sig .tc := ⟨.hbm, 194, rfl⟩
abbrev main_call10_v6 : Ref sig .tc := ⟨.hbm, 195, rfl⟩
abbrev main_call10_cst_0 : Ref sig .tc := ⟨.hbm, 196, rfl⟩
abbrev main_call10_call0_v0 : Ref sig .tc := ⟨.hbm, 197, rfl⟩
abbrev main_call10_call0_v1 : Ref sig .tc := ⟨.hbm, 198, rfl⟩
abbrev main_v94 : Ref sig .tc := ⟨.hbm, 199, rfl⟩
abbrev main_v95 : Ref sig .tc := ⟨.hbm, 200, rfl⟩
abbrev main_v96 : Ref sig .tc := ⟨.hbm, 201, rfl⟩
abbrev main_v97 : Ref sig .tc := ⟨.hbm, 202, rfl⟩
abbrev main_v98 : Ref sig .tc := ⟨.hbm, 203, rfl⟩
abbrev main_call11_cst : Ref sig .tc := ⟨.hbm, 204, rfl⟩
abbrev main_call11_v0 : Ref sig .tc := ⟨.hbm, 205, rfl⟩
abbrev main_call11_v1 : Ref sig .tc := ⟨.hbm, 206, rfl⟩
abbrev main_call11_v2 : Ref sig .tc := ⟨.hbm, 207, rfl⟩
abbrev main_call11_c : Ref sig .tc := ⟨.hbm, 208, rfl⟩
abbrev main_call11_v3 : Ref sig .tc := ⟨.hbm, 209, rfl⟩
abbrev main_call11_v4 : Ref sig .tc := ⟨.hbm, 210, rfl⟩
abbrev main_call11_v5 : Ref sig .tc := ⟨.hbm, 211, rfl⟩
abbrev main_call11_v6 : Ref sig .tc := ⟨.hbm, 212, rfl⟩
abbrev main_call11_cst_0 : Ref sig .tc := ⟨.hbm, 213, rfl⟩
abbrev main_call11_call0_v0 : Ref sig .tc := ⟨.hbm, 214, rfl⟩
abbrev main_call11_call0_v1 : Ref sig .tc := ⟨.hbm, 215, rfl⟩
abbrev main_v99 : Ref sig .tc := ⟨.hbm, 216, rfl⟩
abbrev main_v100 : Ref sig .tc := ⟨.hbm, 217, rfl⟩
abbrev main_cst_8 : Ref sig .tc := ⟨.hbm, 218, rfl⟩
abbrev main_v101 : Ref sig .tc := ⟨.hbm, 219, rfl⟩
abbrev main_v102 : Ref sig .tc := ⟨.hbm, 220, rfl⟩
abbrev main_v103 : Ref sig .tc := ⟨.hbm, 221, rfl⟩
abbrev main_c_9 : Ref sig .tc := ⟨.hbm, 222, rfl⟩
abbrev main_v104 : Ref sig .tc := ⟨.hbm, 223, rfl⟩
abbrev main_v105 : Ref sig .tc := ⟨.hbm, 224, rfl⟩
abbrev main_v106 : Ref sig .tc := ⟨.hbm, 225, rfl⟩
abbrev main_v107 : Ref sig .tc := ⟨.hbm, 226, rfl⟩
abbrev main_c_10 : Ref sig .tc := ⟨.hbm, 227, rfl⟩
abbrev main_v108 : Ref sig .tc := ⟨.hbm, 228, rfl⟩
abbrev main_c_11 : Ref sig .tc := ⟨.hbm, 229, rfl⟩
abbrev main_v109 : Ref sig .tc := ⟨.hbm, 230, rfl⟩
abbrev main_v110 : Ref sig .tc := ⟨.hbm, 231, rfl⟩
abbrev main_v111 : Ref sig .tc := ⟨.hbm, 232, rfl⟩
abbrev main_c_12 : Ref sig .tc := ⟨.hbm, 233, rfl⟩
abbrev main_v112 : Ref sig .tc := ⟨.hbm, 234, rfl⟩
abbrev main_c_13 : Ref sig .tc := ⟨.hbm, 235, rfl⟩
abbrev main_v113 : Ref sig .tc := ⟨.hbm, 236, rfl⟩
abbrev main_v114 : Ref sig .tc := ⟨.hbm, 237, rfl⟩
abbrev main_v115 : Ref sig .tc := ⟨.hbm, 238, rfl⟩
abbrev main_c_14 : Ref sig .tc := ⟨.hbm, 239, rfl⟩
abbrev main_v116 : Ref sig .tc := ⟨.hbm, 240, rfl⟩
abbrev main_c_15 : Ref sig .tc := ⟨.hbm, 241, rfl⟩
abbrev main_v117 : Ref sig .tc := ⟨.hbm, 242, rfl⟩
abbrev main_v118 : Ref sig .tc := ⟨.hbm, 243, rfl⟩
abbrev main_v119 : Ref sig .tc := ⟨.hbm, 244, rfl⟩
abbrev main_v120 : Ref sig .tc := ⟨.hbm, 245, rfl⟩

abbrev nD : Nat := 1
abbrev τ : Topo := Topo.v7x

variable {F : FTy → Type} [FloatOps F]

class Facts₀ : Prop where
  bcast_S_S128 : S_.BroadcastsInDim S128 (![] : Fin 0 → Fin S128.rank)
  slices_S32x64x256_S32x64x128_0_0_0 : S32x64x256.Slices ![0, 0, 0] S32x64x128
  slices_S32x64x256_S32x64x128_0_0_128 : S32x64x256.Slices ![0, 0, 128] S32x64x128
  slices_S32x64x128_S32x64x127_0_0_1 : S32x64x128.Slices ![0, 0, 1] S32x64x127
  slices_S32x64x128_S32x64x127_0_0_0 : S32x64x128.Slices ![0, 0, 0] S32x64x127
  slices_S128_S127_0 : S128.Slices ![0] S127
  bcast_S127_S1x1x127_2 : S127.BroadcastsInDim S1x1x127 (![2] : Fin 1 → Fin S1x1x127.rank)
  bcast_S1x1x127_S32x64x127_0_1_2 : S1x1x127.BroadcastsInDim S32x64x127 (![0, 1, 2] : Fin 3 → Fin S32x64x127.rank)
  pads_S32x64x127_S32x64x128_000_000_010 : S32x64x127.Pads (![0, 0, 0] : Fin 3 → Nat) ![0, 0, 1] ![0, 0, 0] S32x64x128
  h_S_ : 0 < S_.numel
  slices_S128_S127_1 : S128.Slices ![1] S127
  pads_S32x64x127_S32x64x128_000_000_100 : S32x64x127.Pads (![0, 0, 1] : Fin 3 → Nat) ![0, 0, 0] ![0, 0, 0] S32x64x128
  slices_S128_S1_127 : S128.Slices ![127] S1
  shapeCasts_S1_S_ : S1.ShapeCasts S_
  slices_S32x64x128_S32x64x1_0_0_127 : S32x64x128.Slices ![0, 0, 127] S32x64x1
  shapeCasts_S32x64x1_S32x64 : S32x64x1.ShapeCasts S32x64
  bcast_S_S32x64 : S_.BroadcastsInDim S32x64 (![] : Fin 0 → Fin S32x64.rank)
  bcast_S_S1 : S_.BroadcastsInDim S1 (![] : Fin 0 → Fin S1.rank)
  slices_S128_S1_0 : S128.Slices ![0] S1
  concatenates_S32x64x128_S32x64x128_S32x64x256_d2 : Shape.Concatenates [S32x64x128, S32x64x128] S32x64x256 2
  pads_S128_S128_000 : S128.Pads (![0] : Fin 1 → Nat) ![0] ![0] S128
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  pads_S127_S127_000 : S127.Pads (![0] : Fin 1 → Nat) ![0] ![0] S127
  bcast_S_S127x127 : S_.BroadcastsInDim S127x127 (![] : Fin 0 → Fin S127x127.rank)
  bcast_S127_S127x1_0 : S127.BroadcastsInDim S127x1 (![0] : Fin 1 → Fin S127x1.rank)
  bcast_S127x1_S127x127_0_1 : S127x1.BroadcastsInDim S127x127 (![0, 1] : Fin 2 → Fin S127x127.rank)
  concatenates_S1_S1_S2_d0 : Shape.Concatenates [S1, S1] S2 0
  pads_S127_S128_010 : S127.Pads (![0] : Fin 1 → Nat) ![1] ![0] S128
  pads_S127_S128_100 : S127.Pads (![1] : Fin 1 → Nat) ![0] ![0] S128
  bcast_S_S256x256 : S_.BroadcastsInDim S256x256 (![] : Fin 0 → Fin S256x256.rank)
  bcast_S256x256_S32x64x256x256_2_3 : S256x256.BroadcastsInDim S32x64x256x256 (![2, 3] : Fin 2 → Fin S32x64x256x256.rank)
  scatter_S32x64x128_S1_S32x64_01_2_2_0_wf : ScatterDims.WF S32x64x128 S1 S32x64 [0, 1] [2] [2] 0
  scatter_S128x128_S2_S127x127_01_n_01_0_wf : ScatterDims.WF S128x128 S2 S127x127 [0, 1] [] [0, 1] 0
  scatter_S256x256_S2_S128x128_01_n_01_0_wf : ScatterDims.WF S256x256 S2 S128x128 [0, 1] [] [0, 1] 0

variable [Facts₀]

def scatter_S32x64x128_S1_S32x64_01_2_2_0 : ScatterDims S32x64x128 S1 S32x64 where
  updateWindowDims := [0, 1]
  insertedWindowDims := [2]
  scatterDimsToOperandDims := [2]
  indexVectorDim := 0
  wf := scatter_S32x64x128_S1_S32x64_01_2_2_0_wf
def scatter_S128x128_S2_S127x127_01_n_01_0 : ScatterDims S128x128 S2 S127x127 where
  updateWindowDims := [0, 1]
  insertedWindowDims := []
  scatterDimsToOperandDims := [0, 1]
  indexVectorDim := 0
  wf := scatter_S128x128_S2_S127x127_01_n_01_0_wf
def scatter_S256x256_S2_S128x128_01_n_01_0 : ScatterDims S256x256 S2 S128x128 where
  updateWindowDims := [0, 1]
  insertedWindowDims := []
  scatterDimsToOperandDims := [0, 1]
  indexVectorDim := 0
  wf := scatter_S256x256_S2_S128x128_01_n_01_0_wf

class Facts : Prop extends Facts₀ where

variable [Facts]
-- ==== Proof.Spec.lean ====
/-
  The mathematics both programs compute, index by index, on the extended reals.

  A chain of 128 masses: an entry of the state `y` holds 128 displacements `u` (columns 0..127) and 128 velocities `v`
  (columns 128..255). With stiffness `K`, scaled damping `Cs = C · c₄` and scaled mass `Ms = M · c₅`, link `k` (between
  masses `k` and `k+1`, `k < 127`) carries the force `f k = K k · (u (k+1) − u k) + Cs k · (v (k+1) − v k)`. The acceleration
  of mass `k` is `f k / Ms k` (absent for the last mass) plus `−f (k−1) / Ms k` (absent for the first), to which the last
  mass adds the wall term `−(K 127 · u 127 + Cs 127 · v 127) / Ms 127` and the first the drive `sin t / Ms 0`.
  The time derivative of the state is the velocities followed by the accelerations. The Jacobian is one 256×256 matrix,
  the same for every chunk and batch entry.
-/
import Idealize.ShloMosaic.PureOps.Ideal
import Idealize.ShloMosaic.Lib.ValueIdx

noncomputable section

namespace Cert.Spec

open Idealize.ShloMosaic Idealize.ShloMosaic.ValueIdx

/-- The scale of the masses, the binary value of the literal both programs multiply `M` by. -/
def c5 : Ideal .f32 := Ideal.ofBits .f32 0x3727C5AC#32
/-- The scale of the damping, the binary value of the literal both programs multiply `C` by. -/
def c4 : Ideal .f32 := Ideal.ofBits .f32 0x38D1B717#32

variable (t : FVec Ideal ⟨2, ![32, 64]⟩ .f32) (y : FVec Ideal ⟨3, ![32, 64, 256]⟩ .f32)
  (K C M : FVec Ideal ⟨1, ![128]⟩ .f32)

/-- Scaled mass `k`. -/
def Ms (k : Fin 128) : Ideal .f32 := M (ix1 k) * c5
/-- Scaled damping `k`. -/
def Cs (k : Fin 128) : Ideal .f32 := C (ix1 k) * c4

/-- Displacement `k` of entry `(i, r)`. -/
def u (i : Fin 32) (r : Fin 64) (k : Fin 128) : Ideal .f32 := y (ix3 i r ⟨k.val, by have := k.isLt; omega⟩)
/-- Velocity `k` of entry `(i, r)`. -/
def v (i : Fin 32) (r : Fin 64) (k : Fin 128) : Ideal .f32 := y (ix3 i r ⟨128 + k.val, by have := k.isLt; omega⟩)

/-- The force in link `k` (`k < 127`) of entry `(i, r)`. -/
def link (i : Fin 32) (r : Fin 64) (k : Fin 127) : Ideal .f32 :=
  K (ix1 ⟨k.val, by have := k.isLt; omega⟩) * (u y i r ⟨1 + k.val, by have := k.isLt; omega⟩ - u y i r ⟨k.val, by have := k.isLt; omega⟩)
    + Cs C ⟨k.val, by have := k.isLt; omega⟩ * (v y i r ⟨1 + k.val, by have := k.isLt; omega⟩ - v y i r ⟨k.val, by have := k.isLt; omega⟩)

/-- The links' share of mass `k`'s acceleration: link `k` pulls it forward, link `k − 1` pulls it back. -/
def inner (i : Fin 32) (r : Fin 64) (k : Fin 128) : Ideal .f32 :=
  (if h : k.val < 127 then Ideal.div (link y K C i r ⟨k.val, h⟩) (Ms M k) else 0)
    + (if h : 0 < k.val then Ideal.div (-(link y K C i r ⟨k.val - 1, by have := k.isLt; omega⟩)) (Ms M k) else 0)

/-- The wall's pull on the last mass. -/
def wall (i : Fin 32) (r : Fin 64) : Ideal .f32 :=
  Ideal.div (-(K (ix1 (127 : Fin 128)) * u y i r 127 + Cs C 127 * v y i r 127)) (Ms M 127)

/-- The drive on the first mass. -/
def drive (i : Fin 32) (r : Fin 64) : Ideal .f32 := Ideal.div (Ideal.sin (t (ix2 i r))) (Ms M 0)

/-- The acceleration of mass `k` of entry `(i, r)`. -/
def accel (i : Fin 32) (r : Fin 64) (k : Fin 128) : Ideal .f32 :=
  if k.val = 127 then inner y K C M i r k + wall y K C M i r
  else if k.val = 0 then inner y K C M i r k + drive t M i r
  else inner y K C M i r k

/-- The state's time derivative: the velocities, then the accelerations. -/
def ydot (i : Fin 32) (r : Fin 64) (j : Fin 256) : Ideal .f32 :=
  if h : j.val < 128 then v y i r ⟨j.val, h⟩ else accel t y K C M i r ⟨j.val - 128, by have := j.isLt; omega⟩

/-- The state's time derivative as an array. -/
def Ydot : FVec Ideal ⟨3, ![32, 64, 256]⟩ .f32 := fun idx => ydot t y K C M (idx 0) (idx 1) (idx 2)

/-- The Jacobian: one matrix, repeated over every chunk and batch entry. -/
def Jac (Jb : FVec Ideal ⟨2, ![256, 256]⟩ .f32) : FVec Ideal ⟨4, ![32, 64, 256, 256]⟩ .f32 :=
  fun idx => Jb (ix2 (idx 2) (idx 3))

end Cert.Spec

end
-- ==== Proof.LibLastAxis.lean ====
/-
  Rank-three arrays handled along their LAST axis, read at an index given by coordinates: a slice of the last axis, a
  two-piece concatenation along it, one row repeated over the two leading axes, and a trailing unit axis dropped or
  added. Each lemma is the library's read-at-an-index lemma for the operation with the coordinates' arithmetic done.
-/
import Idealize.ShloMosaic.Lib.Pipeline.Value
import Idealize.ShloMosaic.Lib.ValueIdx

namespace Cert.LibLastAxis

open Idealize.ShloMosaic Idealize.ShloMosaic.ValueIdx

variable {α : Type}

/-- A rank-3 array cut along its last axis from `o` reads, at `(i, r, k)`, the source at `(i, r, o + k)`. -/
theorem slice3_last {a b n m : Nat} (o : Nat) (X : (⟨3, ![a, b, n]⟩ : Shape).Idx → α)
    (h : (⟨3, ![a, b, n]⟩ : Shape).Slices ![0, 0, o] ⟨3, ![a, b, m]⟩)
    (i : Fin a) (r : Fin b) (k : Fin m) (hk : o + k.val < n) :
    extractStridedSlice ⟨3, ![a, b, m]⟩ ![0, 0, o] X h (ix3 i r k) = X (ix3 i r ⟨o + k.val, hk⟩) :=
  extractStridedSlice_apply _ _ _ _ _ (fun ax => by
    match ax with
    | ⟨0, _⟩ => exact (Nat.zero_add _).symm
    | ⟨1, _⟩ => exact (Nat.zero_add _).symm
    | ⟨2, _⟩ => rfl)

/-- A vector cut from `o` reads, at `k`, the source at `o + k`. -/
theorem slice1 {n m : Nat} (o : Nat) (X : (⟨1, ![n]⟩ : Shape).Idx → α)
    (h : (⟨1, ![n]⟩ : Shape).Slices ![o] ⟨1, ![m]⟩) (k : Fin m) (hk : o + k.val < n) :
    extractStridedSlice ⟨1, ![m]⟩ ![o] X h (ix1 k) = X (ix1 ⟨o + k.val, hk⟩) :=
  extractStridedSlice_apply _ _ _ _ _ (fun ax => by
    match ax with
    | ⟨0, _⟩ => rfl)

/-- Two rank-3 arrays joined along the last axis, read in the FIRST piece. -/
theorem concat3_last_left {a b n n1 n2 : Nat} (x1 : (⟨3, ![a, b, n1]⟩ : Shape).Idx → α) (x2 : (⟨3, ![a, b, n2]⟩ : Shape).Idx → α)
    (h : Shape.Concatenates [(⟨3, ![a, b, n1]⟩ : Shape), ⟨3, ![a, b, n2]⟩] ⟨3, ![a, b, n]⟩ 2)
    (i : Fin a) (r : Fin b) (k : Fin n) (hk : k.val < n1) :
    concatenate ⟨3, ![a, b, n]⟩ 2 [⟨⟨3, ![a, b, n1]⟩, x1⟩, ⟨⟨3, ![a, b, n2]⟩, x2⟩] h (ix3 i r k) = x1 (ix3 i r ⟨k.val, hk⟩) :=
  concatenate_pair_apply_left _ x1 x2 h _ rfl _ (fun ax => by
    match ax with
    | ⟨0, _⟩ => rfl
    | ⟨1, _⟩ => rfl
    | ⟨2, _⟩ => rfl)

/-- Two rank-3 arrays joined along the last axis, read in the SECOND piece. -/
theorem concat3_last_right {a b n n1 n2 : Nat} (x1 : (⟨3, ![a, b, n1]⟩ : Shape).Idx → α) (x2 : (⟨3, ![a, b, n2]⟩ : Shape).Idx → α)
    (h : Shape.Concatenates [(⟨3, ![a, b, n1]⟩ : Shape), ⟨3, ![a, b, n2]⟩] ⟨3, ![a, b, n]⟩ 2)
    (i : Fin a) (r : Fin b) (k : Fin n) (hk : n1 ≤ k.val) (hk2 : k.val - n1 < n2) :
    concatenate ⟨3, ![a, b, n]⟩ 2 [⟨⟨3, ![a, b, n1]⟩, x1⟩, ⟨⟨3, ![a, b, n2]⟩, x2⟩] h (ix3 i r k) = x2 (ix3 i r ⟨k.val - n1, hk2⟩) :=
  concatenate_pair_apply_right _ x1 x2 h _ rfl rfl _ (fun ax hax => by
    match ax with
    | ⟨0, _⟩ => rfl
    | ⟨1, _⟩ => rfl
    | ⟨2, _⟩ => exact absurd rfl hax)
    (by show (k.val - n1) + n1 = k.val; omega)

/-- Two rank-3 arrays joined along the last axis, read at any index: the first piece below its extent, the second above. -/
theorem concat3_last {a b n n1 n2 : Nat} (hn : n = n1 + n2) (x1 : (⟨3, ![a, b, n1]⟩ : Shape).Idx → α) (x2 : (⟨3, ![a, b, n2]⟩ : Shape).Idx → α)
    (h : Shape.Concatenates [(⟨3, ![a, b, n1]⟩ : Shape), ⟨3, ![a, b, n2]⟩] ⟨3, ![a, b, n]⟩ 2)
    (i : Fin a) (r : Fin b) (k : Fin n) :
    concatenate ⟨3, ![a, b, n]⟩ 2 [⟨⟨3, ![a, b, n1]⟩, x1⟩, ⟨⟨3, ![a, b, n2]⟩, x2⟩] h (ix3 i r k)
      = if hk : k.val < n1 then x1 (ix3 i r ⟨k.val, hk⟩) else x2 (ix3 i r ⟨k.val - n1, by have := k.isLt; omega⟩) := by
  split
  · next hk => exact concat3_last_left x1 x2 h i r k hk
  · next hk => exact concat3_last_right x1 x2 h i r k (by omega) _

/-- A vector laid as the one row of a `[1, 1, n]` array and repeated over two leading axes reads, at `(i, r, k)`, entry `k`. -/
theorem rowRepeat3 {a b n : Nat} (x : (⟨1, ![n]⟩ : Shape).Idx → α)
    (h1 : (⟨1, ![n]⟩ : Shape).ShapeCasts ⟨3, ![1, 1, n]⟩) (h2 : (⟨3, ![1, 1, n]⟩ : Shape).Broadcasts ⟨3, ![a, b, n]⟩)
    (i : Fin a) (r : Fin b) (k : Fin n) :
    broadcastTo ⟨3, ![a, b, n]⟩ (shapeCast ⟨3, ![1, 1, n]⟩ x h1) h2 (ix3 i r k) = x (ix1 k) := by
  refine (broadcastTo_apply _ h2 (ix3 i r k) (ix3 (0 : Fin 1) (0 : Fin 1) k) fun ax => ?_).trans ?_
  · match ax with
    | ⟨0, _⟩ => rfl
    | ⟨1, _⟩ => rfl
    | ⟨2, _⟩ =>
      show k.val = if n = 1 then 0 else k.val
      split
      · have := k.isLt; omega
      · rfl
  · refine shapeCast_apply x h1 _ _ ?_
    rw [Shape.rowMajor_val_three, Shape.rowMajor_val_one]
    show k.val = (0 * 1 + 0) * n + k.val
    omega

/-- A trailing unit axis dropped: `[a, b, 1]` cast to `[a, b]` reads, at `(i, r)`, the operand at `(i, r, 0)`. -/
theorem dropLastUnit {a b : Nat} (x : (⟨3, ![a, b, 1]⟩ : Shape).Idx → α)
    (h : (⟨3, ![a, b, 1]⟩ : Shape).ShapeCasts ⟨2, ![a, b]⟩) (i : Fin a) (r : Fin b) :
    shapeCast ⟨2, ![a, b]⟩ x h (ix2 i r) = x (ix3 i r (0 : Fin 1)) :=
  shapeCast_apply x h _ _ (by
    rw [Shape.rowMajor_val_three, Shape.rowMajor_val_two]
    show (i.val * b + r.val) * 1 + 0 = i.val * b + r.val
    omega)

/-- A trailing unit axis added: `[a, b]` cast to `[a, b, 1]` reads, at `(i, r, u)`, the operand at `(i, r)`. -/
theorem addLastUnit {a b : Nat} (x : (⟨2, ![a, b]⟩ : Shape).Idx → α)
    (h : (⟨2, ![a, b]⟩ : Shape).ShapeCasts ⟨3, ![a, b, 1]⟩) (i : Fin a) (r : Fin b) (u : Fin 1) :
    shapeCast ⟨3, ![a, b, 1]⟩ x h (ix3 i r u) = x (ix2 i r) :=
  shapeCast_apply x h _ _ (by
    have hu : u.val = 0 := by omega
    rw [Shape.rowMajor_val_three, Shape.rowMajor_val_two]
    show i.val * b + r.val = (i.val * b + r.val) * 1 + u.val
    omega)

/-- The one entry of a one-entry cut of a vector at `o` is the vector's entry `o`. -/
theorem extract1 {n : Nat} (o : Nat) (X : (⟨1, ![n]⟩ : Shape).Idx → α)
    (h : (⟨1, ![n]⟩ : Shape).Slices ![o] ⟨1, ![1]⟩) (h' : ∀ a, (![0] : Fin 1 → Nat) a < (⟨1, ![1]⟩ : Shape).size a) (ho : o < n) :
    extractAt ![0] (extractStridedSlice ⟨1, ![1]⟩ ![o] X h) h' = X (ix1 ⟨o, ho⟩) := by
  unfold extractAt extractStridedSlice
  exact congrArg X (funext fun a => by
    match a with
    | ⟨0, _⟩ => exact Fin.ext (Nat.add_zero o))

end Cert.LibLastAxis
-- ==== Proof.KerYdot.lean ====
/-
  The kernel's first output, one row of a block at a time: what the body stores at row `r`, column `j` of its block, when the
  block's rows of the state and of the time are rows of the whole arrays, is the specification's `ydot` there. The body
  builds the accelerations from pieces joined along the columns: the links' forward pull with a zero column appended, their
  backward pull with a zero column in front, the wall's pull in the last column and zeros before it, the drive in the first
  column and zeros after it; adding a zero changes nothing on the extended reals, and `0 − x = −x`.
-/
import proofs.«118620_j87110526697627_1_alg».proof.Proof.Gen.KernelIdeal.Skeleton
import proofs.«118620_j87110526697627_1_alg».proof.Proof.Spec
import proofs.«118620_j87110526697627_1_alg».proof.Proof.LibLastAxis
import Idealize.ShloMosaic.PureOps.Ideal.Laws

noncomputable section

namespace Cert.KernelIdeal.KerYdot

open Cert.KernelIdeal Cert.KernelIdeal.Gen Idealize.ShloMosaic Idealize.ShloMosaic.ValueIdx Cert.LibLastAxis

variable (K C M : Vec Ideal S128 .f32) (Y : Vec Ideal S1x32x256 .f32) (T : Vec Ideal S1x32x1 .f32)

/-- The body's scaled masses are the specification's. -/
theorem pay3_apply (k : Fin 128) : k0_pay3 (F := Ideal) M (ix1 k) = Cert.Spec.Ms M k := rfl
/-- The body's scaled dampings are the specification's. -/
theorem pay4_apply (k : Fin 128) : k0_pay4 (F := Ideal) C (ix1 k) = Cert.Spec.Cs C k := rfl

/-- The displacement columns of the block. -/
theorem pay5_apply (r : Fin 32) (k : Fin 128) : k0_pay5 (F := Ideal) Y (ix3 0 r k) = Y (ix3 0 r ⟨0 + k.val, by omega⟩) := by
  unfold k0_pay5
  exact slice3_last 0 Y _ 0 r k _

/-- The velocity columns of the block. -/
theorem pay6_apply (r : Fin 32) (k : Fin 128) : k0_pay6 (F := Ideal) Y (ix3 0 r k) = Y (ix3 0 r ⟨128 + k.val, by omega⟩) := by
  unfold k0_pay6
  exact slice3_last 128 Y _ 0 r k _

/-- The sine of a vector, entry by entry. -/
theorem sin_apply {s : Shape} (a : FVec Ideal s .f32) (i : s.Idx) : sin a i = Ideal.sin (a i) := rfl

/-- The links' share of the accelerations, at row `r` and mass `k` of the block: the forward pull (absent in the last
    column) plus the backward pull (absent in the first). -/
theorem pay7_apply (r : Fin 32) (k : Fin 128) :
    k0_pay7 (F := Ideal) K C M Y (ix3 0 r k) =
      (if hk : k.val < 127 then
        Ideal.div
          (K (ix1 ⟨k.val, by omega⟩) * (Y (ix3 0 r ⟨1 + k.val, by omega⟩) - Y (ix3 0 r ⟨k.val, by omega⟩)) +
            Cert.Spec.Cs C ⟨k.val, by omega⟩ * (Y (ix3 0 r ⟨128 + (1 + k.val), by omega⟩) - Y (ix3 0 r ⟨128 + k.val, by omega⟩)))
          (Cert.Spec.Ms M ⟨k.val, by omega⟩)
      else 0) +
      if hk : k.val < 1 then 0
      else
        Ideal.div
          (0 -
            (K (ix1 ⟨k.val - 1, by omega⟩) * (Y (ix3 0 r ⟨1 + (k.val - 1), by omega⟩) - Y (ix3 0 r ⟨k.val - 1, by omega⟩)) +
              Cert.Spec.Cs C ⟨k.val - 1, by omega⟩ * (Y (ix3 0 r ⟨128 + (1 + (k.val - 1)), by omega⟩) - Y (ix3 0 r ⟨128 + (k.val - 1), by omega⟩))))
          (Cert.Spec.Ms M ⟨1 + (k.val - 1), by omega⟩) := by
  unfold k0_pay7
  simp (disch := omega) only [addf_apply, mulf_apply, subf_apply, divf_apply, broadcast_apply, rowRepeat3, slice1, slice3_last, pay5_apply, pay6_apply, pay4_apply, pay3_apply, concat3_last (by omega : 128 = 127 + 1), concat3_last (by omega : 128 = 1 + 127), Nat.zero_add, Ideal.ofBits_def, Ideal.ofBits_zero_f32]

variable (t : FVec Ideal ⟨2, ![32, 64]⟩ .f32) (y : FVec Ideal ⟨3, ![32, 64, 256]⟩ .f32)

/-- When row `r` of the block is row `(i, r')` of the state, the links' share there is the specification's `inner`. -/
theorem inner_apply (i : Fin 32) (r' : Fin 64) (r : Fin 32)
    (hY : ∀ (n : Nat) (hn : n < 256), Y (ix3 0 r ⟨n, hn⟩) = y (ix3 i r' ⟨n, hn⟩)) (k : Fin 128) :
    k0_pay7 (F := Ideal) K C M Y (ix3 0 r k) = Cert.Spec.inner y K C M i r' k := by
  rw [pay7_apply]
  simp only [hY]
  obtain ⟨kv, hkv⟩ := k
  unfold Cert.Spec.inner Cert.Spec.link Cert.Spec.u Cert.Spec.v
  simp only [zero_sub]
  rcases Nat.eq_zero_or_pos kv with rfl | hpos
  · simp
  · obtain ⟨kv', rfl⟩ : ∃ kv', kv = kv' + 1 := ⟨kv - 1, by omega⟩
    have e1 : ¬ (kv' + 1 < 1) := by omega
    have e2 : 0 < kv' + 1 := by omega
    simp only [dif_neg e1, dif_pos e2, Nat.add_sub_cancel, Nat.add_comm 1 kv']

/-- What the body stores at row `r`, column `j`: a velocity in the first 128 columns; after them the links' share plus the
    wall's pull (last column only) plus the drive (first column only). -/
theorem pay1_apply (r : Fin 32) (j : Fin 256) (P7 : FVec Ideal S1x32x128 .f32) :
    k0_pay1 (F := Ideal) (k0_pay3 M) (k0_pay6 Y) P7 (k0_pay8 K Y) (k0_pay9 C) (k0_pay10 Y) T (ix3 0 r j) =
      (if hk : j.val < 128 then Y (ix3 0 r ⟨128 + j.val, by omega⟩)
      else
        (P7 (ix3 0 r ⟨j.val - 128, by omega⟩) +
            if hk : j.val - 128 < 127 then 0
            else
              Ideal.div
                (0 - (K (ix1 ⟨127, by omega⟩) * Y (ix3 0 r ⟨127, by omega⟩) + Cert.Spec.Cs C ⟨127, by omega⟩ * Y (ix3 0 r ⟨128 + 127, by omega⟩)))
                (Cert.Spec.Ms M ⟨127, by omega⟩)) +
          if hk : j.val - 128 < 1 then Ideal.div (Ideal.sin (T (ix3 0 r 0))) (Cert.Spec.Ms M ⟨0, by omega⟩)
          else 0) := by
  unfold k0_pay1 k0_pay8 k0_pay9 k0_pay10
  simp (disch := omega) only [addf_apply, mulf_apply, subf_apply, divf_apply, broadcast_apply, sin_apply, rowRepeat3, slice1, slice3_last, pay5_apply, pay6_apply, pay4_apply, pay3_apply, concat3_last (by omega : 128 = 127 + 1), concat3_last (by omega : 128 = 1 + 127), concat3_last (by omega : 256 = 128 + 128), dropLastUnit, addLastUnit, extract1, Nat.zero_add, Ideal.ofBits_def, Ideal.ofBits_zero_f32, Fin.val_zero, Nat.add_zero]

/-- THE ROW: when row `r` of the block is row `(i, r')` of the state and of the time, the body stores the specification's
    `ydot` at every column. -/
theorem row_eq (i : Fin 32) (r' : Fin 64) (r : Fin 32) (hT : T (ix3 0 r 0) = t (ix2 i r'))
    (hY : ∀ (n : Nat) (hn : n < 256), Y (ix3 0 r ⟨n, hn⟩) = y (ix3 i r' ⟨n, hn⟩)) (j : Fin 256) :
    k0_pay1 (F := Ideal) (k0_pay3 M) (k0_pay6 Y) (k0_pay7 K C M Y) (k0_pay8 K Y) (k0_pay9 C) (k0_pay10 Y) T (ix3 0 r j)
      = Cert.Spec.ydot t y K C M i r' j := by
  rw [pay1_apply]
  simp only [inner_apply K C M Y y i r' r hY, hT, hY]
  obtain ⟨jv, hjv⟩ := j
  unfold Cert.Spec.ydot
  by_cases hj : jv < 128
  · simp only [dif_pos hj]
    rfl
  · obtain ⟨kv, rfl⟩ : ∃ kv, jv = 128 + kv := ⟨jv - 128, by omega⟩
    simp only [dif_neg hj, Nat.add_sub_cancel_left]
    unfold Cert.Spec.accel Cert.Spec.wall Cert.Spec.drive Cert.Spec.u Cert.Spec.v
    by_cases h127 : kv = 127
    · subst h127
      simp [zero_sub]
    · by_cases h0 : kv = 0
      · subst h0
        simp
      · have h1 : kv < 127 := by omega
        have h2 : ¬ kv < 1 := by omega
        simp [h1, h2, h127, h0]

end Cert.KernelIdeal.KerYdot

end
-- ==== Proof.KerBlocks.lean ====
/-
  From blocks to arrays. The grid has 32 × 2 points; point `t` handles chunk `t / 2` and batch rows `32 · (t % 2) … + 31`.
  Its blocks of the time, of the state and of both outputs are those rows of the whole arrays; the stiffness, damping and
  mass vectors and the 256 × 256 Jacobian matrix are staged whole. What the point writes back to the first output is the
  specification's `Ydot` on its rows, and to the second output the matrix repeated on its rows; the points' blocks cover
  both output arrays, so after the run the arrays are `Ydot` of the arguments and the repeated matrix.
-/
import proofs.«118620_j87110526697627_1_alg».proof.Proof.Gen.KernelIdeal.Frame
import proofs.«118620_j87110526697627_1_alg».proof.Proof.Gen.KernelIdeal.Value
import proofs.«118620_j87110526697627_1_alg».proof.Proof.KerYdot
import Idealize.ShloMosaic.Lib.Pipeline.Value
import Idealize.ShloMosaic.Lib.StableHlo.Run
import Idealize.ShloMosaic.PureOps.Ideal

noncomputable section

open Idealize.ShloMosaic Idealize.ShloMosaic.TcCoe Idealize.SL.Sem
open Idealize.ShloMosaic.Pipeline (Dat)

namespace Cert.KernelIdeal.KerBlocks

open Cert.KernelIdeal Cert.KernelIdeal.Gen Cert.KernelIdeal.Value Idealize.ShloMosaic.StableHlo Idealize.ShloMosaic.ValueIdx

variable (m : (ℓ : Loc nD τ sig) → Buf (Elt Ideal) ℓ) (ρ : Dev nD → PrngReg)

/-- The time, given a trailing unit axis by the host before the region. -/
theorem V_v67 (c : Dev nD) : (V m c main_v67 : S32x64x1.Idx → Ideal .f32) =
    broadcastInDim S32x64x1 ![0, 1] bcast_S32x64_S32x64x1_0_1 (m ((c : Thread nD τ).loc main_arg0)) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, List.flatten_cons, List.flatten_nil, List.append_nil, List.cons_append, List.nil_append]
  after_results_simp

/-- The time with its unit axis, read at `(i, r, 0)`. -/
theorem V_v67_apply (c : Dev nD) (i : Fin 32) (r : Fin 64) (u : Fin 1) :
    (V m c main_v67 : S32x64x1.Idx → Ideal .f32) (ix3 i r u) = (m ((c : Thread nD τ).loc main_arg0) : S32x64.Idx → Ideal .f32) (ix2 i r) := by
  rw [V_v67]
  refine broadcastInDim_apply _ _ _ _ _ fun a => ?_
  match a with
  | ⟨0, _⟩ => rfl
  | ⟨1, _⟩ => rfl

/-- The printed index maps, decided over the 64 points: chunk `t / 2`, batch half `t % 2`; the whole-array windows stay at 0. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = t.val % 2 ∧ win0_1.index t (2 : Fin 3) = 0
    ∧ win0_2.index t (0 : Fin 1) = 0 ∧ win0_3.index t (0 : Fin 1) = 0 ∧ win0_4.index t (0 : Fin 1) = 0
    ∧ win0_5.index t (0 : Fin 2) = 0 ∧ win0_5.index t (1 : Fin 2) = 0
    ∧ win0_6.index t (0 : Fin 3) = t.val / 2 ∧ win0_6.index t (1 : Fin 3) = t.val % 2 ∧ win0_6.index t (2 : Fin 3) = 0
    ∧ win0_7.index t (0 : Fin 4) = t.val / 2 ∧ win0_7.index t (1 : Fin 4) = t.val % 2 ∧ win0_7.index t (2 : Fin 4) = 0 ∧ win0_7.index t (3 : Fin 4) = 0 :=
  (by decide +kernel : ∀ t : Fin grid0.N, _)

theorem hN : cfg0.N = 64 := N_0

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Row `r` of point `t`'s block of the time is the time of chunk `t / 2`, batch row `32 · (t % 2) + r`. -/
theorem iblk0_apply (c : Dev nD) (t : Fin cfg0.N) (r : Fin 32) (h0 : t.val / 2 < 32) (h1 : 32 * (t.val % 2) + r.val < 64) :
    (iblk m c 0 t : Vec Ideal S1x32x1 .f32) (ix3 0 r 0)
      = (m ((c : Thread nD τ).loc main_arg0) : S32x64.Idx → Ideal .f32) (ix2 ⟨t.val / 2, h0⟩ ⟨32 * (t.val % 2) + r.val, h1⟩) := by
  obtain ⟨e0, e1, e2, -⟩ := idx_facts t
  refine Eq.trans ?_ (V_v67_apply m c ⟨t.val / 2, h0⟩ ⟨32 * (t.val % 2) + r.val, h1⟩ 0)
  unfold iblk
  rw [View.read_apply]
  show (V m c main_v67 : S32x64x1.Idx → Ideal .f32) _ = (V m c main_v67 : S32x64x1.Idx → Ideal .f32) _
  refine congrArg (V m c main_v67 : S32x64x1.Idx → Ideal .f32) (funext fun a => Fin.ext ?_)
  match a with
  | ⟨0, _⟩ => show win0_0.index t (0 : Fin 3) * 1 + 1 * 0 = t.val / 2; omega
  | ⟨1, _⟩ => show win0_0.index t (1 : Fin 3) * 32 + 1 * r.val = 32 * (t.val % 2) + r.val; omega
  | ⟨2, _⟩ => show win0_0.index t (2 : Fin 3) * 1 + 1 * 0 = 0; omega

/-- Row `r` of point `t`'s block of the state is the state of chunk `t / 2`, batch row `32 · (t % 2) + r`. -/
theorem iblk1_apply (c : Dev nD) (t : Fin cfg0.N) (r : Fin 32) (h0 : t.val / 2 < 32) (h1 : 32 * (t.val % 2) + r.val < 64) (n : Nat) (hn : n < 256) :
    (iblk m c 1 t : Vec Ideal S1x32x256 .f32) (ix3 0 r ⟨n, hn⟩)
      = (m ((c : Thread nD τ).loc main_arg1) : S32x64x256.Idx → Ideal .f32) (ix3 ⟨t.val / 2, h0⟩ ⟨32 * (t.val % 2) + r.val, h1⟩ ⟨n, hn⟩) := by
  obtain ⟨-, -, -, e0, e1, e2, -⟩ := idx_facts t
  rw [← V_main_arg1 m c]
  unfold iblk
  rw [View.read_apply]
  show (V m c main_arg1 : S32x64x256.Idx → Ideal .f32) _ = (V m c main_arg1 : S32x64x256.Idx → Ideal .f32) _
  refine congrArg (V m c main_arg1 : S32x64x256.Idx → Ideal .f32) (funext fun a => Fin.ext ?_)
  match a with
  | ⟨0, _⟩ => show win0_1.index t (0 : Fin 3) * 1 + 1 * 0 = t.val / 2; omega
  | ⟨1, _⟩ => show win0_1.index t (1 : Fin 3) * 32 + 1 * r.val = 32 * (t.val % 2) + r.val; omega
  | ⟨2, _⟩ => show win0_1.index t (2 : Fin 3) * 256 + 1 * n = n; omega

/-- The stiffness vector is staged whole. -/
theorem iblk2_eq (c : Dev nD) (t : Fin cfg0.N) :
    (iblk m c 2 t : Vec Ideal S128 .f32) = (m ((c : Thread nD τ).loc main_arg2) : S128.Idx → Ideal .f32) := by
  obtain ⟨-, -, -, -, -, -, e, -⟩ := idx_facts t
  rw [← V_main_arg2 m c]
  funext x
  unfold iblk
  rw [View.read_apply]
  show (V m c main_arg2 : S128.Idx → Ideal .f32) _ = (V m c main_arg2 : S128.Idx → Ideal .f32) _
  refine congrArg (V m c main_arg2 : S128.Idx → Ideal .f32) (funext fun a => Fin.ext ?_)
  match a with
  | ⟨0, _⟩ => show win0_2.index t (0 : Fin 1) * 128 + 1 * (x 0).val = (x 0).val; omega

/-- The damping vector is staged whole. -/
theorem iblk3_eq (c : Dev nD) (t : Fin cfg0.N) :
    (iblk m c 3 t : Vec Ideal S128 .f32) = (m ((c : Thread nD τ).loc main_arg3) : S128.Idx → Ideal .f32) := by
  obtain ⟨-, -, -, -, -, -, -, e, -⟩ := idx_facts t
  rw [← V_main_arg3 m c]
  funext x
  unfold iblk
  rw [View.read_apply]
  show (V m c main_arg3 : S128.Idx → Ideal .f32) _ = (V m c main_arg3 : S128.Idx → Ideal .f32) _
  refine congrArg (V m c main_arg3 : S128.Idx → Ideal .f32) (funext fun a => Fin.ext ?_)
  match a with
  | ⟨0, _⟩ => show win0_3.index t (0 : Fin 1) * 128 + 1 * (x 0).val = (x 0).val; omega

/-- The mass vector is staged whole. -/
theorem iblk4_eq (c : Dev nD) (t : Fin cfg0.N) :
    (iblk m c 4 t : Vec Ideal S128 .f32) = (m ((c : Thread nD τ).loc main_arg4) : S128.Idx → Ideal .f32) := by
  obtain ⟨-, -, -, -, -, -, -, -, e, -⟩ := idx_facts t
  rw [← V_main_arg4 m c]
  funext x
  unfold iblk
  rw [View.read_apply]
  show (V m c main_arg4 : S128.Idx → Ideal .f32) _ = (V m c main_arg4 : S128.Idx → Ideal .f32) _
  refine congrArg (V m c main_arg4 : S128.Idx → Ideal .f32) (funext fun a => Fin.ext ?_)
  match a with
  | ⟨0, _⟩ => show win0_4.index t (0 : Fin 1) * 128 + 1 * (x 0).val = (x 0).val; omega

/-- The Jacobian matrix is staged whole. -/
theorem iblk5_eq (c : Dev nD) (t : Fin cfg0.N) :
    (iblk m c 5 t : Vec Ideal S256x256 .f32) = (V m c main_v66 : S256x256.Idx → Ideal .f32) := by
  obtain ⟨-, -, -, -, -, -, -, -, -, e0, e1, -⟩ := idx_facts t
  funext x
  unfold iblk
  rw [View.read_apply]
  show (V m c main_v66 : S256x256.Idx → Ideal .f32) _ = (V m c main_v66 : S256x256.Idx → Ideal .f32) _
  refine congrArg (V m c main_v66 : S256x256.Idx → Ideal .f32) (funext fun a => Fin.ext ?_)
  match a with
  | ⟨0, _⟩ => show win0_5.index t (0 : Fin 2) * 256 + 1 * (x 0).val = (x 0).val; omega
  | ⟨1, _⟩ => show win0_5.index t (1 : Fin 2) * 256 + 1 * (x 1).val = (x 1).val; omega

/-- The first output array after the run: the specification's `Ydot` of the arguments. -/
abbrev G6 (c : Dev nD) : S32x64x256.Idx → Ideal .f32 :=
  Cert.Spec.Ydot (m ((c : Thread nD τ).loc main_arg0)) (m ((c : Thread nD τ).loc main_arg1)) (m ((c : Thread nD τ).loc main_arg2))
    (m ((c : Thread nD τ).loc main_arg3)) (m ((c : Thread nD τ).loc main_arg4))

/-- WHAT POINT `t` WRITES BACK to the first output is block `t` of `Ydot` of the arguments. -/
theorem flushed6_eq (c : Dev nD) (t : Fin cfg0.N) :
    (dats m 0 c).flushed 6 t = ((cfg0.win 6).blk t).view.read (Elt Ideal) (G6 m c) := by
  have ht : t.val < 64 := hN ▸ t.isLt
  obtain ⟨-, -, -, -, -, -, -, -, -, -, -, e0, e1, e2, -⟩ := idx_facts t
  rw [flushed6]
  unfold out0_6
  rw [View.canon_unit_zero hz3]
  simp only [View.ld_unit_zero (S := S1x32x256) hz3, View.ld_unit_zero (S := S128) hz1, View.ld_unit_zero (S := S1x32x1) hz3]
  rw [iblk2_eq, iblk3_eq, iblk4_eq]
  refine funext fun (x : S1x32x256.Idx) => ?_
  obtain ⟨r, j, rfl⟩ : ∃ (r : Fin 32) (j : Fin 256), x = ix3 0 r j :=
    ⟨x 1, x 2, by
      have hx : x 0 = (0 : Fin 1) := Fin.ext (by have h : (x 0).val < 1 := (x 0).isLt; show (x 0).val = 0; omega)
      have e := eq_ix3 x
      rw [hx] at e
      exact e⟩
  have h0 : t.val / 2 < 32 := by omega
  have h1 : 32 * (t.val % 2) + r.val < 64 := by omega
  change k0_pay1 (F := Ideal) (k0_pay3 (m ((c : Thread nD τ).loc main_arg4))) (k0_pay6 (iblk m c 1 t))
        (k0_pay7 (m ((c : Thread nD τ).loc main_arg2)) (m ((c : Thread nD τ).loc main_arg3)) (m ((c : Thread nD τ).loc main_arg4)) (iblk m c 1 t))
        (k0_pay8 (m ((c : Thread nD τ).loc main_arg2)) (iblk m c 1 t)) (k0_pay9 (m ((c : Thread nD τ).loc main_arg3))) (k0_pay10 (iblk m c 1 t))
        (iblk m c 0 t) (ix3 0 r j) = _
  refine Eq.trans (KerYdot.row_eq (m ((c : Thread nD τ).loc main_arg2)) (m ((c : Thread nD τ).loc main_arg3)) (m ((c : Thread nD τ).loc main_arg4))
    (iblk m c 1 t) (iblk m c 0 t) (m ((c : Thread nD τ).loc main_arg0)) (m ((c : Thread nD τ).loc main_arg1))
    ⟨t.val / 2, h0⟩ ⟨32 * (t.val % 2) + r.val, h1⟩ r (iblk0_apply m c t r h0 h1) (fun n hn => iblk1_apply m c t r h0 h1 n hn) j) ?_
  show _ = G6 m c (((cfg0.win 6).blk t).view.emb (ix3 0 r j))
  show Cert.Spec.ydot _ _ _ _ _ _ _ _ = Cert.Spec.ydot _ _ _ _ _ _ _ _
  congr 1 <;> apply Fin.ext
  · show t.val / 2 = win0_6.index t (0 : Fin 3) * 1 + 1 * 0; omega
  · show 32 * (t.val % 2) + r.val = win0_6.index t (1 : Fin 3) * 32 + 1 * r.val; omega
  · show j.val = win0_6.index t (2 : Fin 3) * 256 + 1 * j.val; omega

/-- An index of the first output is in point `t`'s block iff each coordinate is in the block's range on its axis. -/
theorem mem_blk6 (t : Fin cfg0.N) (i : S32x64x256.Idx) :
    i ∈ ((cfg0.win 6).blk t).view.set ↔ ∀ a : Fin 3, win0_6.index t a * S1x32x256.size a ≤ (i a).val ∧ (i a).val < win0_6.index t a * S1x32x256.size a + S1x32x256.size a := by
  show i ∈ ((View.whole main_v68_0).slice (win0_6.rect t)).set ↔ _
  rw [View.set_slice_whole, Rect.mem_set_unit]
  exact Iff.rfl

/-- Every index of the first output is in the block of the point of its chunk and batch half. -/
theorem cover6 (i : S32x64x256.Idx) : ∃ t : Fin cfg0.N, (cfg0.win 6).flush t = true ∧ i ∈ ((cfg0.win 6).blk t).view.set := by
  have hi0 : (i 0).val < 32 := (i 0).isLt
  have hi1 : (i 1).val < 64 := (i 1).isLt
  have hi2 : (i 2).val < 256 := (i 2).isLt
  have htv : 2 * (i 0).val + (i 1).val / 32 < cfg0.N := by rw [hN]; omega
  refine ⟨⟨2 * (i 0).val + (i 1).val / 32, htv⟩, flush0_6 _, ?_⟩
  rw [mem_blk6]
  obtain ⟨-, -, -, -, -, -, -, -, -, -, -, e0, e1, e2, -⟩ := idx_facts ⟨2 * (i 0).val + (i 1).val / 32, htv⟩
  simp only [] at e0 e1 e2
  intro a
  match a with
  | ⟨0, _⟩ => show win0_6.index _ (0 : Fin 3) * 1 ≤ (i 0).val ∧ (i 0).val < win0_6.index _ (0 : Fin 3) * 1 + 1; omega
  | ⟨1, _⟩ => show win0_6.index _ (1 : Fin 3) * 32 ≤ (i 1).val ∧ (i 1).val < win0_6.index _ (1 : Fin 3) * 32 + 32; omega
  | ⟨2, _⟩ => show win0_6.index _ (2 : Fin 3) * 256 ≤ (i 2).val ∧ (i 2).val < win0_6.index _ (2 : Fin 3) * 256 + 256; omega

/-- THE FIRST OUTPUT after the run is `Ydot` of the arguments. -/
theorem final6 (c : Dev nD) : (dats m 0 c).arrAt 6 cfg0.N = G6 m c :=
  (dats m 0 c).arrAt_eq_of_cover 6 (G6 m c) (fun t _ => flushed6_eq m c t) cover6

end Cert.KernelIdeal.KerBlocks

end
-- ==== Proof.KerJac.lean ====
/-
  The second output. Every point stores the staged 256 × 256 matrix into each of its 32 batch rows, so what it writes back is
  its block of the matrix repeated over chunks and batch rows; the points' blocks cover the array.
-/
import proofs.«118620_j87110526697627_1_alg».proof.Proof.KerBlocks

noncomputable section

open Idealize.ShloMosaic Idealize.ShloMosaic.TcCoe Idealize.SL.Sem
open Idealize.ShloMosaic.Pipeline (Dat)

namespace Cert.KernelIdeal.KerBlocks

open Cert.KernelIdeal Cert.KernelIdeal.Gen Cert.KernelIdeal.Value Idealize.ShloMosaic.StableHlo Idealize.ShloMosaic.ValueIdx

variable (m : (ℓ : Loc nD τ sig) → Buf (Elt Ideal) ℓ) (ρ : Dev nD → PrngReg)

/-- The second output array after the run: the host's Jacobian matrix repeated over chunks and batch rows. -/
abbrev G7 (c : Dev nD) : S32x64x256x256.Idx → Ideal .f32 :=
  Cert.Spec.Jac (V m c main_v66 : S256x256.Idx → Ideal .f32)

/-- What point `t` writes back to the second output, for the staged matrix named `J`: block `t` of `J` repeated. -/
theorem flushed7_of (c : Dev nD) (t : Fin cfg0.N) (J : S256x256.Idx → Ideal .f32)
    (hJ : (iblk m c 5 t : Vec Ideal S256x256 .f32) = J) :
    (dats m 0 c).flushed 7 t = ((cfg0.win 7).blk t).view.read (Elt Ideal) (Cert.Spec.Jac J) := by
  obtain ⟨-, -, -, -, -, -, -, -, -, -, -, -, -, -, f0, f1, f2, f3⟩ := idx_facts t
  rw [flushed7]
  unfold out0_7
  rw [View.canon_unit_zero hz4]
  simp only [View.ld_unit_zero (S := S256x256) hz2]
  rw [hJ]
  refine funext fun (x : S1x32x256x256.Idx) => ?_
  change k0_pay2 (F := Ideal) J x = _
  rw [piece7_0]
  show J (ix7_0 (r0_4.idx x)) = Cert.Spec.Jac J (((cfg0.win 7).blk t).view.emb x)
  unfold Cert.Spec.Jac
  refine congrArg J (funext fun a => Fin.ext ?_)
  match a with
  | ⟨0, _⟩ => show 0 + 1 * (x 2).val = win0_7.index t (2 : Fin 4) * 256 + 1 * (x 2).val; omega
  | ⟨1, _⟩ => show 0 + 1 * (x 3).val = win0_7.index t (3 : Fin 4) * 256 + 1 * (x 3).val; omega

/-- WHAT POINT `t` WRITES BACK to the second output is block `t` of the repeated matrix. -/
theorem flushed7_eq (c : Dev nD) (t : Fin cfg0.N) :
    (dats m 0 c).flushed 7 t = ((cfg0.win 7).blk t).view.read (Elt Ideal) (G7 m c) :=
  flushed7_of m c t _ (iblk5_eq m c t)

/-- An index of the second output is in point `t`'s block iff each coordinate is in the block's range on its axis. -/
theorem mem_blk7 (t : Fin cfg0.N) (i : S32x64x256x256.Idx) :
    i ∈ ((cfg0.win 7).blk t).view.set ↔ ∀ a : Fin 4, win0_7.index t a * S1x32x256x256.size a ≤ (i a).val ∧ (i a).val < win0_7.index t a * S1x32x256x256.size a + S1x32x256x256.size a := by
  show i ∈ ((View.whole main_v68_1).slice (win0_7.rect t)).set ↔ _
  rw [View.set_slice_whole, Rect.mem_set_unit]
  exact Iff.rfl

/-- Every index of the second output is in the block of the point of its chunk and batch half. -/
theorem cover7 (i : S32x64x256x256.Idx) : ∃ t : Fin cfg0.N, (cfg0.win 7).flush t = true ∧ i ∈ ((cfg0.win 7).blk t).view.set := by
  have hi0 : (i 0).val < 32 := (i 0).isLt
  have hi1 : (i 1).val < 64 := (i 1).isLt
  have hi2 : (i 2).val < 256 := (i 2).isLt
  have hi3 : (i 3).val < 256 := (i 3).isLt
  have htv : 2 * (i 0).val + (i 1).val / 32 < cfg0.N := by rw [hN]; omega
  refine ⟨⟨2 * (i 0).val + (i 1).val / 32, htv⟩, flush0_7 _, ?_⟩
  rw [mem_blk7]
  obtain ⟨-, -, -, -, -, -, -, -, -, -, -, -, -, -, f0, f1, f2, f3⟩ := idx_facts ⟨2 * (i 0).val + (i 1).val / 32, htv⟩
  simp only [] at f0 f1 f2 f3
  intro a
  match a with
  | ⟨0, _⟩ => show win0_7.index _ (0 : Fin 4) * 1 ≤ (i 0).val ∧ (i 0).val < win0_7.index _ (0 : Fin 4) * 1 + 1; omega
  | ⟨1, _⟩ => show win0_7.index _ (1 : Fin 4) * 32 ≤ (i 1).val ∧ (i 1).val < win0_7.index _ (1 : Fin 4) * 32 + 32; omega
  | ⟨2, _⟩ => show win0_7.index _ (2 : Fin 4) * 256 ≤ (i 2).val ∧ (i 2).val < win0_7.index _ (2 : Fin 4) * 256 + 256; omega
  | ⟨3, _⟩ => show win0_7.index _ (3 : Fin 4) * 256 ≤ (i 3).val ∧ (i 3).val < win0_7.index _ (3 : Fin 4) * 256 + 256; omega

/-- THE SECOND OUTPUT after the run is the repeated matrix. -/
theorem final7 (c : Dev nD) : (dats m 0 c).arrAt 7 cfg0.N = G7 m c :=
  (dats m 0 c).arrAt_eq_of_cover 7 (G7 m c) (fun t _ => flushed7_eq m c t) cover7

/-- The kernel's run, read: the two output arrays at the specification's values, the arguments unchanged. -/
theorem run : θ_run defs (onTc (τ := τ) (main (F := Ideal))) ⟨m, fun _ => 0, ρ⟩ fun r => ∀ c : Dev nD,
      r.2.mem ((c : Thread nD τ).loc main_v68_0) = G6 m c
      ∧ r.2.mem ((c : Thread nD τ).loc main_v68_1) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final6 m c), (h c).2.1.trans (final7 m c), (h c).2.2⟩)
    (Cert.KernelIdeal.Value.run_blocks m ρ)

end Cert.KernelIdeal.KerBlocks

end
-- ==== Proof.RefRun.lean ====
/-
  The reference program as one straight line of array operations, and its run.

  The reference is 241 array operations in a row; where it applies a function, that function's operations stand in
  place over the buffers of that application. The program is that line (`main_eq`), so every run of it ends with each
  buffer at the fold of the operations over the contents at the start (`run_main`); and no operation writes one of the
  five arguments, which therefore keep their contents (`arg0_eq` … `arg4_eq`).
-/
import proofs.«118620_j87110526697627_1_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## Lines in a row -/

section Lines

variable {n : Nat} {t : Topo} {s : RefSig} {Val : EltTy → Type} {Lb : Labels}

/-- Lines run one after the other are their concatenation run as one line. -/
theorem chain_map_seq : ∀ ls : List (List (HloOp t s Val)),
    Pipeline.chain (ls.map fun l => (seq l : Prog (TpuEff n t s Val Lb .tc) PUnit)) = seq ls.flatten
  | [] => rfl
  | l :: ls => by
    rw [List.map_cons, Pipeline.chain_cons, List.flatten_cons, seq_append, chain_map_seq ls]

/-- A property of every member of every list holds of every member of the concatenation. -/
theorem forall_mem_flatten {α : Type} {Q : α → Prop} {ls : List (List α)} (h : ∀ l ∈ ls, ∀ a ∈ l, Q a) :
    ∀ a ∈ ls.flatten, Q a := fun a ha => by
  obtain ⟨l, hl, hal⟩ := List.mem_flatten.1 ha
  exact h l hl a hal

theorem all_nil {α : Type} {Q : List α → Prop} : ∀ l ∈ ([] : List (List α)), Q l := fun _ h => nomatch h

theorem all_cons {α : Type} {Q : List α → Prop} {l : List α} {ls : List (List α)} (h : Q l) (hs : ∀ l' ∈ ls, Q l') :
    ∀ l' ∈ l :: ls, Q l' := fun l' hl' => by
  rcases List.mem_cons.1 hl' with rfl | h'
  exacts [h, hs _ h']

/-- The contents after two lines in a row: the second line's fold over the first's. -/
theorem after_app : ∀ (l₁ l₂ : List (HloOp t s Val)) (V : Valuation t s Val), after (l₁ ++ l₂) V = after l₂ (after l₁ V)
  | [], _, _ => rfl
  | op :: l₁, l₂, V => by rw [List.cons_append, after_cons, after_cons, after_app l₁ l₂]

/-- The contents after several lines in a row: each line's fold over the one before. -/
theorem after_flatten : ∀ (ls : List (List (HloOp t s Val))) (V : Valuation t s Val),
    after ls.flatten V = ls.foldl (fun W l => after l W) V
  | [], _ => rfl
  | l :: ls, V => by rw [List.flatten_cons, after_app, List.foldl_cons, after_flatten ls]

/-- A buffer that each of several lines leaves alone is left alone by their concatenation. -/
theorem after_flatten_keep {b : DevRef t s} : ∀ (ls : List (List (HloOp t s Val))),
    (∀ l ∈ ls, ∀ V : Valuation t s Val, after l V b = V b) → ∀ V : Valuation t s Val, after ls.flatten V b = V b
  | [], _, _ => rfl
  | l :: ls, h, V => by
    rw [List.flatten_cons, after_app, after_flatten_keep ls (fun l' hl' => h l' (List.mem_cons_of_mem _ hl')),
      h l List.mem_cons_self]

end Lines

variable {F : FTy → Type} [FloatOps F]

/-- The five arguments, in order (the specification's time, state, stiffness, damping and mass). -/
abbrev args : List (Ref sig .tc) := [main_arg0, main_arg1, main_arg2, main_arg3, main_arg4]

/-! ## The stretches -/

abbrev seg0 : List (HloOp τ sig (Elt F)) :=
  [ StableHlo.nullary main_cst (constant S_ .f32 0x3727C5AC#32),
    StableHlo.unary main_cst main_v0 (broadcastInDim S128 ![] bcast_S_S128 : (⟨S_, .f32⟩ : BufTy).Contents (Elt F) → (⟨S128, .f32⟩ : BufTy).Contents (Elt F)),
    StableHlo.binary main_arg4 main_v0 main_v1 (mulf : (⟨S128, .f32⟩ : BufTy).Contents (Elt F) → (⟨S128, .f32⟩ : BufTy).Contents (Elt F) → (⟨S128, .f32⟩ : BufTy).Contents (Elt F)),
    StableHlo.nullary main_cst_0 (constant S_ .f32 0x38D1B717#32),
    StableHlo.unary main_cst_0 main_v2 (broadcastInDim S128 ![] bcast_S_S128 : (⟨S_, .f32⟩ : BufTy).Contents (Elt F) → (⟨S128, .f32⟩ : BufTy).Contents (Elt F)),
    StableHlo.binary main_arg3 main_v2 main_v3 (mulf : (⟨S128, .f32⟩ : BufTy).Contents (Elt F) → (⟨S128, .f32⟩ : BufTy).Contents (Elt F) → (⟨S128, .f32⟩ : BufTy).Contents (Elt F)),
    StableHlo.unary main_arg1 main_v4 ((extractStridedSlice S32x64x128 ![0, 0, 0] · slices_S32x64x256_S32x64x128_0_0_0) : (⟨S32x64x256, .f32⟩ : BufTy).Contents (Elt F) → (⟨S32x64x128, .f32⟩ : BufTy).Contents (Elt F)),
    StableHlo.unary main_arg1 main_v5 ((extractStridedSlice S32x64x128 ![0, 0, 128] · slices_S32x64x256_S32x64x128_0_0_128) : (⟨S32x64x256, .f32⟩ : BufTy).Contents (Elt F) → (⟨S32x64x128, .f32⟩ : BufTy).Contents (Elt F)) ]
theorem seg0_sub : (seg0 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., unary_bufs_sub ..⟩
theorem seg0_fresh : ∀ op ∈ (seg0 : List (HloOp τ sig (Elt F))), op.fresh = ∅ := by
  intro _ h; (repeat (cases h with | head => rfl | tail _ h => ?_)); exact nomatch h
theorem seg0_args (r : Ref sig .tc) (hr : r ∈ args) (V : Valuation τ sig (Elt F)) :
    after seg0 V (r : DevRef τ sig) = V (r : DevRef τ sig) := by
  fin_cases hr <;> after_results_simp

abbrev seg1 : List (HloOp τ sig (Elt F)) :=
  [ StableHlo.TRef.unary (.of main_v4 : StableHlo.TRef sig ⟨S32x64x128, .f32⟩) (.of main_call0_v0 : StableHlo.TRef sig ⟨S32x64x127, .f32⟩) (extractStridedSlice S32x64x127 ![0, 0, 1] · slices_S32x64x128_S32x64x127_0_0_1),
    StableHlo.TRef.unary (.of main_v4 : StableHlo.TRef sig ⟨S32x64x128, .f32⟩) (.of main_call0_v1 : StableHlo.TRef sig ⟨S32x64x127, .f32⟩) (extractStridedSlice S32x64x127 ![0, 0, 0] · slices_S32x64x128_S32x64x127_0_0_0),
    StableHlo.TRef.binary (.of main_call0_v0 : StableHlo.TRef sig ⟨S32x64x127, .f32⟩) (.of main_call0_v1 : StableHlo.TRef sig ⟨S32x64x127, .f32⟩) (.of main_v6 : StableHlo.TRef sig ⟨S32x64x127, .f32⟩) subf ]
theorem seg1_sub : (seg1 : List (HloOp τ sig (Elt F))).Forall fun op => op.bufs ⊆ tcRefs τ sig :=
  ⟨unary_bufs_sub .., unary_bufs_sub .., binary_bufs_sub ..⟩
theorem seg1_fresh : ∀ op ∈ (seg1 : List (HloOp τ sig (Elt F))), op.fresh = ∅ := by
  intro _ h; (repeat (cases h with | head => rfl | tail _ h => ?_)); exact nomatch h
theorem seg1_args (r : Ref sig .tc) (hr : r ∈ args) (V : Valuation τ sig (Elt F)) :
    after seg1 V (r : DevRef τ sig) = V (r : DevRef τ sig) := by
  fin_cases hr <;> after_results_simp

abbrev seg2 : List (HloOp τ sig (Elt F)) :=
  [ StableHlo.TRef.unary (.of main_v5 : StableHlo.TRef sig ⟨S32x64x128, .f32⟩) (.of main_call1_v0 : StableHlo.TRef sig ⟨S32x64x127, .f32⟩) (extractStridedSlice S32x64x127 ![0, 0, 1] · slices_S32x64x128_S32x64x127_0_0_1),
    StableHlo.TRef.unary (.of main_v5 : StableHlo.TRef sig ⟨S32x64x128, .f32⟩) (.of main_call1_v1 : StableHlo.TRef sig ⟨S32x64x127, .f32⟩) (extractStridedSlice S32x64x127 ![0, 0, 0] · slices_S32x64x128_S32x64x127_0_0_0),
    StableHlo.TRef.binary (.of main_call1_v0 : StableHlo.TRef sig ⟨S32x64x127, .f32⟩) (.of main_call1_v1 : StableHlo.TRef sig ⟨S32x64x127, .f32⟩) (.of main_v7 : StableHlo.TRef sig ⟨S32x64x127, .f32⟩) subf ]
theorem seg2_sub : (seg2 : List (HloOp τ sig (Elt F))).Forall fun op => op.bufs ⊆ tcRefs τ sig :=
  ⟨unary_bufs_sub .., unary_bufs_sub .., binary_bufs_sub ..⟩
theorem seg2_fresh : ∀ op ∈ (seg2 : List (HloOp τ sig (Elt F))), op.fresh = ∅ := by
  intro _ h; (repeat (cases h with | head => rfl | tail _ h => ?_)); exact nomatch h
theorem seg2_args (r : Ref sig .tc) (hr : r ∈ args) (V : Valuation τ sig (Elt F)) :
    after seg2 V (r : DevRef τ sig) = V (r : DevRef τ sig) := by
  fin_cases hr <;> after_results_simp

abbrev seg3 : List (HloOp τ sig (Elt F)) :=
  [ StableHlo.unary main_arg2 main_v8 ((extractStridedSlice S127 ![0] · slices_S128_S127_0) : (⟨S128, .f32⟩ : BufTy).Contents (Elt F) → (⟨S127, .f32⟩ : BufTy).Contents (Elt F)),
    StableHlo.unary main_v8 main_v9 (broadcastInDim S1x1x127 ![2] bcast_S127_S1x1x127_2 : (⟨S127, .f32⟩ : BufTy).Contents (Elt F) → (⟨S1x1x127, .f32⟩ : BufTy).Contents (Elt F)),
    StableHlo.unary main_v9 main_v10 (broadcastInDim S32x64x127 ![0, 1, 2] bcast_S1x1x127_S32x64x127_0_1_2 : (⟨S1x1x127, .f32⟩ : BufTy).Contents (Elt F) → (⟨S32x64x127, .f32⟩ : BufTy).Contents (Elt F)),
    StableHlo.binary main_v10 main_v6 main_v11 (mulf : (⟨S32x64x127, .f32⟩ : BufTy).Contents (Elt F) → (⟨S32x64x127, .f32⟩ : BufTy).Contents (Elt F) → (⟨S32x64x127, .f32⟩ : BufTy).Contents (Elt F)),
    StableHlo.unary main_v3 main_v12 ((extractStridedSlice S127 ![0] · slices_S128_S127_0) : (⟨S128, .f32⟩ : BufTy).Contents (Elt F) → (⟨S127, .f32⟩ : BufTy).Contents (Elt F)),
    StableHlo.unary main_v12 main_v13 (broadcastInDim S1x1x127 ![2] bcast_S127_S1x1x127_2 : (⟨S127, .f32⟩ : BufTy).Contents (Elt F) → (⟨S1x1x127, .f32⟩ : BufTy).Contents (Elt F)),
    StableHlo.unary main_v13 main_v14 (broadcastInDim S32x64x127 ![0, 1, 2] bcast_S1x1x127_S32x64x127_0_1_2 : (⟨S1x1x127, .f32⟩ : BufTy).Contents (Elt F) → (⟨S32x64x127, .f32⟩ : BufTy).Contents (Elt F)),
    StableHlo.binary main_v14 main_v7 main_v15 (mulf : (⟨S32x64x127, .f32⟩ : BufTy).Contents (Elt F) → (⟨S32x64x127, .f32⟩ : BufTy).Contents (Elt F) → (⟨S32x64x127, .f32⟩ : BufTy).Contents (Elt F)),
    StableHlo.binary main_v11 main_v15 main_v16 (addf : (⟨S32x64x127, .f32⟩ : BufTy).Contents (Elt F) → (⟨S32x64x127, .f32⟩ : BufTy).Contents (Elt F) → (⟨S32x64x127, .f32⟩ : BufTy).Contents (Elt F)),
    StableHlo.unary main_v1 main_v17 ((extractStridedSlice S127 ![0] · slices_S128_S127_0) : (⟨S128, .f32⟩ : BufTy).Contents (Elt F) → (⟨S127, .f32⟩ : BufTy).Contents (Elt F)),
    StableHlo.unary main_v17 main_v18 (broadcastInDim S1x1x127 ![2] bcast_S127_S1x1x127_2 : (⟨S127, .f32⟩ : BufTy).Contents (Elt F) → (⟨S1x1x127, .f32⟩ : BufTy).Contents (Elt F)),
    StableHlo.unary main_v18 main_v19 (broadcastInDim S32x64x127 ![0, 1, 2] bcast_S1x1x127_S32x64x127_0_1_2 : (⟨S1x1x127, .f32⟩ : BufTy).Contents (Elt F) → (⟨S32x64x127, .f32⟩ : BufTy).Contents (Elt F)),
    StableHlo.binary main_v16 main_v19 main_v20 (Host.divf : (⟨S32x64x127, .f32⟩ : BufTy).Contents (Elt F) → (⟨S32x64x127, .f32⟩ : BufTy).Contents (Elt F) → (⟨S32x64x127, .f32⟩ : BufTy).Contents (Elt F)),
    StableHlo.nullary main_c (constantI S_ 32 0#32) ]
theorem seg3_sub : (seg3 : List (HloOp τ sig (Elt F))).Forall fun op => op.bufs ⊆ tcRefs τ sig :=
  ⟨unary_bufs_sub .., unary_bufs_sub .., unary_bufs_sub .., binary_bufs_sub .., unary_bufs_sub .., unary_bufs_sub .., unary_bufs_sub .., binary_bufs_sub .., binary_bufs_sub .., unary_bufs_sub .., unary_bufs_sub .., unary_bufs_sub .., binary_bufs_sub .., nullary_bufs_sub ..⟩
theorem seg3_fresh : ∀ op ∈ (seg3 : List (HloOp τ sig (Elt F))), op.fresh = ∅ := by
  intro _ h; (repeat (cases h with | head => rfl | tail _ h => ?_)); exact nomatch h
theorem seg3_args (r : Ref sig .tc) (hr : r ∈ args) (V : Valuation τ sig (Elt F)) :
    after seg3 V (r : DevRef τ sig) = V (r : DevRef τ sig) := by
  fin_cases hr <;> after_results_simp

abbrev seg4 : List (HloOp τ sig (Elt F)) :=
  [ StableHlo.TRef.unary (.of main_c : StableHlo.TRef sig ⟨S_, .i32⟩) (.of main_call2_v0 : StableHlo.TRef sig ⟨S_, .f32⟩) (sitofp .f32),
    StableHlo.TRef.binary (.of main_v20 : StableHlo.TRef sig ⟨S32x64x127, .f32⟩) (.of main_call2_v0 : StableHlo.TRef sig ⟨S_, .f32⟩) (.of main_v21 : StableHlo.TRef sig ⟨S32x64x128, .f32⟩) (fun x v => pad S32x64x128 ![0, 0, 0] ![0, 0, 1] ![0, 0, 0] x v pads_S32x64x127_S32x64x128_000_000_010 h_S_) ]
theorem seg4_sub : (seg4 : List (HloOp τ sig (Elt F))).Forall fun op => op.bufs ⊆ tcRefs τ sig :=
  ⟨unary_bufs_sub .., binary_bufs_sub ..⟩
theorem seg4_fresh : ∀ op ∈ (seg4 : List (HloOp τ sig (Elt F))), op.fresh = ∅ := by
  intro _ h; (repeat (cases h with | head => rfl | tail _ h => ?_)); exact nomatch h
theorem seg4_args (r : Ref sig .tc) (hr : r ∈ args) (V : Valuation τ sig (Elt F)) :
    after seg4 V (r : DevRef τ sig) = V (r : DevRef τ sig) := by
  fin_cases hr <;> after_results_simp

abbrev seg5 : List (HloOp τ sig (Elt F)) :=
  [ StableHlo.unary main_v16 main_v22 (Host.negf : (⟨S32x64x127, .f32⟩ : BufTy).Contents (Elt F) → (⟨S32x64x127, .f32⟩ : BufTy).Contents (Elt F)),
    StableHlo.unary main_v1 main_v23 ((extractStridedSlice S127 ![1] · slices_S128_S127_1) : (⟨S128, .f32⟩ : BufTy).Contents (Elt F) → (⟨S127, .f32⟩ : BufTy).Contents (Elt F)),
    StableHlo.unary main_v23 main_v24 (broadcastInDim S1x1x127 ![2] bcast_S127_S1x1x127_2 : (⟨S127, .f32⟩ : BufTy).Contents (Elt F) → (⟨S1x1x127, .f32⟩ : BufTy).Contents (Elt F)),
    StableHlo.unary main_v24 main_v25 (broadcastInDim S32x64x127 ![0, 1, 2] bcast_S1x1x127_S32x64x127_0_1_2 : (⟨S1x1x127, .f32⟩ : BufTy).Contents (Elt F) → (⟨S32x64x127, .f32⟩ : BufTy).Contents (Elt F)),
    StableHlo.binary main_v22 main_v25 main_v26 (Host.divf : (⟨S32x64x127, .f32⟩ : BufTy).Contents (Elt F) → (⟨S32x64x127, .f32⟩ : BufTy).Contents (Elt F) → (⟨S32x64x127, .f32⟩ : BufTy).Contents (Elt F)),
    StableHlo.nullary main_c_1 (constantI S_ 32 0#32) ]
theorem seg5_sub : (seg5 : List (HloOp τ sig (Elt F))).Forall fun op => op.bufs ⊆ tcRefs τ sig :=
  ⟨unary_bufs_sub .., unary_bufs_sub .., unary_bufs_sub .., unary_bufs_sub .., binary_bufs_sub .., nullary_bufs_sub ..⟩
theorem seg5_fresh : ∀ op ∈ (seg5 : List (HloOp τ sig (Elt F))), op.fresh = ∅ := by
  intro _ h; (repeat (cases h with | head => rfl | tail _ h => ?_)); exact nomatch h
theorem seg5_args (r : Ref sig .tc) (hr : r ∈ args) (V : Valuation τ sig (Elt F)) :
    after seg5 V (r : DevRef τ sig) = V (r : DevRef τ sig) := by
  fin_cases hr <;> after_results_simp

abbrev seg6 : List (HloOp τ sig (Elt F)) :=
  [ StableHlo.TRef.unary (.of main_c_1 : StableHlo.TRef sig ⟨S_, .i32⟩) (.of main_call3_v0 : StableHlo.TRef sig ⟨S_, .f32⟩) (sitofp .f32),
    StableHlo.TRef.binary (.of main_v26 : StableHlo.TRef sig ⟨S32x64x127, .f32⟩) (.of main_call3_v0 : StableHlo.TRef sig ⟨S_, .f32⟩) (.of main_v27 : StableHlo.TRef sig ⟨S32x64x128, .f32⟩) (fun x v => pad S32x64x128 ![0, 0, 1] ![0, 0, 0] ![0, 0, 0] x v pads_S32x64x127_S32x64x128_000_000_100 h_S_) ]
theorem seg6_sub : (seg6 : List (HloOp τ sig (Elt F))).Forall fun op => op.bufs ⊆ tcRefs τ sig :=
  ⟨unary_bufs_sub .., binary_bufs_sub ..⟩
theorem seg6_fresh : ∀ op ∈ (seg6 : List (HloOp τ sig (Elt F))), op.fresh = ∅ := by
  intro _ h; (repeat (cases h with | head => rfl | tail _ h => ?_)); exact nomatch h
theorem seg6_args (r : Ref sig .tc) (hr : r ∈ args) (V : Valuation τ sig (Elt F)) :
    after seg6 V (r : DevRef τ sig) = V (r : DevRef τ sig) := by
  fin_cases hr <;> after_results_simp

abbrev seg7 : List (HloOp τ sig (Elt F)) :=
  [ StableHlo.binary main_v21 main_v27 main_v28 (addf : (⟨S32x64x128, .f32⟩ : BufTy).Contents (Elt F) → (⟨S32x64x128, .f32⟩ : BufTy).Contents (Elt F) → (⟨S32x64x128, .f32⟩ : BufTy).Contents (Elt F)),
    StableHlo.unary main_arg2 main_v29 ((extractStridedSlice S1 ![127] · slices_S128_S1_127) : (⟨S128, .f32⟩ : BufTy).Contents (Elt F) → (⟨S1, .f32⟩ : BufTy).Contents (Elt F)),
    StableHlo.reshape main_v29 main_v30 rfl shapeCasts_S1_S_,
    StableHlo.unary main_v4 main_v31 ((extractStridedSlice S32x64x1 ![0, 0, 127] · slices_S32x64x128_S32x64x1_0_0_127) : (⟨S32x64x128, .f32⟩ : BufTy).Contents (Elt F) → (⟨S32x64x1, .f32⟩ : BufTy).Contents (Elt F)),
    StableHlo.reshape main_v31 main_v32 rfl shapeCasts_S32x64x1_S32x64,
    StableHlo.unary main_v30 main_v33 (broadcastInDim S32x64 ![] bcast_S_S32x64 : (⟨S_, .f32⟩ : BufTy).Contents (Elt F) → (⟨S32x64, .f32⟩ : BufTy).Contents (Elt F)),
    StableHlo.binary main_v33 main_v32 main_v34 (mulf : (⟨S32x64, .f32⟩ : BufTy).Contents (Elt F) → (⟨S32x64, .f32⟩ : BufTy).Contents (Elt F) → (⟨S32x64, .f32⟩ : BufTy).Contents (Elt F)),
    StableHlo.unary main_v3 main_v35 ((extractStridedSlice S1 ![127] · slices_S128_S1_127) : (⟨S128, .f32⟩ : BufTy).Contents (Elt F) → (⟨S1, .f32⟩ : BufTy).Contents (Elt F)),
    StableHlo.reshape main_v35 main_v36 rfl shapeCasts_S1_S_,
    StableHlo.unary main_v5 main_v37 ((extractStridedSlice S32x64x1 ![0, 0, 127] · slices_S32x64x128_S32x64x1_0_0_127) : (⟨S32x64x128, .f32⟩ : BufTy).Contents (Elt F) → (⟨S32x64x1, .f32⟩ : BufTy).Contents (Elt F)),
    StableHlo.reshape main_v37 main_v38 rfl shapeCasts_S32x64x1_S32x64,
    StableHlo.unary main_v36 main_v39 (broadcastInDim S32x64 ![] bcast_S_S32x64 : (⟨S_, .f32⟩ : BufTy).Contents (Elt F) → (⟨S32x64, .f32⟩ : BufTy).Contents (Elt F)),
    StableHlo.binary main_v39 main_v38 main_v40 (mulf : (⟨S32x64, .f32⟩ : BufTy).Contents (Elt F) → (⟨S32x64, .f32⟩ : BufTy).Contents (Elt F) → (⟨S32x64, .f32⟩ : BufTy).Contents (Elt F)),
    StableHlo.binary main_v34 main_v40 main_v41 (addf : (⟨S32x64, .f32⟩ : BufTy).Contents (Elt F) → (⟨S32x64, .f32⟩ : BufTy).Contents (Elt F) → (⟨S32x64, .f32⟩ : BufTy).Contents (Elt F)),
    StableHlo.unary main_v41 main_v42 (Host.negf : (⟨S32x64, .f32⟩ : BufTy).Contents (Elt F) → (⟨S32x64, .f32⟩ : BufTy).Contents (Elt F)),
    StableHlo.unary main_v1 main_v43 ((extractStridedSlice S1 ![127] · slices_S128_S1_127) : (⟨S128, .f32⟩ : BufTy).Contents (Elt F) → (⟨S1, .f32⟩ : BufTy).Contents (Elt F)),
    StableHlo.reshape main_v43 main_v44 rfl shapeCasts_S1_S_,
    StableHlo.unary main_v44 main_v45 (broadcastInDim S32x64 ![] bcast_S_S32x64 : (⟨S_, .f32⟩ : BufTy).Contents (Elt F) → (⟨S32x64, .f32⟩ : BufTy).Contents (Elt F)),
    StableHlo.binary main_v42 main_v45 main_v46 (Host.divf : (⟨S32x64, .f32⟩ : BufTy).Contents (Elt F) → (⟨S32x64, .f32⟩ : BufTy).Contents (Elt F) → (⟨S32x64, .f32⟩ : BufTy).Contents (Elt F)),
    StableHlo.nullary main_c_2 (constantI S_ 32 127#32),
    StableHlo.unary main_c_2 main_v47 (broadcastInDim S1 ![] bcast_S_S1 : (⟨S_, .i32⟩ : BufTy).Contents (Elt F) → (⟨S1, .i32⟩ : BufTy).Contents (Elt F)),
    StableHlo.ternary main_v28 main_v47 main_v46 main_v48 ((fun x i u => Host.scatter scatter_S32x64x128_S1_S32x64_01_2_2_0 FloatOps.addf x i u) : (⟨S32x64x128, .f32⟩ : BufTy).Contents (Elt F) → (⟨S1, .i32⟩ : BufTy).Contents (Elt F) → (⟨S32x64, .f32⟩ : BufTy).Contents (Elt F) → (⟨S32x64x128, .f32⟩ : BufTy).Contents (Elt F)),
    StableHlo.unary main_arg0 main_v49 (Host.sin : (⟨S32x64, .f32⟩ : BufTy).Contents (Elt F) → (⟨S32x64, .f32⟩ : BufTy).Contents (Elt F)),
    StableHlo.unary main_v1 main_v50 ((extractStridedSlice S1 ![0] · slices_S128_S1_0) : (⟨S128, .f32⟩ : BufTy).Contents (Elt F) → (⟨S1, .f32⟩ : BufTy).Contents (Elt F)),
    StableHlo.reshape main_v50 main_v51 rfl shapeCasts_S1_S_,
    StableHlo.unary main_v51 main_v52 (broadcastInDim S32x64 ![] bcast_S_S32x64 : (⟨S_, .f32⟩ : BufTy).Contents (Elt F) → (⟨S32x64, .f32⟩ : BufTy).Contents (Elt F)),
    StableHlo.binary main_v49 main_v52 main_v53 (Host.divf : (⟨S32x64, .f32⟩ : BufTy).Contents (Elt F) → (⟨S32x64, .f32⟩ : BufTy).Contents (Elt F) → (⟨S32x64, .f32⟩ : BufTy).Contents (Elt F)),
    StableHlo.nullary main_c_3 (constantI S_ 32 0#32) ]
theorem seg7_sub : (seg7 : List (HloOp τ sig (Elt F))).Forall fun op => op.bufs ⊆ tcRefs τ sig :=
  ⟨binary_bufs_sub .., unary_bufs_sub .., reshape_bufs_sub .., unary_bufs_sub .., reshape_bufs_sub .., unary_bufs_sub .., binary_bufs_sub .., unary_bufs_sub .., reshape_bufs_sub .., unary_bufs_sub .., reshape_bufs_sub .., unary_bufs_sub .., binary_bufs_sub .., binary_bufs_sub .., unary_bufs_sub .., unary_bufs_sub .., reshape_bufs_sub .., unary_bufs_sub .., binary_bufs_sub .., nullary_bufs_sub .., unary_bufs_sub .., ternary_bufs_sub .., unary_bufs_sub .., unary_bufs_sub .., reshape_bufs_sub .., unary_bufs_sub .., binary_bufs_sub .., nullary_bufs_sub ..⟩
theorem seg7_fresh : ∀ op ∈ (seg7 : List (HloOp τ sig (Elt F))), op.fresh = ∅ := by
  intro _ h; (repeat (cases h with | head => rfl | tail _ h => ?_)); exact nomatch h
theorem seg7_args (r : Ref sig .tc) (hr : r ∈ args) (V : Valuation τ sig (Elt F)) :
    after seg7 V (r : DevRef τ sig) = V (r : DevRef τ sig) := by
  fin_cases hr <;> after_results_simp

abbrev seg8 : List (HloOp τ sig (Elt F)) :=
  [ StableHlo.unary main_c_3 main_v54 (broadcastInDim S1 ![] bcast_S_S1 : (⟨S_, .i32⟩ : BufTy).Contents (Elt F) → (⟨S1, .i32⟩ : BufTy).Contents (Elt F)),
    StableHlo.ternary main_v48 main_v54 main_v53 main_v55 ((fun x i u => Host.scatter scatter_S32x64x128_S1_S32x64_01_2_2_0 FloatOps.addf x i u) : (⟨S32x64x128, .f32⟩ : BufTy).Contents (Elt F) → (⟨S1, .i32⟩ : BufTy).Contents (Elt F) → (⟨S32x64, .f32⟩ : BufTy).Contents (Elt F) → (⟨S32x64x128, .f32⟩ : BufTy).Contents (Elt F)),
    StableHlo.binary main_v5 main_v55 main_v56 ((fun a b => concatenate S32x64x256 2 [⟨S32x64x128, a⟩, ⟨S32x64x128, b⟩] concatenates_S32x64x128_S32x64x128_S32x64x256_d2) : (⟨S32x64x128, .f32⟩ : BufTy).Contents (Elt F) → (⟨S32x64x128, .f32⟩ : BufTy).Contents (Elt F) → (⟨S32x64x256, .f32⟩ : BufTy).Contents (Elt F)),
    StableHlo.unary main_arg2 main_v57 (Host.negf : (⟨S128, .f32⟩ : BufTy).Contents (Elt F) → (⟨S128, .f32⟩ : BufTy).Contents (Elt F)),
    StableHlo.binary main_v57 main_v1 main_v58 (Host.divf : (⟨S128, .f32⟩ : BufTy).Contents (Elt F) → (⟨S128, .f32⟩ : BufTy).Contents (Elt F) → (⟨S128, .f32⟩ : BufTy).Contents (Elt F)) ]
theorem seg8_sub : (seg8 : List (HloOp τ sig (Elt F))).Forall fun op => op.bufs ⊆ tcRefs τ sig :=
  ⟨unary_bufs_sub .., ternary_bufs_sub .., binary_bufs_sub .., unary_bufs_sub .., binary_bufs_sub ..⟩
theorem seg8_fresh : ∀ op ∈ (seg8 : List (HloOp τ sig (Elt F))), op.fresh = ∅ := by
  intro _ h; (repeat (cases h with | head => rfl | tail _ h => ?_)); exact nomatch h
theorem seg8_args (r : Ref sig .tc) (hr : r ∈ args) (V : Valuation τ sig (Elt F)) :
    after seg8 V (r : DevRef τ sig) = V (r : DevRef τ sig) := by
  fin_cases hr <;> after_results_simp

abbrev seg9 : List (HloOp τ sig (Elt F)) :=
  [ StableHlo.TRef.nullary (.of main_call4_cst : StableHlo.TRef sig ⟨S_, .f32⟩) (constant S_ .f32 0x00000000#32),
    StableHlo.TRef.binary (.of main_v58 : StableHlo.TRef sig ⟨S128, .f32⟩) (.of main_call4_cst : StableHlo.TRef sig ⟨S_, .f32⟩) (.of main_call4_v0 : StableHlo.TRef sig ⟨S128, .f32⟩) (fun x v => pad S128 ![0] ![0] ![0] x v pads_S128_S128_000 h_S_),
    StableHlo.TRef.nullary (.of main_call4_v1 : StableHlo.TRef sig ⟨S128x128, .i32⟩) (iotaInDim S128x128 32 0),
    StableHlo.TRef.nullary (.of main_call4_v2 : StableHlo.TRef sig ⟨S128x128, .i32⟩) (iotaInDim S128x128 32 1),
    StableHlo.TRef.nullary (.of main_call4_c : StableHlo.TRef sig ⟨S_, .i32⟩) (constantI S_ 32 0#32),
    StableHlo.TRef.unary (.of main_call4_c : StableHlo.TRef sig ⟨S_, .i32⟩) (.of main_call4_v3 : StableHlo.TRef sig ⟨S128x128, .i32⟩) (broadcastInDim S128x128 ![] bcast_S_S128x128),
    StableHlo.TRef.binary (.of main_call4_v1 : StableHlo.TRef sig ⟨S128x128, .i32⟩) (.of main_call4_v3 : StableHlo.TRef sig ⟨S128x128, .i32⟩) (.of main_call4_v4 : StableHlo.TRef sig ⟨S128x128, .i32⟩) addi,
    StableHlo.TRef.binary (.of main_call4_v4 : StableHlo.TRef sig ⟨S128x128, .i32⟩) (.of main_call4_v2 : StableHlo.TRef sig ⟨S128x128, .i32⟩) (.of main_call4_v5 : StableHlo.TRef sig ⟨S128x128, .i1⟩) (cmpi .eq),
    StableHlo.TRef.unary (.of main_call4_v0 : StableHlo.TRef sig ⟨S128, .f32⟩) (.of main_call4_v6 : StableHlo.TRef sig ⟨S128x1, .f32⟩) (broadcastInDim S128x1 ![0] bcast_S128_S128x1_0),
    StableHlo.TRef.nullary (.of main_call4_cst_0 : StableHlo.TRef sig ⟨S_, .f32⟩) (constant S_ .f32 0x00000000#32),
    StableHlo.TRef.unary (.of main_call4_v6 : StableHlo.TRef sig ⟨S128x1, .f32⟩) (.of main_call4_call0_v0 : StableHlo.TRef sig ⟨S128x128, .f32⟩) (broadcastInDim S128x128 ![0, 1] bcast_S128x1_S128x128_0_1),
    StableHlo.TRef.unary (.of main_call4_cst_0 : StableHlo.TRef sig ⟨S_, .f32⟩) (.of main_call4_call0_v1 : StableHlo.TRef sig ⟨S128x128, .f32⟩) (broadcastInDim S128x128 ![] bcast_S_S128x128),
    StableHlo.TRef.ternary (.of main_call4_v5 : StableHlo.TRef sig ⟨S128x128, .i1⟩) (.of main_call4_call0_v0 : StableHlo.TRef sig ⟨S128x128, .f32⟩) (.of main_call4_call0_v1 : StableHlo.TRef sig ⟨S128x128, .f32⟩) (.of main_v59 : StableHlo.TRef sig ⟨S128x128, .f32⟩) select ]
theorem seg9_sub : (seg9 : List (HloOp τ sig (Elt F))).Forall fun op => op.bufs ⊆ tcRefs τ sig :=
  ⟨nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub ..⟩
theorem seg9_fresh : ∀ op ∈ (seg9 : List (HloOp τ sig (Elt F))), op.fresh = ∅ := by
  intro _ h; (repeat (cases h with | head => rfl | tail _ h => ?_)); exact nomatch h
theorem seg9_args (r : Ref sig .tc) (hr : r ∈ args) (V : Valuation τ sig (Elt F)) :
    after seg9 V (r : DevRef τ sig) = V (r : DevRef τ sig) := by
  fin_cases hr <;> after_results_simp

abbrev seg10 : List (HloOp τ sig (Elt F)) :=
  [ StableHlo.unary main_arg2 main_v60 ((extractStridedSlice S127 ![0] · slices_S128_S127_0) : (⟨S128, .f32⟩ : BufTy).Contents (Elt F) → (⟨S127, .f32⟩ : BufTy).Contents (Elt F)),
    StableHlo.unary main_v60 main_v61 (Host.negf : (⟨S127, .f32⟩ : BufTy).Contents (Elt F) → (⟨S127, .f32⟩ : BufTy).Contents (Elt F)),
    StableHlo.unary main_v1 main_v62 ((extractStridedSlice S127 ![1] · slices_S128_S127_1) : (⟨S128, .f32⟩ : BufTy).Contents (Elt F) → (⟨S127, .f32⟩ : BufTy).Contents (Elt F)),
    StableHlo.binary main_v61 main_v62 main_v63 (Host.divf : (⟨S127, .f32⟩ : BufTy).Contents (Elt F) → (⟨S127, .f32⟩ : BufTy).Contents (Elt F) → (⟨S127, .f32⟩ : BufTy).Contents (Elt F)) ]
theorem seg10_sub : (seg10 : List (HloOp τ sig (Elt F))).Forall fun op => op.bufs ⊆ tcRefs τ sig :=
  ⟨unary_bufs_sub .., unary_bufs_sub .., unary_bufs_sub .., binary_bufs_sub ..⟩
theorem seg10_fresh : ∀ op ∈ (seg10 : List (HloOp τ sig (Elt F))), op.fresh = ∅ := by
  intro _ h; (repeat (cases h with | head => rfl | tail _ h => ?_)); exact nomatch h
theorem seg10_args (r : Ref sig .tc) (hr : r ∈ args) (V : Valuation τ sig (Elt F)) :
    after seg10 V (r : DevRef τ sig) = V (r : DevRef τ sig) := by
  fin_cases hr <;> after_results_simp

abbrev seg11 : List (HloOp τ sig (Elt F)) :=
  [ StableHlo.TRef.nullary (.of main_call5_cst : StableHlo.TRef sig ⟨S_, .f32⟩) (constant S_ .f32 0x00000000#32),
    StableHlo.TRef.binary (.of main_v63 : StableHlo.TRef sig ⟨S127, .f32⟩) (.of main_call5_cst : StableHlo.TRef sig ⟨S_, .f32⟩) (.of main_call5_v0 : StableHlo.TRef sig ⟨S127, .f32⟩) (fun x v => pad S127 ![0] ![0] ![0] x v pads_S127_S127_000 h_S_),
    StableHlo.TRef.nullary (.of main_call5_v1 : StableHlo.TRef sig ⟨S127x127, .i32⟩) (iotaInDim S127x127 32 0),
    StableHlo.TRef.nullary (.of main_call5_v2 : StableHlo.TRef sig ⟨S127x127, .i32⟩) (iotaInDim S127x127 32 1),
    StableHlo.TRef.nullary (.of main_call5_c : StableHlo.TRef sig ⟨S_, .i32⟩) (constantI S_ 32 0#32),
    StableHlo.TRef.unary (.of main_call5_c : StableHlo.TRef sig ⟨S_, .i32⟩) (.of main_call5_v3 : StableHlo.TRef sig ⟨S127x127, .i32⟩) (broadcastInDim S127x127 ![] bcast_S_S127x127),
    StableHlo.TRef.binary (.of main_call5_v1 : StableHlo.TRef sig ⟨S127x127, .i32⟩) (.of main_call5_v3 : StableHlo.TRef sig ⟨S127x127, .i32⟩) (.of main_call5_v4 : StableHlo.TRef sig ⟨S127x127, .i32⟩) addi,
    StableHlo.TRef.binary (.of main_call5_v4 : StableHlo.TRef sig ⟨S127x127, .i32⟩) (.of main_call5_v2 : StableHlo.TRef sig ⟨S127x127, .i32⟩) (.of main_call5_v5 : StableHlo.TRef sig ⟨S127x127, .i1⟩) (cmpi .eq),
    StableHlo.TRef.unary (.of main_call5_v0 : StableHlo.TRef sig ⟨S127, .f32⟩) (.of main_call5_v6 : StableHlo.TRef sig ⟨S127x1, .f32⟩) (broadcastInDim S127x1 ![0] bcast_S127_S127x1_0),
    StableHlo.TRef.nullary (.of main_call5_cst_0 : StableHlo.TRef sig ⟨S_, .f32⟩) (constant S_ .f32 0x00000000#32),
    StableHlo.TRef.unary (.of main_call5_v6 : StableHlo.TRef sig ⟨S127x1, .f32⟩) (.of main_call5_call0_v0 : StableHlo.TRef sig ⟨S127x127, .f32⟩) (broadcastInDim S127x127 ![0, 1] bcast_S127x1_S127x127_0_1),
    StableHlo.TRef.unary (.of main_call5_cst_0 : StableHlo.TRef sig ⟨S_, .f32⟩) (.of main_call5_call0_v1 : StableHlo.TRef sig ⟨S127x127, .f32⟩) (broadcastInDim S127x127 ![] bcast_S_S127x127),
    StableHlo.TRef.ternary (.of main_call5_v5 : StableHlo.TRef sig ⟨S127x127, .i1⟩) (.of main_call5_call0_v0 : StableHlo.TRef sig ⟨S127x127, .f32⟩) (.of main_call5_call0_v1 : StableHlo.TRef sig ⟨S127x127, .f32⟩) (.of main_v64 : StableHlo.TRef sig ⟨S127x127, .f32⟩) select ]
theorem seg11_sub : (seg11 : List (HloOp τ sig (Elt F))).Forall fun op => op.bufs ⊆ tcRefs τ sig :=
  ⟨nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub ..⟩
theorem seg11_fresh : ∀ op ∈ (seg11 : List (HloOp τ sig (Elt F))), op.fresh = ∅ := by
  intro _ h; (repeat (cases h with | head => rfl | tail _ h => ?_)); exact nomatch h
theorem seg11_args (r : Ref sig .tc) (hr : r ∈ args) (V : Valuation τ sig (Elt F)) :
    after seg11 V (r : DevRef τ sig) = V (r : DevRef τ sig) := by
  fin_cases hr <;> after_results_simp

abbrev seg12 : List (HloOp τ sig (Elt F)) :=
  [ StableHlo.nullary main_c_4 (constantI S_ 32 1#32),
    StableHlo.unary main_c_4 main_v65 (broadcastInDim S1 ![] bcast_S_S1 : (⟨S_, .i32⟩ : BufTy).Contents (Elt F) → (⟨S1, .i32⟩ : BufTy).Contents (Elt F)),
    StableHlo.nullary main_c_5 (constantI S_ 32 1#32),
    StableHlo.unary main_c_5 main_v66 (broadcastInDim S1 ![] bcast_S_S1 : (⟨S_, .i32⟩ : BufTy).Contents (Elt F) → (⟨S1, .i32⟩ : BufTy).Contents (Elt F)),
    StableHlo.binary main_v65 main_v66 main_v67 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v59 main_v67 main_v64 main_v68 ((fun x i u => Host.scatter scatter_S128x128_S2_S127x127_01_n_01_0 FloatOps.addf x i u) : (⟨S128x128, .f32⟩ : BufTy).Contents (Elt F) → (⟨S2, .i32⟩ : BufTy).Contents (Elt F) → (⟨S127x127, .f32⟩ : BufTy).Contents (Elt F) → (⟨S128x128, .f32⟩ : BufTy).Contents (Elt F)),
    StableHlo.unary main_arg2 main_v69 ((extractStridedSlice S127 ![0] · slices_S128_S127_0) : (⟨S128, .f32⟩ : BufTy).Contents (Elt F) → (⟨S127, .f32⟩ : BufTy).Contents (Elt F)),
    StableHlo.unary main_v1 main_v70 ((extractStridedSlice S127 ![0] · slices_S128_S127_0) : (⟨S128, .f32⟩ : BufTy).Contents (Elt F) → (⟨S127, .f32⟩ : BufTy).Contents (Elt F)),
    StableHlo.binary main_v69 main_v70 main_v71 (Host.divf : (⟨S127, .f32⟩ : BufTy).Contents (Elt F) → (⟨S127, .f32⟩ : BufTy).Contents (Elt F) → (⟨S127, .f32⟩ : BufTy).Contents (Elt F)) ]
theorem seg12_sub : (seg12 : List (HloOp τ sig (Elt F))).Forall fun op => op.bufs ⊆ tcRefs τ sig :=
  ⟨nullary_bufs_sub .., unary_bufs_sub .., nullary_bufs_sub .., unary_bufs_sub .., binary_bufs_sub .., ternary_bufs_sub .., unary_bufs_sub .., unary_bufs_sub .., binary_bufs_sub ..⟩
theorem seg12_fresh : ∀ op ∈ (seg12 : List (HloOp τ sig (Elt F))), op.fresh = ∅ := by
  intro _ h; (repeat (cases h with | head => rfl | tail _ h => ?_)); exact nomatch h
theorem seg12_args (r : Ref sig .tc) (hr : r ∈ args) (V : Valuation τ sig (Elt F)) :
    after seg12 V (r : DevRef τ sig) = V (r : DevRef τ sig) := by
  fin_cases hr <;> after_results_simp

abbrev seg13 : List (HloOp τ sig (Elt F)) :=
  [ StableHlo.TRef.nullary (.of main_call6_cst : StableHlo.TRef sig ⟨S_, .f32⟩) (constant S_ .f32 0x00000000#32),
    StableHlo.TRef.binary (.of main_v71 : StableHlo.TRef sig ⟨S127, .f32⟩) (.of main_call6_cst : StableHlo.TRef sig ⟨S_, .f32⟩) (.of main_call6_v0 : StableHlo.TRef sig ⟨S128, .f32⟩) (fun x v => pad S128 ![0] ![1] ![0] x v pads_S127_S128_010 h_S_),
    StableHlo.TRef.nullary (.of main_call6_v1 : StableHlo.TRef sig ⟨S128x128, .i32⟩) (iotaInDim S128x128 32 0),
    StableHlo.TRef.nullary (.of main_call6_v2 : StableHlo.TRef sig ⟨S128x128, .i32⟩) (iotaInDim S128x128 32 1),
    StableHlo.TRef.nullary (.of main_call6_c : StableHlo.TRef sig ⟨S_, .i32⟩) (constantI S_ 32 1#32),
    StableHlo.TRef.unary (.of main_call6_c : StableHlo.TRef sig ⟨S_, .i32⟩) (.of main_call6_v3 : StableHlo.TRef sig ⟨S128x128, .i32⟩) (broadcastInDim S128x128 ![] bcast_S_S128x128),
    StableHlo.TRef.binary (.of main_call6_v1 : StableHlo.TRef sig ⟨S128x128, .i32⟩) (.of main_call6_v3 : StableHlo.TRef sig ⟨S128x128, .i32⟩) (.of main_call6_v4 : StableHlo.TRef sig ⟨S128x128, .i32⟩) addi,
    StableHlo.TRef.binary (.of main_call6_v4 : StableHlo.TRef sig ⟨S128x128, .i32⟩) (.of main_call6_v2 : StableHlo.TRef sig ⟨S128x128, .i32⟩) (.of main_call6_v5 : StableHlo.TRef sig ⟨S128x128, .i1⟩) (cmpi .eq),
    StableHlo.TRef.unary (.of main_call6_v0 : StableHlo.TRef sig ⟨S128, .f32⟩) (.of main_call6_v6 : StableHlo.TRef sig ⟨S128x1, .f32⟩) (broadcastInDim S128x1 ![0] bcast_S128_S128x1_0),
    StableHlo.TRef.nullary (.of main_call6_cst_0 : StableHlo.TRef sig ⟨S_, .f32⟩) (constant S_ .f32 0x00000000#32),
    StableHlo.TRef.unary (.of main_call6_v6 : StableHlo.TRef sig ⟨S128x1, .f32⟩) (.of main_call6_call0_v0 : StableHlo.TRef sig ⟨S128x128, .f32⟩) (broadcastInDim S128x128 ![0, 1] bcast_S128x1_S128x128_0_1),
    StableHlo.TRef.unary (.of main_call6_cst_0 : StableHlo.TRef sig ⟨S_, .f32⟩) (.of main_call6_call0_v1 : StableHlo.TRef sig ⟨S128x128, .f32⟩) (broadcastInDim S128x128 ![] bcast_S_S128x128),
    StableHlo.TRef.ternary (.of main_call6_v5 : StableHlo.TRef sig ⟨S128x128, .i1⟩) (.of main_call6_call0_v0 : StableHlo.TRef sig ⟨S128x128, .f32⟩) (.of main_call6_call0_v1 : StableHlo.TRef sig ⟨S128x128, .f32⟩) (.of main_v72 : StableHlo.TRef sig ⟨S128x128, .f32⟩) select ]
theorem seg13_sub : (seg13 : List (HloOp τ sig (Elt F))).Forall fun op => op.bufs ⊆ tcRefs τ sig :=
  ⟨nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub ..⟩
theorem seg13_fresh : ∀ op ∈ (seg13 : List (HloOp τ sig (Elt F))), op.fresh = ∅ := by
  intro _ h; (repeat (cases h with | head => rfl | tail _ h => ?_)); exact nomatch h
theorem seg13_args (r : Ref sig .tc) (hr : r ∈ args) (V : Valuation τ sig (Elt F)) :
    after seg13 V (r : DevRef τ sig) = V (r : DevRef τ sig) := by
  fin_cases hr <;> after_results_simp

abbrev seg14 : List (HloOp τ sig (Elt F)) :=
  [ StableHlo.binary main_v68 main_v72 main_v73 (addf : (⟨S128x128, .f32⟩ : BufTy).Contents (Elt F) → (⟨S128x128, .f32⟩ : BufTy).Contents (Elt F) → (⟨S128x128, .f32⟩ : BufTy).Contents (Elt F)),
    StableHlo.unary main_arg2 main_v74 ((extractStridedSlice S127 ![0] · slices_S128_S127_0) : (⟨S128, .f32⟩ : BufTy).Contents (Elt F) → (⟨S127, .f32⟩ : BufTy).Contents (Elt F)),
    StableHlo.unary main_v1 main_v75 ((extractStridedSlice S127 ![1] · slices_S128_S127_1) : (⟨S128, .f32⟩ : BufTy).Contents (Elt F) → (⟨S127, .f32⟩ : BufTy).Contents (Elt F)),
    StableHlo.binary main_v74 main_v75 main_v76 (Host.divf : (⟨S127, .f32⟩ : BufTy).Contents (Elt F) → (⟨S127, .f32⟩ : BufTy).Contents (Elt F) → (⟨S127, .f32⟩ : BufTy).Contents (Elt F)) ]
theorem seg14_sub : (seg14 : List (HloOp τ sig (Elt F))).Forall fun op => op.bufs ⊆ tcRefs τ sig :=
  ⟨binary_bufs_sub .., unary_bufs_sub .., unary_bufs_sub .., binary_bufs_sub ..⟩
theorem seg14_fresh : ∀ op ∈ (seg14 : List (HloOp τ sig (Elt F))), op.fresh = ∅ := by
  intro _ h; (repeat (cases h with | head => rfl | tail _ h => ?_)); exact nomatch h
theorem seg14_args (r : Ref sig .tc) (hr : r ∈ args) (V : Valuation τ sig (Elt F)) :
    after seg14 V (r : DevRef τ sig) = V (r : DevRef τ sig) := by
  fin_cases hr <;> after_results_simp

abbrev seg15 : List (HloOp τ sig (Elt F)) :=
  [ StableHlo.TRef.nullary (.of main_call7_cst : StableHlo.TRef sig ⟨S_, .f32⟩) (constant S_ .f32 0x00000000#32),
    StableHlo.TRef.binary (.of main_v76 : StableHlo.TRef sig ⟨S127, .f32⟩) (.of main_call7_cst : StableHlo.TRef sig ⟨S_, .f32⟩) (.of main_call7_v0 : StableHlo.TRef sig ⟨S128, .f32⟩) (fun x v => pad S128 ![1] ![0] ![0] x v pads_S127_S128_100 h_S_),
    StableHlo.TRef.nullary (.of main_call7_v1 : StableHlo.TRef sig ⟨S128x128, .i32⟩) (iotaInDim S128x128 32 0),
    StableHlo.TRef.nullary (.of main_call7_v2 : StableHlo.TRef sig ⟨S128x128, .i32⟩) (iotaInDim S128x128 32 1),
    StableHlo.TRef.nullary (.of main_call7_c : StableHlo.TRef sig ⟨S_, .i32⟩) (constantI S_ 32 4294967295#32),
    StableHlo.TRef.unary (.of main_call7_c : StableHlo.TRef sig ⟨S_, .i32⟩) (.of main_call7_v3 : StableHlo.TRef sig ⟨S128x128, .i32⟩) (broadcastInDim S128x128 ![] bcast_S_S128x128),
    StableHlo.TRef.binary (.of main_call7_v1 : StableHlo.TRef sig ⟨S128x128, .i32⟩) (.of main_call7_v3 : StableHlo.TRef sig ⟨S128x128, .i32⟩) (.of main_call7_v4 : StableHlo.TRef sig ⟨S128x128, .i32⟩) addi,
    StableHlo.TRef.binary (.of main_call7_v4 : StableHlo.TRef sig ⟨S128x128, .i32⟩) (.of main_call7_v2 : StableHlo.TRef sig ⟨S128x128, .i32⟩) (.of main_call7_v5 : StableHlo.TRef sig ⟨S128x128, .i1⟩) (cmpi .eq),
    StableHlo.TRef.unary (.of main_call7_v0 : StableHlo.TRef sig ⟨S128, .f32⟩) (.of main_call7_v6 : StableHlo.TRef sig ⟨S128x1, .f32⟩) (broadcastInDim S128x1 ![0] bcast_S128_S128x1_0),
    StableHlo.TRef.nullary (.of main_call7_cst_0 : StableHlo.TRef sig ⟨S_, .f32⟩) (constant S_ .f32 0x00000000#32),
    StableHlo.TRef.unary (.of main_call7_v6 : StableHlo.TRef sig ⟨S128x1, .f32⟩) (.of main_call7_call0_v0 : StableHlo.TRef sig ⟨S128x128, .f32⟩) (broadcastInDim S128x128 ![0, 1] bcast_S128x1_S128x128_0_1),
    StableHlo.TRef.unary (.of main_call7_cst_0 : StableHlo.TRef sig ⟨S_, .f32⟩) (.of main_call7_call0_v1 : StableHlo.TRef sig ⟨S128x128, .f32⟩) (broadcastInDim S128x128 ![] bcast_S_S128x128),
    StableHlo.TRef.ternary (.of main_call7_v5 : StableHlo.TRef sig ⟨S128x128, .i1⟩) (.of main_call7_call0_v0 : StableHlo.TRef sig ⟨S128x128, .f32⟩) (.of main_call7_call0_v1 : StableHlo.TRef sig ⟨S128x128, .f32⟩) (.of main_v77 : StableHlo.TRef sig ⟨S128x128, .f32⟩) select ]
theorem seg15_sub : (seg15 : List (HloOp τ sig (Elt F))).Forall fun op => op.bufs ⊆ tcRefs τ sig :=
  ⟨nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub ..⟩
theorem seg15_fresh : ∀ op ∈ (seg15 : List (HloOp τ sig (Elt F))), op.fresh = ∅ := by
  intro _ h; (repeat (cases h with | head => rfl | tail _ h => ?_)); exact nomatch h
theorem seg15_args (r : Ref sig .tc) (hr : r ∈ args) (V : Valuation τ sig (Elt F)) :
    after seg15 V (r : DevRef τ sig) = V (r : DevRef τ sig) := by
  fin_cases hr <;> after_results_simp

abbrev seg16 : List (HloOp τ sig (Elt F)) :=
  [ StableHlo.binary main_v73 main_v77 main_v78 (addf : (⟨S128x128, .f32⟩ : BufTy).Contents (Elt F) → (⟨S128x128, .f32⟩ : BufTy).Contents (Elt F) → (⟨S128x128, .f32⟩ : BufTy).Contents (Elt F)),
    StableHlo.unary main_v3 main_v79 (Host.negf : (⟨S128, .f32⟩ : BufTy).Contents (Elt F) → (⟨S128, .f32⟩ : BufTy).Contents (Elt F)),
    StableHlo.binary main_v79 main_v1 main_v80 (Host.divf : (⟨S128, .f32⟩ : BufTy).Contents (Elt F) → (⟨S128, .f32⟩ : BufTy).Contents (Elt F) → (⟨S128, .f32⟩ : BufTy).Contents (Elt F)) ]
theorem seg16_sub : (seg16 : List (HloOp τ sig (Elt F))).Forall fun op => op.bufs ⊆ tcRefs τ sig :=
  ⟨binary_bufs_sub .., unary_bufs_sub .., binary_bufs_sub ..⟩
theorem seg16_fresh : ∀ op ∈ (seg16 : List (HloOp τ sig (Elt F))), op.fresh = ∅ := by
  intro _ h; (repeat (cases h with | head => rfl | tail _ h => ?_)); exact nomatch h
theorem seg16_args (r : Ref sig .tc) (hr : r ∈ args) (V : Valuation τ sig (Elt F)) :
    after seg16 V (r : DevRef τ sig) = V (r : DevRef τ sig) := by
  fin_cases hr <;> after_results_simp

abbrev seg17 : List (HloOp τ sig (Elt F)) :=
  [ StableHlo.TRef.nullary (.of main_call8_cst : StableHlo.TRef sig ⟨S_, .f32⟩) (constant S_ .f32 0x00000000#32),
    StableHlo.TRef.binary (.of main_v80 : StableHlo.TRef sig ⟨S128, .f32⟩) (.of main_call8_cst : StableHlo.TRef sig ⟨S_, .f32⟩) (.of main_call8_v0 : StableHlo.TRef sig ⟨S128, .f32⟩) (fun x v => pad S128 ![0] ![0] ![0] x v pads_S128_S128_000 h_S_),
    StableHlo.TRef.nullary (.of main_call8_v1 : StableHlo.TRef sig ⟨S128x128, .i32⟩) (iotaInDim S128x128 32 0),
    StableHlo.TRef.nullary (.of main_call8_v2 : StableHlo.TRef sig ⟨S128x128, .i32⟩) (iotaInDim S128x128 32 1),
    StableHlo.TRef.nullary (.of main_call8_c : StableHlo.TRef sig ⟨S_, .i32⟩) (constantI S_ 32 0#32),
    StableHlo.TRef.unary (.of main_call8_c : StableHlo.TRef sig ⟨S_, .i32⟩) (.of main_call8_v3 : StableHlo.TRef sig ⟨S128x128, .i32⟩) (broadcastInDim S128x128 ![] bcast_S_S128x128),
    StableHlo.TRef.binary (.of main_call8_v1 : StableHlo.TRef sig ⟨S128x128, .i32⟩) (.of main_call8_v3 : StableHlo.TRef sig ⟨S128x128, .i32⟩) (.of main_call8_v4 : StableHlo.TRef sig ⟨S128x128, .i32⟩) addi,
    StableHlo.TRef.binary (.of main_call8_v4 : StableHlo.TRef sig ⟨S128x128, .i32⟩) (.of main_call8_v2 : StableHlo.TRef sig ⟨S128x128, .i32⟩) (.of main_call8_v5 : StableHlo.TRef sig ⟨S128x128, .i1⟩) (cmpi .eq),
    StableHlo.TRef.unary (.of main_call8_v0 : StableHlo.TRef sig ⟨S128, .f32⟩) (.of main_call8_v6 : StableHlo.TRef sig ⟨S128x1, .f32⟩) (broadcastInDim S128x1 ![0] bcast_S128_S128x1_0),
    StableHlo.TRef.nullary (.of main_call8_cst_0 : StableHlo.TRef sig ⟨S_, .f32⟩) (constant S_ .f32 0x00000000#32),
    StableHlo.TRef.unary (.of main_call8_v6 : StableHlo.TRef sig ⟨S128x1, .f32⟩) (.of main_call8_call0_v0 : StableHlo.TRef sig ⟨S128x128, .f32⟩) (broadcastInDim S128x128 ![0, 1] bcast_S128x1_S128x128_0_1),
    StableHlo.TRef.unary (.of main_call8_cst_0 : StableHlo.TRef sig ⟨S_, .f32⟩) (.of main_call8_call0_v1 : StableHlo.TRef sig ⟨S128x128, .f32⟩) (broadcastInDim S128x128 ![] bcast_S_S128x128),
    StableHlo.TRef.ternary (.of main_call8_v5 : StableHlo.TRef sig ⟨S128x128, .i1⟩) (.of main_call8_call0_v0 : StableHlo.TRef sig ⟨S128x128, .f32⟩) (.of main_call8_call0_v1 : StableHlo.TRef sig ⟨S128x128, .f32⟩) (.of main_v81 : StableHlo.TRef sig ⟨S128x128, .f32⟩) select ]
theorem seg17_sub : (seg17 : List (HloOp τ sig (Elt F))).Forall fun op => op.bufs ⊆ tcRefs τ sig :=
  ⟨nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub ..⟩
theorem seg17_fresh : ∀ op ∈ (seg17 : List (HloOp τ sig (Elt F))), op.fresh = ∅ := by
  intro _ h; (repeat (cases h with | head => rfl | tail _ h => ?_)); exact nomatch h
theorem seg17_args (r : Ref sig .tc) (hr : r ∈ args) (V : Valuation τ sig (Elt F)) :
    after seg17 V (r : DevRef τ sig) = V (r : DevRef τ sig) := by
  fin_cases hr <;> after_results_simp

abbrev seg18 : List (HloOp τ sig (Elt F)) :=
  [ StableHlo.unary main_v3 main_v82 ((extractStridedSlice S127 ![0] · slices_S128_S127_0) : (⟨S128, .f32⟩ : BufTy).Contents (Elt F) → (⟨S127, .f32⟩ : BufTy).Contents (Elt F)),
    StableHlo.unary main_v82 main_v83 (Host.negf : (⟨S127, .f32⟩ : BufTy).Contents (Elt F) → (⟨S127, .f32⟩ : BufTy).Contents (Elt F)),
    StableHlo.unary main_v1 main_v84 ((extractStridedSlice S127 ![1] · slices_S128_S127_1) : (⟨S128, .f32⟩ : BufTy).Contents (Elt F) → (⟨S127, .f32⟩ : BufTy).Contents (Elt F)),
    StableHlo.binary main_v83 main_v84 main_v85 (Host.divf : (⟨S127, .f32⟩ : BufTy).Contents (Elt F) → (⟨S127, .f32⟩ : BufTy).Contents (Elt F) → (⟨S127, .f32⟩ : BufTy).Contents (Elt F)) ]
theorem seg18_sub : (seg18 : List (HloOp τ sig (Elt F))).Forall fun op => op.bufs ⊆ tcRefs τ sig :=
  ⟨unary_bufs_sub .., unary_bufs_sub .., unary_bufs_sub .., binary_bufs_sub ..⟩
theorem seg18_fresh : ∀ op ∈ (seg18 : List (HloOp τ sig (Elt F))), op.fresh = ∅ := by
  intro _ h; (repeat (cases h with | head => rfl | tail _ h => ?_)); exact nomatch h
theorem seg18_args (r : Ref sig .tc) (hr : r ∈ args) (V : Valuation τ sig (Elt F)) :
    after seg18 V (r : DevRef τ sig) = V (r : DevRef τ sig) := by
  fin_cases hr <;> after_results_simp

abbrev seg19 : List (HloOp τ sig (Elt F)) :=
  [ StableHlo.TRef.nullary (.of main_call9_cst : StableHlo.TRef sig ⟨S_, .f32⟩) (constant S_ .f32 0x00000000#32),
    StableHlo.TRef.binary (.of main_v85 : StableHlo.TRef sig ⟨S127, .f32⟩) (.of main_call9_cst : StableHlo.TRef sig ⟨S_, .f32⟩) (.of main_call9_v0 : StableHlo.TRef sig ⟨S127, .f32⟩) (fun x v => pad S127 ![0] ![0] ![0] x v pads_S127_S127_000 h_S_),
    StableHlo.TRef.nullary (.of main_call9_v1 : StableHlo.TRef sig ⟨S127x127, .i32⟩) (iotaInDim S127x127 32 0),
    StableHlo.TRef.nullary (.of main_call9_v2 : StableHlo.TRef sig ⟨S127x127, .i32⟩) (iotaInDim S127x127 32 1),
    StableHlo.TRef.nullary (.of main_call9_c : StableHlo.TRef sig ⟨S_, .i32⟩) (constantI S_ 32 0#32),
    StableHlo.TRef.unary (.of main_call9_c : StableHlo.TRef sig ⟨S_, .i32⟩) (.of main_call9_v3 : StableHlo.TRef sig ⟨S127x127, .i32⟩) (broadcastInDim S127x127 ![] bcast_S_S127x127),
    StableHlo.TRef.binary (.of main_call9_v1 : StableHlo.TRef sig ⟨S127x127, .i32⟩) (.of main_call9_v3 : StableHlo.TRef sig ⟨S127x127, .i32⟩) (.of main_call9_v4 : StableHlo.TRef sig ⟨S127x127, .i32⟩) addi,
    StableHlo.TRef.binary (.of main_call9_v4 : StableHlo.TRef sig ⟨S127x127, .i32⟩) (.of main_call9_v2 : StableHlo.TRef sig ⟨S127x127, .i32⟩) (.of main_call9_v5 : StableHlo.TRef sig ⟨S127x127, .i1⟩) (cmpi .eq),
    StableHlo.TRef.unary (.of main_call9_v0 : StableHlo.TRef sig ⟨S127, .f32⟩) (.of main_call9_v6 : StableHlo.TRef sig ⟨S127x1, .f32⟩) (broadcastInDim S127x1 ![0] bcast_S127_S127x1_0),
    StableHlo.TRef.nullary (.of main_call9_cst_0 : StableHlo.TRef sig ⟨S_, .f32⟩) (constant S_ .f32 0x00000000#32),
    StableHlo.TRef.unary (.of main_call9_v6 : StableHlo.TRef sig ⟨S127x1, .f32⟩) (.of main_call9_call0_v0 : StableHlo.TRef sig ⟨S127x127, .f32⟩) (broadcastInDim S127x127 ![0, 1] bcast_S127x1_S127x127_0_1),
    StableHlo.TRef.unary (.of main_call9_cst_0 : StableHlo.TRef sig ⟨S_, .f32⟩) (.of main_call9_call0_v1 : StableHlo.TRef sig ⟨S127x127, .f32⟩) (broadcastInDim S127x127 ![] bcast_S_S127x127),
    StableHlo.TRef.ternary (.of main_call9_v5 : StableHlo.TRef sig ⟨S127x127, .i1⟩) (.of main_call9_call0_v0 : StableHlo.TRef sig ⟨S127x127, .f32⟩) (.of main_call9_call0_v1 : StableHlo.TRef sig ⟨S127x127, .f32⟩) (.of main_v86 : StableHlo.TRef sig ⟨S127x127, .f32⟩) select ]
theorem seg19_sub : (seg19 : List (HloOp τ sig (Elt F))).Forall fun op => op.bufs ⊆ tcRefs τ sig :=
  ⟨nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub ..⟩
theorem seg19_fresh : ∀ op ∈ (seg19 : List (HloOp τ sig (Elt F))), op.fresh = ∅ := by
  intro _ h; (repeat (cases h with | head => rfl | tail _ h => ?_)); exact nomatch h
theorem seg19_args (r : Ref sig .tc) (hr : r ∈ args) (V : Valuation τ sig (Elt F)) :
    after seg19 V (r : DevRef τ sig) = V (r : DevRef τ sig) := by
  fin_cases hr <;> after_results_simp

abbrev seg20 : List (HloOp τ sig (Elt F)) :=
  [ StableHlo.nullary main_c_6 (constantI S_ 32 1#32),
    StableHlo.unary main_c_6 main_v87 (broadcastInDim S1 ![] bcast_S_S1 : (⟨S_, .i32⟩ : BufTy).Contents (Elt F) → (⟨S1, .i32⟩ : BufTy).Contents (Elt F)),
    StableHlo.nullary main_c_7 (constantI S_ 32 1#32),
    StableHlo.unary main_c_7 main_v88 (broadcastInDim S1 ![] bcast_S_S1 : (⟨S_, .i32⟩ : BufTy).Contents (Elt F) → (⟨S1, .i32⟩ : BufTy).Contents (Elt F)),
    StableHlo.binary main_v87 main_v88 main_v89 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v81 main_v89 main_v86 main_v90 ((fun x i u => Host.scatter scatter_S128x128_S2_S127x127_01_n_01_0 FloatOps.addf x i u) : (⟨S128x128, .f32⟩ : BufTy).Contents (Elt F) → (⟨S2, .i32⟩ : BufTy).Contents (Elt F) → (⟨S127x127, .f32⟩ : BufTy).Contents (Elt F) → (⟨S128x128, .f32⟩ : BufTy).Contents (Elt F)),
    StableHlo.unary main_v3 main_v91 ((extractStridedSlice S127 ![0] · slices_S128_S127_0) : (⟨S128, .f32⟩ : BufTy).Contents (Elt F) → (⟨S127, .f32⟩ : BufTy).Contents (Elt F)),
    StableHlo.unary main_v1 main_v92 ((extractStridedSlice S127 ![0] · slices_S128_S127_0) : (⟨S128, .f32⟩ : BufTy).Contents (Elt F) → (⟨S127, .f32⟩ : BufTy).Contents (Elt F)),
    StableHlo.binary main_v91 main_v92 main_v93 (Host.divf : (⟨S127, .f32⟩ : BufTy).Contents (Elt F) → (⟨S127, .f32⟩ : BufTy).Contents (Elt F) → (⟨S127, .f32⟩ : BufTy).Contents (Elt F)) ]
theorem seg20_sub : (seg20 : List (HloOp τ sig (Elt F))).Forall fun op => op.bufs ⊆ tcRefs τ sig :=
  ⟨nullary_bufs_sub .., unary_bufs_sub .., nullary_bufs_sub .., unary_bufs_sub .., binary_bufs_sub .., ternary_bufs_sub .., unary_bufs_sub .., unary_bufs_sub .., binary_bufs_sub ..⟩
theorem seg20_fresh : ∀ op ∈ (seg20 : List (HloOp τ sig (Elt F))), op.fresh = ∅ := by
  intro _ h; (repeat (cases h with | head => rfl | tail _ h => ?_)); exact nomatch h
theorem seg20_args (r : Ref sig .tc) (hr : r ∈ args) (V : Valuation τ sig (Elt F)) :
    after seg20 V (r : DevRef τ sig) = V (r : DevRef τ sig) := by
  fin_cases hr <;> after_results_simp

abbrev seg21 : List (HloOp τ sig (Elt F)) :=
  [ StableHlo.TRef.nullary (.of main_call10_cst : StableHlo.TRef sig ⟨S_, .f32⟩) (constant S_ .f32 0x00000000#32),
    StableHlo.TRef.binary (.of main_v93 : StableHlo.TRef sig ⟨S127, .f32⟩) (.of main_call10_cst : StableHlo.TRef sig ⟨S_, .f32⟩) (.of main_call10_v0 : StableHlo.TRef sig ⟨S128, .f32⟩) (fun x v => pad S128 ![0] ![1] ![0] x v pads_S127_S128_010 h_S_),
    StableHlo.TRef.nullary (.of main_call10_v1 : StableHlo.TRef sig ⟨S128x128, .i32⟩) (iotaInDim S128x128 32 0),
    StableHlo.TRef.nullary (.of main_call10_v2 : StableHlo.TRef sig ⟨S128x128, .i32⟩) (iotaInDim S128x128 32 1),
    StableHlo.TRef.nullary (.of main_call10_c : StableHlo.TRef sig ⟨S_, .i32⟩) (constantI S_ 32 1#32),
    StableHlo.TRef.unary (.of main_call10_c : StableHlo.TRef sig ⟨S_, .i32⟩) (.of main_call10_v3 : StableHlo.TRef sig ⟨S128x128, .i32⟩) (broadcastInDim S128x128 ![] bcast_S_S128x128),
    StableHlo.TRef.binary (.of main_call10_v1 : StableHlo.TRef sig ⟨S128x128, .i32⟩) (.of main_call10_v3 : StableHlo.TRef sig ⟨S128x128, .i32⟩) (.of main_call10_v4 : StableHlo.TRef sig ⟨S128x128, .i32⟩) addi,
    StableHlo.TRef.binary (.of main_call10_v4 : StableHlo.TRef sig ⟨S128x128, .i32⟩) (.of main_call10_v2 : StableHlo.TRef sig ⟨S128x128, .i32⟩) (.of main_call10_v5 : StableHlo.TRef sig ⟨S128x128, .i1⟩) (cmpi .eq),
    StableHlo.TRef.unary (.of main_call10_v0 : StableHlo.TRef sig ⟨S128, .f32⟩) (.of main_call10_v6 : StableHlo.TRef sig ⟨S128x1, .f32⟩) (broadcastInDim S128x1 ![0] bcast_S128_S128x1_0),
    StableHlo.TRef.nullary (.of main_call10_cst_0 : StableHlo.TRef sig ⟨S_, .f32⟩) (constant S_ .f32 0x00000000#32),
    StableHlo.TRef.unary (.of main_call10_v6 : StableHlo.TRef sig ⟨S128x1, .f32⟩) (.of main_call10_call0_v0 : StableHlo.TRef sig ⟨S128x128, .f32⟩) (broadcastInDim S128x128 ![0, 1] bcast_S128x1_S128x128_0_1),
    StableHlo.TRef.unary (.of main_call10_cst_0 : StableHlo.TRef sig ⟨S_, .f32⟩) (.of main_call10_call0_v1 : StableHlo.TRef sig ⟨S128x128, .f32⟩) (broadcastInDim S128x128 ![] bcast_S_S128x128),
    StableHlo.TRef.ternary (.of main_call10_v5 : StableHlo.TRef sig ⟨S128x128, .i1⟩) (.of main_call10_call0_v0 : StableHlo.TRef sig ⟨S128x128, .f32⟩) (.of main_call10_call0_v1 : StableHlo.TRef sig ⟨S128x128, .f32⟩) (.of main_v94 : StableHlo.TRef sig ⟨S128x128, .f32⟩) select ]
theorem seg21_sub : (seg21 : List (HloOp τ sig (Elt F))).Forall fun op => op.bufs ⊆ tcRefs τ sig :=
  ⟨nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub ..⟩
theorem seg21_fresh : ∀ op ∈ (seg21 : List (HloOp τ sig (Elt F))), op.fresh = ∅ := by
  intro _ h; (repeat (cases h with | head => rfl | tail _ h => ?_)); exact nomatch h
theorem seg21_args (r : Ref sig .tc) (hr : r ∈ args) (V : Valuation τ sig (Elt F)) :
    after seg21 V (r : DevRef τ sig) = V (r : DevRef τ sig) := by
  fin_cases hr <;> after_results_simp

abbrev seg22 : List (HloOp τ sig (Elt F)) :=
  [ StableHlo.binary main_v90 main_v94 main_v95 (addf : (⟨S128x128, .f32⟩ : BufTy).Contents (Elt F) → (⟨S128x128, .f32⟩ : BufTy).Contents (Elt F) → (⟨S128x128, .f32⟩ : BufTy).Contents (Elt F)),
    StableHlo.unary main_v3 main_v96 ((extractStridedSlice S127 ![0] · slices_S128_S127_0) : (⟨S128, .f32⟩ : BufTy).Contents (Elt F) → (⟨S127, .f32⟩ : BufTy).Contents (Elt F)),
    StableHlo.unary main_v1 main_v97 ((extractStridedSlice S127 ![1] · slices_S128_S127_1) : (⟨S128, .f32⟩ : BufTy).Contents (Elt F) → (⟨S127, .f32⟩ : BufTy).Contents (Elt F)),
    StableHlo.binary main_v96 main_v97 main_v98 (Host.divf : (⟨S127, .f32⟩ : BufTy).Contents (Elt F) → (⟨S127, .f32⟩ : BufTy).Contents (Elt F) → (⟨S127, .f32⟩ : BufTy).Contents (Elt F)) ]
theorem seg22_sub : (seg22 : List (HloOp τ sig (Elt F))).Forall fun op => op.bufs ⊆ tcRefs τ sig :=
  ⟨binary_bufs_sub .., unary_bufs_sub .., unary_bufs_sub .., binary_bufs_sub ..⟩
theorem seg22_fresh : ∀ op ∈ (seg22 : List (HloOp τ sig (Elt F))), op.fresh = ∅ := by
  intro _ h; (repeat (cases h with | head => rfl | tail _ h => ?_)); exact nomatch h
theorem seg22_args (r : Ref sig .tc) (hr : r ∈ args) (V : Valuation τ sig (Elt F)) :
    after seg22 V (r : DevRef τ sig) = V (r : DevRef τ sig) := by
  fin_cases hr <;> after_results_simp

abbrev seg23 : List (HloOp τ sig (Elt F)) :=
  [ StableHlo.TRef.nullary (.of main_call11_cst : StableHlo.TRef sig ⟨S_, .f32⟩) (constant S_ .f32 0x00000000#32),
    StableHlo.TRef.binary (.of main_v98 : StableHlo.TRef sig ⟨S127, .f32⟩) (.of main_call11_cst : StableHlo.TRef sig ⟨S_, .f32⟩) (.of main_call11_v0 : StableHlo.TRef sig ⟨S128, .f32⟩) (fun x v => pad S128 ![1] ![0] ![0] x v pads_S127_S128_100 h_S_),
    StableHlo.TRef.nullary (.of main_call11_v1 : StableHlo.TRef sig ⟨S128x128, .i32⟩) (iotaInDim S128x128 32 0),
    StableHlo.TRef.nullary (.of main_call11_v2 : StableHlo.TRef sig ⟨S128x128, .i32⟩) (iotaInDim S128x128 32 1),
    StableHlo.TRef.nullary (.of main_call11_c : StableHlo.TRef sig ⟨S_, .i32⟩) (constantI S_ 32 4294967295#32),
    StableHlo.TRef.unary (.of main_call11_c : StableHlo.TRef sig ⟨S_, .i32⟩) (.of main_call11_v3 : StableHlo.TRef sig ⟨S128x128, .i32⟩) (broadcastInDim S128x128 ![] bcast_S_S128x128),
    StableHlo.TRef.binary (.of main_call11_v1 : StableHlo.TRef sig ⟨S128x128, .i32⟩) (.of main_call11_v3 : StableHlo.TRef sig ⟨S128x128, .i32⟩) (.of main_call11_v4 : StableHlo.TRef sig ⟨S128x128, .i32⟩) addi,
    StableHlo.TRef.binary (.of main_call11_v4 : StableHlo.TRef sig ⟨S128x128, .i32⟩) (.of main_call11_v2 : StableHlo.TRef sig ⟨S128x128, .i32⟩) (.of main_call11_v5 : StableHlo.TRef sig ⟨S128x128, .i1⟩) (cmpi .eq),
    StableHlo.TRef.unary (.of main_call11_v0 : StableHlo.TRef sig ⟨S128, .f32⟩) (.of main_call11_v6 : StableHlo.TRef sig ⟨S128x1, .f32⟩) (broadcastInDim S128x1 ![0] bcast_S128_S128x1_0),
    StableHlo.TRef.nullary (.of main_call11_cst_0 : StableHlo.TRef sig ⟨S_, .f32⟩) (constant S_ .f32 0x00000000#32),
    StableHlo.TRef.unary (.of main_call11_v6 : StableHlo.TRef sig ⟨S128x1, .f32⟩) (.of main_call11_call0_v0 : StableHlo.TRef sig ⟨S128x128, .f32⟩) (broadcastInDim S128x128 ![0, 1] bcast_S128x1_S128x128_0_1),
    StableHlo.TRef.unary (.of main_call11_cst_0 : StableHlo.TRef sig ⟨S_, .f32⟩) (.of main_call11_call0_v1 : StableHlo.TRef sig ⟨S128x128, .f32⟩) (broadcastInDim S128x128 ![] bcast_S_S128x128),
    StableHlo.TRef.ternary (.of main_call11_v5 : StableHlo.TRef sig ⟨S128x128, .i1⟩) (.of main_call11_call0_v0 : StableHlo.TRef sig ⟨S128x128, .f32⟩) (.of main_call11_call0_v1 : StableHlo.TRef sig ⟨S128x128, .f32⟩) (.of main_v99 : StableHlo.TRef sig ⟨S128x128, .f32⟩) select ]
theorem seg23_sub : (seg23 : List (HloOp τ sig (Elt F))).Forall fun op => op.bufs ⊆ tcRefs τ sig :=
  ⟨nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub ..⟩
theorem seg23_fresh : ∀ op ∈ (seg23 : List (HloOp τ sig (Elt F))), op.fresh = ∅ := by
  intro _ h; (repeat (cases h with | head => rfl | tail _ h => ?_)); exact nomatch h
theorem seg23_args (r : Ref sig .tc) (hr : r ∈ args) (V : Valuation τ sig (Elt F)) :
    after seg23 V (r : DevRef τ sig) = V (r : DevRef τ sig) := by
  fin_cases hr <;> after_results_simp

abbrev seg24 : List (HloOp τ sig (Elt F)) :=
  [ StableHlo.binary main_v95 main_v99 main_v100 (addf : (⟨S128x128, .f32⟩ : BufTy).Contents (Elt F) → (⟨S128x128, .f32⟩ : BufTy).Contents (Elt F) → (⟨S128x128, .f32⟩ : BufTy).Contents (Elt F)),
    StableHlo.nullary main_cst_8 (constant S_ .f32 0x00000000#32),
    StableHlo.unary main_cst_8 main_v101 (broadcastInDim S256x256 ![] bcast_S_S256x256 : (⟨S_, .f32⟩ : BufTy).Contents (Elt F) → (⟨S256x256, .f32⟩ : BufTy).Contents (Elt F)),
    StableHlo.nullary main_v102 (iotaInDim S128x128 32 0),
    StableHlo.nullary main_v103 (iotaInDim S128x128 32 1),
    StableHlo.nullary main_c_9 (constantI S_ 32 0#32),
    StableHlo.unary main_c_9 main_v104 (broadcastInDim S128x128 ![] bcast_S_S128x128 : (⟨S_, .i32⟩ : BufTy).Contents (Elt F) → (⟨S128x128, .i32⟩ : BufTy).Contents (Elt F)),
    StableHlo.binary main_v102 main_v104 main_v105 (addi : (⟨S128x128, .i32⟩ : BufTy).Contents (Elt F) → (⟨S128x128, .i32⟩ : BufTy).Contents (Elt F) → (⟨S128x128, .i32⟩ : BufTy).Contents (Elt F)),
    StableHlo.binary main_v105 main_v103 main_v106 (cmpi .eq : (⟨S128x128, .i32⟩ : BufTy).Contents (Elt F) → (⟨S128x128, .i32⟩ : BufTy).Contents (Elt F) → (⟨S128x128, .i1⟩ : BufTy).Contents (Elt F)),
    StableHlo.unary main_v106 main_v107 (uitofp .f32 : (⟨S128x128, .i1⟩ : BufTy).Contents (Elt F) → (⟨S128x128, .f32⟩ : BufTy).Contents (Elt F)) ]
theorem seg24_sub : (seg24 : List (HloOp τ sig (Elt F))).Forall fun op => op.bufs ⊆ tcRefs τ sig :=
  ⟨binary_bufs_sub .., nullary_bufs_sub .., unary_bufs_sub .., nullary_bufs_sub .., nullary_bufs_sub .., nullary_bufs_sub .., unary_bufs_sub .., binary_bufs_sub .., binary_bufs_sub .., unary_bufs_sub ..⟩
theorem seg24_fresh : ∀ op ∈ (seg24 : List (HloOp τ sig (Elt F))), op.fresh = ∅ := by
  intro _ h; (repeat (cases h with | head => rfl | tail _ h => ?_)); exact nomatch h
theorem seg24_args (r : Ref sig .tc) (hr : r ∈ args) (V : Valuation τ sig (Elt F)) :
    after seg24 V (r : DevRef τ sig) = V (r : DevRef τ sig) := by
  fin_cases hr <;> after_results_simp

abbrev seg25 : List (HloOp τ sig (Elt F)) :=
  [ StableHlo.nullary main_c_10 (constantI S_ 32 0#32),
    StableHlo.unary main_c_10 main_v108 (broadcastInDim S1 ![] bcast_S_S1 : (⟨S_, .i32⟩ : BufTy).Contents (Elt F) → (⟨S1, .i32⟩ : BufTy).Contents (Elt F)),
    StableHlo.nullary main_c_11 (constantI S_ 32 128#32),
    StableHlo.unary main_c_11 main_v109 (broadcastInDim S1 ![] bcast_S_S1 : (⟨S_, .i32⟩ : BufTy).Contents (Elt F) → (⟨S1, .i32⟩ : BufTy).Contents (Elt F)),
    StableHlo.binary main_v108 main_v109 main_v110 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v101 main_v110 main_v107 main_v111 ((fun x i u => Host.scatter scatter_S256x256_S2_S128x128_01_n_01_0 (fun _ b => b) x i u) : (⟨S256x256, .f32⟩ : BufTy).Contents (Elt F) → (⟨S2, .i32⟩ : BufTy).Contents (Elt F) → (⟨S128x128, .f32⟩ : BufTy).Contents (Elt F) → (⟨S256x256, .f32⟩ : BufTy).Contents (Elt F)),
    StableHlo.nullary main_c_12 (constantI S_ 32 128#32),
    StableHlo.unary main_c_12 main_v112 (broadcastInDim S1 ![] bcast_S_S1 : (⟨S_, .i32⟩ : BufTy).Contents (Elt F) → (⟨S1, .i32⟩ : BufTy).Contents (Elt F)),
    StableHlo.nullary main_c_13 (constantI S_ 32 0#32),
    StableHlo.unary main_c_13 main_v113 (broadcastInDim S1 ![] bcast_S_S1 : (⟨S_, .i32⟩ : BufTy).Contents (Elt F) → (⟨S1, .i32⟩ : BufTy).Contents (Elt F)),
    StableHlo.binary main_v112 main_v113 main_v114 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v111 main_v114 main_v78 main_v115 ((fun x i u => Host.scatter scatter_S256x256_S2_S128x128_01_n_01_0 (fun _ b => b) x i u) : (⟨S256x256, .f32⟩ : BufTy).Contents (Elt F) → (⟨S2, .i32⟩ : BufTy).Contents (Elt F) → (⟨S128x128, .f32⟩ : BufTy).Contents (Elt F) → (⟨S256x256, .f32⟩ : BufTy).Contents (Elt F)),
    StableHlo.nullary main_c_14 (constantI S_ 32 128#32),
    StableHlo.unary main_c_14 main_v116 (broadcastInDim S1 ![] bcast_S_S1 : (⟨S_, .i32⟩ : BufTy).Contents (Elt F) → (⟨S1, .i32⟩ : BufTy).Contents (Elt F)),
    StableHlo.nullary main_c_15 (constantI S_ 32 128#32),
    StableHlo.unary main_c_15 main_v117 (broadcastInDim S1 ![] bcast_S_S1 : (⟨S_, .i32⟩ : BufTy).Contents (Elt F) → (⟨S1, .i32⟩ : BufTy).Contents (Elt F)),
    StableHlo.binary main_v116 main_v117 main_v118 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v115 main_v118 main_v100 main_v119 ((fun x i u => Host.scatter scatter_S256x256_S2_S128x128_01_n_01_0 (fun _ b => b) x i u) : (⟨S256x256, .f32⟩ : BufTy).Contents (Elt F) → (⟨S2, .i32⟩ : BufTy).Contents (Elt F) → (⟨S128x128, .f32⟩ : BufTy).Contents (Elt F) → (⟨S256x256, .f32⟩ : BufTy).Contents (Elt F)),
    StableHlo.unary main_v119 main_v120 (broadcastInDim S32x64x256x256 ![2, 3] bcast_S256x256_S32x64x256x256_2_3 : (⟨S256x256, .f32⟩ : BufTy).Contents (Elt F) → (⟨S32x64x256x256, .f32⟩ : BufTy).Contents (Elt F)) ]
theorem seg25_sub : (seg25 : List (HloOp τ sig (Elt F))).Forall fun op => op.bufs ⊆ tcRefs τ sig :=
  ⟨nullary_bufs_sub .., unary_bufs_sub .., nullary_bufs_sub .., unary_bufs_sub .., binary_bufs_sub .., ternary_bufs_sub .., nullary_bufs_sub .., unary_bufs_sub .., nullary_bufs_sub .., unary_bufs_sub .., binary_bufs_sub .., ternary_bufs_sub .., nullary_bufs_sub .., unary_bufs_sub .., nullary_bufs_sub .., unary_bufs_sub .., binary_bufs_sub .., ternary_bufs_sub .., unary_bufs_sub ..⟩
theorem seg25_fresh : ∀ op ∈ (seg25 : List (HloOp τ sig (Elt F))), op.fresh = ∅ := by
  intro _ h; (repeat (cases h with | head => rfl | tail _ h => ?_)); exact nomatch h
theorem seg25_args (r : Ref sig .tc) (hr : r ∈ args) (V : Valuation τ sig (Elt F)) :
    after seg25 V (r : DevRef τ sig) = V (r : DevRef τ sig) := by
  fin_cases hr <;> after_results_simp

/-! ## The line -/

/-- The stretches, in order. -/
abbrev stretches : List (List (HloOp τ sig (Elt F))) :=
  [seg0, seg1, seg2, seg3, seg4, seg5, seg6, seg7, seg8, seg9, seg10, seg11, seg12, seg13, seg14, seg15, seg16, seg17, seg18, seg19, seg20, seg21, seg22, seg23, seg24, seg25]

/-- The reference's 241 operations, in order: the stretches one after the other. -/
abbrev ops : List (HloOp τ sig (Elt F)) := stretches.flatten

/-- The line is the stretches one after the other. -/
theorem ops_flat : (ops : List (HloOp τ sig (Elt F))) = stretches.flatten := rfl

theorem main_part0_chain (c : Dev nD) : main_part0 (F := F) c = (Pipeline.chainK
  [ seq seg0,
    seq seg1,
    seq seg2,
    seq seg3,
    seq seg4,
    seq seg5,
    seq seg6 ]
  (seq seg7) : Prog (TpuEff nD τ sig (Elt F) (Pipeline.Sig Λ₀ (Fin 0) fun p => (pcfgs (F := F) p).Adm) .tc) PUnit) := by
  chain_rfl

theorem main_part1_chain (c : Dev nD) : main_part1 (F := F) c = (Pipeline.chainK
  [ seq seg8,
    seq seg9,
    seq seg10,
    seq seg11,
    seq seg12,
    seq seg13,
    seq seg14,
    seq seg15,
    seq seg16,
    seq seg17,
    seq seg18,
    seq seg19,
    seq seg20,
    seq seg21,
    seq seg22,
    seq seg23 ]
  (seq seg24) : Prog (TpuEff nD τ sig (Elt F) (Pipeline.Sig Λ₀ (Fin 0) fun p => (pcfgs (F := F) p).Adm) .tc) PUnit) := by
  chain_rfl

theorem main_part2_chain (c : Dev nD) : main_part2 (F := F) c = (Pipeline.chain
  [ seq seg25 ] : Prog (TpuEff nD τ sig (Elt F) (Pipeline.Sig Λ₀ (Fin 0) fun p => (pcfgs (F := F) p).Adm) .tc) PUnit) := by
  chain_rfl

/-- The contents after the line, stretch by stretch. -/
theorem after_ops (V : Valuation τ sig (Elt F)) :
    after ops V = after seg25 (after seg24 (after seg23 (after seg22 (after seg21 (after seg20 (after seg19 (after seg18 (after seg17 (after seg16 (after seg15 (after seg14 (after seg13 (after seg12 (after seg11 (after seg10 (after seg9 (after seg8 (after seg7 (after seg6 (after seg5 (after seg4 (after seg3 (after seg2 (after seg1 (after seg0 V))))))))))))))))))))))))) := by
  rw [ops_flat, after_flatten]
  rfl

/-- The program is the stretches run one after the other. -/
theorem main_chain (c : Dev nD) : main (F := F) c = (Pipeline.chain
  [ seq seg0,
    seq seg1,
    seq seg2,
    seq seg3,
    seq seg4,
    seq seg5,
    seq seg6,
    seq seg7,
    seq seg8,
    seq seg9,
    seq seg10,
    seq seg11,
    seq seg12,
    seq seg13,
    seq seg14,
    seq seg15,
    seq seg16,
    seq seg17,
    seq seg18,
    seq seg19,
    seq seg20,
    seq seg21,
    seq seg22,
    seq seg23,
    seq seg24,
    seq seg25 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c) = _
  rewrite [main_part2_chain, main_part1_chain, main_part0_chain, Pipeline.chainK_bind_chain, Pipeline.chainK_bind_chain]
  rfl

set_option maxRecDepth 100000 in
/-- The program is the line. -/
theorem main_eq (c : Dev nD) : main (F := F) c = seq ops :=
  (main_chain c).trans ((chain_map_seq (stretches (F := F))).trans (congrArg seq ops_flat.symm))

set_option maxRecDepth 100000 in
theorem scopedRefs_eq : (Finset.univ.filter fun b : Ref sig .tc => b.isScoped) = ∅ := by decide
theorem scopedSems_eq : (Finset.univ.filter fun sm : SemLoc sig => sm.isScoped .tc) = ∅ := by decide

/-- Every operation touches the core's own buffers only. -/
theorem ops_sub : (ops : List (HloOp τ sig (Elt F))).Forall fun op => op.bufs ⊆ tcRefs τ sig := by
  rw [ops_flat]
  exact List.forall_iff_forall_mem.mpr (forall_mem_flatten
    (all_cons (List.forall_iff_forall_mem.mp seg0_sub) (all_cons (List.forall_iff_forall_mem.mp seg1_sub) (all_cons (List.forall_iff_forall_mem.mp seg2_sub) (all_cons (List.forall_iff_forall_mem.mp seg3_sub) (all_cons (List.forall_iff_forall_mem.mp seg4_sub) (all_cons (List.forall_iff_forall_mem.mp seg5_sub) (all_cons (List.forall_iff_forall_mem.mp seg6_sub) (all_cons (List.forall_iff_forall_mem.mp seg7_sub) (all_cons (List.forall_iff_forall_mem.mp seg8_sub) (all_cons (List.forall_iff_forall_mem.mp seg9_sub) (all_cons (List.forall_iff_forall_mem.mp seg10_sub) (all_cons (List.forall_iff_forall_mem.mp seg11_sub) (all_cons (List.forall_iff_forall_mem.mp seg12_sub) (all_cons (List.forall_iff_forall_mem.mp seg13_sub) (all_cons (List.forall_iff_forall_mem.mp seg14_sub) (all_cons (List.forall_iff_forall_mem.mp seg15_sub) (all_cons (List.forall_iff_forall_mem.mp seg16_sub) (all_cons (List.forall_iff_forall_mem.mp seg17_sub) (all_cons (List.forall_iff_forall_mem.mp seg18_sub) (all_cons (List.forall_iff_forall_mem.mp seg19_sub) (all_cons (List.forall_iff_forall_mem.mp seg20_sub) (all_cons (List.forall_iff_forall_mem.mp seg21_sub) (all_cons (List.forall_iff_forall_mem.mp seg22_sub) (all_cons (List.forall_iff_forall_mem.mp seg23_sub) (all_cons (List.forall_iff_forall_mem.mp seg24_sub) (all_cons (List.forall_iff_forall_mem.mp seg25_sub) (all_nil))))))))))))))))))))))))))))

/-- Every operation determines what it writes. -/
theorem ops_fresh : ∀ op ∈ (ops : List (HloOp τ sig (Elt F))), op.fresh = ∅ := by
  rw [ops_flat]
  exact forall_mem_flatten
    (all_cons seg0_fresh (all_cons seg1_fresh (all_cons seg2_fresh (all_cons seg3_fresh (all_cons seg4_fresh (all_cons seg5_fresh (all_cons seg6_fresh (all_cons seg7_fresh (all_cons seg8_fresh (all_cons seg9_fresh (all_cons seg10_fresh (all_cons seg11_fresh (all_cons seg12_fresh (all_cons seg13_fresh (all_cons seg14_fresh (all_cons seg15_fresh (all_cons seg16_fresh (all_cons seg17_fresh (all_cons seg18_fresh (all_cons seg19_fresh (all_cons seg20_fresh (all_cons seg21_fresh (all_cons seg22_fresh (all_cons seg23_fresh (all_cons seg24_fresh (all_cons seg25_fresh (all_nil)))))))))))))))))))))))))))

/-- No operation writes an argument. -/
theorem args_keep (r : Ref sig .tc) (hr : r ∈ args) (V : Valuation τ sig (Elt F)) :
    after ops V (r : DevRef τ sig) = V (r : DevRef τ sig) := by
  rw [ops_flat]
  exact after_flatten_keep stretches
    (all_cons (seg0_args r hr) (all_cons (seg1_args r hr) (all_cons (seg2_args r hr) (all_cons (seg3_args r hr) (all_cons (seg4_args r hr) (all_cons (seg5_args r hr) (all_cons (seg6_args r hr) (all_cons (seg7_args r hr) (all_cons (seg8_args r hr) (all_cons (seg9_args r hr) (all_cons (seg10_args r hr) (all_cons (seg11_args r hr) (all_cons (seg12_args r hr) (all_cons (seg13_args r hr) (all_cons (seg14_args r hr) (all_cons (seg15_args r hr) (all_cons (seg16_args r hr) (all_cons (seg17_args r hr) (all_cons (seg18_args r hr) (all_cons (seg19_args r hr) (all_cons (seg20_args r hr) (all_cons (seg21_args r hr) (all_cons (seg22_args r hr) (all_cons (seg23_args r hr) (all_cons (seg24_args r hr) (all_cons (seg25_args r hr) (all_nil))))))))))))))))))))))))))) V

theorem arg0_eq (V : Valuation τ sig (Elt F)) :
    after ops V (main_arg0 : DevRef τ sig) = V (main_arg0 : DevRef τ sig) := args_keep main_arg0 (by decide) V
theorem arg1_eq (V : Valuation τ sig (Elt F)) :
    after ops V (main_arg1 : DevRef τ sig) = V (main_arg1 : DevRef τ sig) := args_keep main_arg1 (by decide) V
theorem arg2_eq (V : Valuation τ sig (Elt F)) :
    after ops V (main_arg2 : DevRef τ sig) = V (main_arg2 : DevRef τ sig) := args_keep main_arg2 (by decide) V
theorem arg3_eq (V : Valuation τ sig (Elt F)) :
    after ops V (main_arg3 : DevRef τ sig) = V (main_arg3 : DevRef τ sig) := args_keep main_arg3 (by decide) V
theorem arg4_eq (V : Valuation τ sig (Elt F)) :
    after ops V (main_arg4 : DevRef τ sig) = V (main_arg4 : DevRef τ sig) := args_keep main_arg4 (by decide) V

/-- At the compiled mesh, for any float values, from any memory with zero counters: every weakly fair execution of the
    reference terminates, and every final state has each buffer at the line's fold over the contents at the start. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.LibScatterColumn.lean ====
/-
  A scatter that combines ONE column into a rank-3 array, read at an index.

  The host scatter is a left fold over the update indices. When every update index lands at a different
  place, the fold read at a place is the combination of the old element there with the one update that lands
  there, or the old element when none does. For the dimension numbers "window axes 0 and 1, inserted axis 2,
  the one index component names axis 2" the update (i, r) lands at (i, r, p), p the index read signed: the
  scatter changes column p only.
-/
import Idealize.ShloMosaic.PureOps.ShapeOps
import Idealize.ShloMosaic.Lib.ValueIdx

namespace Cert.LibScatterColumn

open Idealize.ShloMosaic Idealize.ShloMosaic.ValueIdx

/-! ## A fold of steps that each change at most one place -/

/-- A fold none of whose steps lands at `i'` leaves the element at `i'` as it was. -/
theorem foldl_apply_of_forall_ne {ι κ α : Type} (step : (κ → α) → ι → κ → α) (g : ι → Option κ) (i' : κ)
    (hne : ∀ r n, g n ≠ some i' → step r n i' = r i') :
    ∀ (L : List ι) (x : κ → α), (∀ n ∈ L, g n ≠ some i') → L.foldl step x i' = x i'
  | [], _, _ => rfl
  | m :: L, x, h => by
      rw [List.foldl_cons,
        foldl_apply_of_forall_ne step g i' hne L (step x m) (fun n hn => h n (List.mem_cons_of_mem _ hn))]
      exact hne x m (h m List.mem_cons_self)

/-- A fold over a list without repetition, exactly one of whose steps (the one at `n`) lands at `i'`,
    combines the element at `i'` with that step's update. -/
theorem foldl_apply_of_mem {ι κ α : Type} (step : (κ → α) → ι → κ → α) (g : ι → Option κ) (f : α → α → α)
    (upd : ι → α) (i' : κ)
    (hne : ∀ r n, g n ≠ some i' → step r n i' = r i')
    (heq : ∀ r n, g n = some i' → step r n i' = f (r i') (upd n))
    (hinj : ∀ a b, g a = some i' → g b = some i' → a = b) :
    ∀ (L : List ι) (x : κ → α) (n : ι), L.Nodup → n ∈ L → g n = some i' → L.foldl step x i' = f (x i') (upd n)
  | [], _, _, _, hn, _ => absurd hn List.not_mem_nil
  | m :: L, x, n, hnd, hn, hg => by
      rw [List.foldl_cons]
      rcases List.mem_cons.1 hn with rfl | hnL
      · -- the first step lands at `i'`; none of the others does
        have hrest : ∀ n' ∈ L, g n' ≠ some i' := fun n' hn' hg' =>
          (List.nodup_cons.1 hnd).1 (hinj n' n hg' hg ▸ hn')
        rw [foldl_apply_of_forall_ne step g i' hne L (step x n) hrest]
        exact heq x n hg
      · -- the first step lands elsewhere
        have hm : g m ≠ some i' := fun hg' =>
          (List.nodup_cons.1 hnd).1 (hinj m n hg' hg ▸ hnL)
        rw [foldl_apply_of_mem step g f upd i' hne heq hinj L (step x m) n (List.nodup_cons.1 hnd).2 hnL hg,
          hne x m hm]

/-! ## The dimension numbers of a one-column scatter -/

/-- The dimension numbers "the update's two axes are window axes, the operand's axis 2 is inserted, and the
    one component of the index names axis 2", over any proof of their side conditions. -/
def colDims (A B N : Nat)
    (h : ScatterDims.WF ⟨3, ![A, B, N]⟩ ⟨1, ![1]⟩ ⟨2, ![A, B]⟩ [0, 1] [2] [2] 0) :
    ScatterDims ⟨3, ![A, B, N]⟩ ⟨1, ![1]⟩ ⟨2, ![A, B]⟩ where
  updateWindowDims := [0, 1]
  insertedWindowDims := [2]
  scatterDimsToOperandDims := [2]
  indexVectorDim := 0
  wf := h

variable {A B N : Nat} (h : ScatterDims.WF ⟨3, ![A, B, N]⟩ ⟨1, ![1]⟩ ⟨2, ![A, B]⟩ [0, 1] [2] [2] 0)

set_option backward.isDefEq.respectTransparency.types false in
/-- Every update reads the index's one element. -/
theorem siIdx_eq (j : (⟨2, ![A, B]⟩ : Shape).Idx) (c : Fin 1) :
    (colDims A B N h).siIdx j c = ix1 (0 : Fin 1) := by
  funext b
  match b with
  | ⟨0, _⟩ => exact Fin.ext (by show c.val = 0; omega)

/-- The window starts at 0 on axis 0. -/
theorem start_0 {w : Nat} (j : (⟨2, ![A, B]⟩ : Shape).Idx) (idx : IVec ⟨1, ![1]⟩ w) :
    (colDims A B N h).start j idx ⟨0, (by omega : 0 < 3)⟩ = 0 := rfl
/-- The window starts at 0 on axis 1. -/
theorem start_1 {w : Nat} (j : (⟨2, ![A, B]⟩ : Shape).Idx) (idx : IVec ⟨1, ![1]⟩ w) :
    (colDims A B N h).start j idx ⟨1, (by omega : 1 < 3)⟩ = 0 := rfl
set_option backward.isDefEq.respectTransparency.types false in
/-- The window starts at the index's element, read signed, on axis 2. -/
theorem start_2 {w : Nat} (j : (⟨2, ![A, B]⟩ : Shape).Idx) (idx : IVec ⟨1, ![1]⟩ w) :
    (colDims A B N h).start j idx ⟨2, (by omega : 2 < 3)⟩ = (idx (ix1 (0 : Fin 1))).toInt := by
  show (idx ((colDims A B N h).siIdx j ⟨0, (by omega : 0 < 1)⟩)).toInt = _
  rw [siIdx_eq]

/-- The window coordinate on axis 0 is the update's first coordinate. -/
theorem window_0 (i : Fin A) (r : Fin B) :
    (colDims A B N h).window (ix2 i r) ⟨0, (by omega : 0 < 3)⟩ = i.val := rfl
/-- The window coordinate on axis 1 is the update's second coordinate. -/
theorem window_1 (i : Fin A) (r : Fin B) :
    (colDims A B N h).window (ix2 i r) ⟨1, (by omega : 1 < 3)⟩ = r.val := rfl
/-- The window coordinate on the inserted axis 2 is 0. -/
theorem window_2 (i : Fin A) (r : Fin B) :
    (colDims A B N h).window (ix2 i r) ⟨2, (by omega : 2 < 3)⟩ = 0 := rfl

/-- Update `(i, r)` lands at `(i, r, p)`, `p` the index's element read signed, when `p` is a column. -/
theorem resultIdx_eq {w : Nat} (idx : IVec ⟨1, ![1]⟩ w) (p : Nat) (hp : p < N)
    (hidx : (idx (ix1 (0 : Fin 1))).toInt = (p : Int)) (i : Fin A) (r : Fin B) :
    (colDims A B N h).resultIdx? (ix2 i r) idx = some (ix3 i r ⟨p, hp⟩) := by
  have e0 : (colDims A B N h).start (ix2 i r) idx ⟨0, (by omega : 0 < 3)⟩
      + ((colDims A B N h).window (ix2 i r) ⟨0, (by omega : 0 < 3)⟩ : Int) = (i.val : Int) := by
    rw [start_0, window_0]; omega
  have e1 : (colDims A B N h).start (ix2 i r) idx ⟨1, (by omega : 1 < 3)⟩
      + ((colDims A B N h).window (ix2 i r) ⟨1, (by omega : 1 < 3)⟩ : Int) = (r.val : Int) := by
    rw [start_1, window_1]; omega
  have e2 : (colDims A B N h).start (ix2 i r) idx ⟨2, (by omega : 2 < 3)⟩
      + ((colDims A B N h).window (ix2 i r) ⟨2, (by omega : 2 < 3)⟩ : Int) = (p : Int) := by
    rw [start_2, window_2, hidx]; omega
  have hin : ∀ a, 0 ≤ (colDims A B N h).start (ix2 i r) idx a + (colDims A B N h).window (ix2 i r) a ∧
      (colDims A B N h).start (ix2 i r) idx a + (colDims A B N h).window (ix2 i r) a < (⟨3, ![A, B, N]⟩ : Shape).size a := by
    intro a
    match a with
    | ⟨0, _⟩ => rw [e0]; exact ⟨by omega, by have := i.isLt; show (i.val : Int) < (A : Nat); omega⟩
    | ⟨1, _⟩ => rw [e1]; exact ⟨by omega, by have := r.isLt; show (r.val : Int) < (B : Nat); omega⟩
    | ⟨2, _⟩ => rw [e2]; exact ⟨by omega, by show (p : Int) < (N : Nat); omega⟩
  have t0 : ((colDims A B N h).start (ix2 i r) idx ⟨0, (by omega : 0 < 3)⟩
      + ((colDims A B N h).window (ix2 i r) ⟨0, (by omega : 0 < 3)⟩ : Int)).toNat = i.val := by rw [e0]; omega
  have t1 : ((colDims A B N h).start (ix2 i r) idx ⟨1, (by omega : 1 < 3)⟩
      + ((colDims A B N h).window (ix2 i r) ⟨1, (by omega : 1 < 3)⟩ : Int)).toNat = r.val := by rw [e1]; omega
  have t2 : ((colDims A B N h).start (ix2 i r) idx ⟨2, (by omega : 2 < 3)⟩
      + ((colDims A B N h).window (ix2 i r) ⟨2, (by omega : 2 < 3)⟩ : Int)).toNat = p := by rw [e2]; omega
  unfold ScatterDims.resultIdx?
  rw [dif_pos hin]
  refine congrArg some (funext fun a => ?_)
  match a with
  | ⟨0, _⟩ => exact Fin.ext t0
  | ⟨1, _⟩ => exact Fin.ext t1
  | ⟨2, _⟩ => exact Fin.ext t2

/-! ## The scatter read at an index -/

/-- The fold of a one-column scatter's steps, read at an index: any step function that leaves a place it does
    not land at as it was and combines the place it lands at with its update changes column `p` only. -/
theorem fold_column_apply {α : Type} {w : Nat} (f : α → α → α) (x : (⟨3, ![A, B, N]⟩ : Shape).Idx → α)
    (idx : IVec ⟨1, ![1]⟩ w) (upd : (⟨2, ![A, B]⟩ : Shape).Idx → α) (p : Nat) (hp : p < N)
    (hidx : (idx (ix1 (0 : Fin 1))).toInt = (p : Int))
    (step : ((⟨3, ![A, B, N]⟩ : Shape).Idx → α) → Fin (⟨2, ![A, B]⟩ : Shape).numel → (⟨3, ![A, B, N]⟩ : Shape).Idx → α)
    (hne : ∀ r' n i0, (colDims A B N h).resultIdx? ((⟨2, ![A, B]⟩ : Shape).rowMajor.symm n) idx ≠ some i0 →
      step r' n i0 = r' i0)
    (heq : ∀ r' n i0, (colDims A B N h).resultIdx? ((⟨2, ![A, B]⟩ : Shape).rowMajor.symm n) idx = some i0 →
      step r' n i0 = f (r' i0) (upd ((⟨2, ![A, B]⟩ : Shape).rowMajor.symm n)))
    (i : Fin A) (r : Fin B) (k : Fin N) :
    (List.finRange (⟨2, ![A, B]⟩ : Shape).numel).foldl step x (ix3 i r k)
      = if k.val = p then f (x (ix3 i r k)) (upd (ix2 i r)) else x (ix3 i r k) := by
  -- where each update lands
  have hland : ∀ n : Fin (⟨2, ![A, B]⟩ : Shape).numel, ∃ (i' : Fin A) (r' : Fin B),
      (⟨2, ![A, B]⟩ : Shape).rowMajor.symm n = ix2 i' r' ∧
      (colDims A B N h).resultIdx? ((⟨2, ![A, B]⟩ : Shape).rowMajor.symm n) idx = some (ix3 i' r' ⟨p, hp⟩) := by
    intro n
    obtain ⟨i', r', hj⟩ : ∃ (i' : Fin A) (r' : Fin B), (⟨2, ![A, B]⟩ : Shape).rowMajor.symm n = ix2 i' r' :=
      ⟨_, _, eq_ix2 _⟩
    exact ⟨i', r', hj, by rw [hj]; exact resultIdx_eq h idx p hp hidx i' r'⟩
  by_cases hk : k.val = p
  · rw [if_pos hk]
    obtain rfl : k = ⟨p, hp⟩ := Fin.ext hk
    have hn : (colDims A B N h).resultIdx?
        ((⟨2, ![A, B]⟩ : Shape).rowMajor.symm ((⟨2, ![A, B]⟩ : Shape).rowMajor (ix2 i r))) idx
        = some (ix3 i r ⟨p, hp⟩) := by
      rw [Equiv.symm_apply_apply]; exact resultIdx_eq h idx p hp hidx i r
    refine (foldl_apply_of_mem step
      (fun n => (colDims A B N h).resultIdx? ((⟨2, ![A, B]⟩ : Shape).rowMajor.symm n) idx) f
      (fun n => upd ((⟨2, ![A, B]⟩ : Shape).rowMajor.symm n)) (ix3 i r ⟨p, hp⟩)
      (fun r' n hg => hne r' n _ hg) (fun r' n hg => heq r' n _ hg)
      ?_ (List.finRange _) x ((⟨2, ![A, B]⟩ : Shape).rowMajor (ix2 i r)) (List.nodup_finRange _)
      (List.mem_finRange _) hn).trans ?_
    · intro a b ha hb
      obtain ⟨ia, ra, hja, hla⟩ := hland a
      obtain ⟨ib, rb, hjb, hlb⟩ := hland b
      have e : (ix3 ia ra ⟨p, hp⟩ : (⟨3, ![A, B, N]⟩ : Shape).Idx) = ix3 ib rb ⟨p, hp⟩ :=
        (Option.some.inj (hla.symm.trans ha)).trans (Option.some.inj (hlb.symm.trans hb)).symm
      have c0 := congrFun e ⟨0, (by omega : 0 < 3)⟩
      have c1 := congrFun e ⟨1, (by omega : 1 < 3)⟩
      have e0 : ia = ib := c0
      have e1 : ra = rb := c1
      apply (⟨2, ![A, B]⟩ : Shape).rowMajor.symm.injective
      rw [hja, hjb, e0, e1]
    · show f (x (ix3 i r ⟨p, hp⟩))
        (upd ((⟨2, ![A, B]⟩ : Shape).rowMajor.symm ((⟨2, ![A, B]⟩ : Shape).rowMajor (ix2 i r)))) = _
      rw [Equiv.symm_apply_apply]
  · rw [if_neg hk]
    refine foldl_apply_of_forall_ne step
      (fun n => (colDims A B N h).resultIdx? ((⟨2, ![A, B]⟩ : Shape).rowMajor.symm n) idx) (ix3 i r k)
      (fun r' n hg => hne r' n _ hg) (List.finRange _) x ?_
    intro n _ hg
    obtain ⟨i', r', _, hl⟩ := hland n
    have e : (ix3 i' r' ⟨p, hp⟩ : (⟨3, ![A, B, N]⟩ : Shape).Idx) = ix3 i r k :=
      Option.some.inj (hl.symm.trans hg)
    have c2 := congrFun e ⟨2, (by omega : 2 < 3)⟩
    have e2 : (⟨p, hp⟩ : Fin N) = k := c2
    exact hk (congrArg Fin.val e2).symm

/-- A scatter with the one-column dimension numbers combines column `p` (the index's element read signed, a
    column of the operand) with the update and leaves every other column as it was. -/
theorem scatter_column_apply {α : Type} {w : Nat} (f : α → α → α) (x : (⟨3, ![A, B, N]⟩ : Shape).Idx → α)
    (idx : IVec ⟨1, ![1]⟩ w) (upd : (⟨2, ![A, B]⟩ : Shape).Idx → α) (p : Nat) (hp : p < N)
    (hidx : (idx (ix1 (0 : Fin 1))).toInt = (p : Int)) (i : Fin A) (r : Fin B) (k : Fin N) :
    Host.scatter (colDims A B N h) f x idx upd (ix3 i r k)
      = if k.val = p then f (x (ix3 i r k)) (upd (ix2 i r)) else x (ix3 i r k) := by
  unfold Host.scatter
  refine fold_column_apply h f x idx upd p hp hidx _ ?_ ?_ i r k
  · intro r' n i0 hg
    generalize (colDims A B N h).resultIdx? ((⟨2, ![A, B]⟩ : Shape).rowMajor.symm n) idx = o at hg ⊢
    cases o with
    | none => rfl
    | some i1 =>
        show (if i0 = i1 then _ else _) = _
        rw [if_neg]
        rintro rfl
        exact hg rfl
  · intro r' n i0 hg
    generalize (colDims A B N h).resultIdx? ((⟨2, ![A, B]⟩ : Shape).rowMajor.symm n) idx = o at hg ⊢
    cases o with
    | none => cases hg
    | some i1 =>
        obtain rfl : i1 = i0 := Option.some.inj hg
        show (if i1 = i1 then _ else _) = _
        rw [if_pos rfl]

end Cert.LibScatterColumn
-- ==== Proof.RefYdot.lean ====
/-
  The reference's first result, read at an index, is the specification's time derivative.

  The reference computes the 127 link forces of a chain of 128 masses from differences of neighbouring
  displacements and velocities, divides them by the scaled masses, pads the forward shares with a zero column
  at the high end and the backward shares with one at the low end, adds the two, adds the wall's pull into
  column 127 and the drive into column 0 by one-column scatters, and joins the velocities with the result.
  Each stage is read at an index by coordinates and the stages are put together.
-/
import proofs.«118620_j87110526697627_1_alg».proof.ReferenceIdeal
import proofs.«118620_j87110526697627_1_alg».proof.Proof.Spec
import proofs.«118620_j87110526697627_1_alg».proof.Proof.LibScatterColumn
import proofs.«118620_j87110526697627_1_alg».proof.Proof.LibLastAxis
import Idealize.ShloMosaic.Lib.Pipeline.Value
import Idealize.ShloMosaic.Lib.KernelVsHost
import Idealize.ShloMosaic.Lib.ValueIdx

noncomputable section

namespace Cert.ReferenceIdeal.RefYdot

open Idealize.ShloMosaic Idealize.ShloMosaic.ValueIdx
open Cert.LibLastAxis Cert.LibScatterColumn

/-! ## Layout operations read at an index -/

section Layout
variable {α : Type}

/-- A scalar repeated over any shape reads the scalar everywhere. -/
theorem bcastScalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector laid along the last axis of a `[1, 1, n]` array and repeated over two leading axes reads, at
    `(i, r, k)`, its entry `k`. -/
theorem bcastRow_apply {a b n : Nat}
    (h1 : (⟨1, ![n]⟩ : Shape).BroadcastsInDim ⟨3, ![1, 1, n]⟩ (![2] : Fin 1 → Fin 3))
    (h2 : (⟨3, ![1, 1, n]⟩ : Shape).BroadcastsInDim ⟨3, ![a, b, n]⟩ (![0, 1, 2] : Fin 3 → Fin 3))
    (x : (⟨1, ![n]⟩ : Shape).Idx → α) (i : Fin a) (r : Fin b) (k : Fin n) :
    broadcastInDim ⟨3, ![a, b, n]⟩ ![0, 1, 2] h2 (broadcastInDim ⟨3, ![1, 1, n]⟩ ![2] h1 x) (ix3 i r k) = x (ix1 k) := by
  refine (broadcastInDim_apply _ h2 _ (ix3 i r k) (ix3 (0 : Fin 1) (0 : Fin 1) k) fun ax => ?_).trans ?_
  · match ax with
    | ⟨0, _⟩ => rfl
    | ⟨1, _⟩ => rfl
    | ⟨2, _⟩ =>
      show k.val = if n = 1 then 0 else k.val
      split
      · have := k.isLt; omega
      · rfl
  · refine broadcastInDim_apply _ h1 x _ (ix1 k) fun ax => ?_
    match ax with
    | ⟨0, _⟩ =>
      show k.val = if n = 1 then 0 else k.val
      split
      · have := k.isLt; omega
      · rfl

/-- A rank-3 array cut along its last axis from 0 reads, at `(i, r, k)`, the source at `(i, r, k)`. -/
theorem slice3_zero {a b n m : Nat} (X : (⟨3, ![a, b, n]⟩ : Shape).Idx → α)
    (h : (⟨3, ![a, b, n]⟩ : Shape).Slices ![0, 0, 0] ⟨3, ![a, b, m]⟩)
    (i : Fin a) (r : Fin b) (k : Fin m) (hk : k.val < n) :
    extractStridedSlice ⟨3, ![a, b, m]⟩ ![0, 0, 0] X h (ix3 i r k) = X (ix3 i r ⟨k.val, hk⟩) :=
  (slice3_last 0 X h i r k (by omega)).trans (congrArg (fun c => X (ix3 i r c)) (Fin.ext (Nat.zero_add _)))

/-- A vector cut from 0 reads, at `k`, the source at `k`. -/
theorem slice1_zero {n m : Nat} (X : (⟨1, ![n]⟩ : Shape).Idx → α)
    (h : (⟨1, ![n]⟩ : Shape).Slices ![0] ⟨1, ![m]⟩) (k : Fin m) (hk : k.val < n) :
    extractStridedSlice ⟨1, ![m]⟩ ![0] X h (ix1 k) = X (ix1 ⟨k.val, hk⟩) :=
  (slice1 0 X h k (by omega)).trans (congrArg (fun c => X (ix1 c)) (Fin.ext (Nat.zero_add _)))

/-- The one entry of a one-entry cut of a vector at `o`, recast as a scalar, is the vector's entry `o`. -/
theorem pick_apply {n : Nat} (o : Nat) (X : (⟨1, ![n]⟩ : Shape).Idx → α)
    (hs : (⟨1, ![n]⟩ : Shape).Slices ![o] ⟨1, ![1]⟩) (hc : (⟨1, ![1]⟩ : Shape).ShapeCasts ⟨0, ![]⟩) (ho : o < n)
    (j : (⟨0, ![]⟩ : Shape).Idx) :
    shapeCast ⟨0, ![]⟩ (extractStridedSlice ⟨1, ![1]⟩ ![o] X hs) hc j = X (ix1 ⟨o, ho⟩) := by
  refine (shapeCast_apply _ hc j (ix1 (0 : Fin 1)) ?_).trans ?_
  · rw [Shape.rowMajor_val_one]
    have h1 : (⟨0, ![]⟩ : Shape).numel = 1 := Shape.numel_eq_one fun a => a.elim0
    have h2 := ((⟨0, ![]⟩ : Shape).rowMajor j).isLt
    show (0 : Nat) = _
    omega
  · exact (slice1 o X hs (0 : Fin 1) (by show o + 0 < n; omega)).trans
      (congrArg (fun c => X (ix1 c)) (Fin.ext (Nat.add_zero o)))

/-- A rank-3 array padded by one column at the HIGH end of its last axis reads the operand below the last
    column and the padding value in it. -/
theorem padHigh_apply {a b n m : Nat} (x : (⟨3, ![a, b, n]⟩ : Shape).Idx → α) {u : Shape} (v : u.Idx → α)
    (h : (⟨3, ![a, b, n]⟩ : Shape).Pads (![0, 0, 0] : Fin 3 → Nat) ![0, 0, 1] ![0, 0, 0] ⟨3, ![a, b, m]⟩)
    (hu : 0 < u.numel) (i : Fin a) (r : Fin b) (k : Fin m) :
    pad ⟨3, ![a, b, m]⟩ ![0, 0, 0] ![0, 0, 1] ![0, 0, 0] x v h hu (ix3 i r k)
      = if hk : k.val < n then x (ix3 i r ⟨k.val, hk⟩) else v (Shape.Idx.first hu) := by
  split
  · next hk =>
    refine pad_apply_of_inside _ _ _ x v h hu (ix3 i r k) (ix3 i r ⟨k.val, hk⟩) fun ax => ?_
    match ax with
    | ⟨0, _⟩ => show i.val = 0 + i.val * (0 + 1); omega
    | ⟨1, _⟩ => show r.val = 0 + r.val * (0 + 1); omega
    | ⟨2, _⟩ => show k.val = 0 + k.val * (0 + 1); omega
  · next hk =>
    refine pad_apply_of_not_inside _ _ _ x v h hu (ix3 i r k) ⟨2, (by omega : 2 < 3)⟩ fun hin => ?_
    have h3 : (k.val - 0) / (0 + 1) < n := hin.2.2
    rw [Nat.sub_zero, Nat.zero_add, Nat.div_one] at h3
    exact hk h3

/-- A rank-3 array padded by one column at the LOW end of its last axis reads the padding value in column 0
    and the operand one column back elsewhere. -/
theorem padLow_apply {a b n m : Nat} (hm : m ≤ n + 1) (x : (⟨3, ![a, b, n]⟩ : Shape).Idx → α) {u : Shape} (v : u.Idx → α)
    (h : (⟨3, ![a, b, n]⟩ : Shape).Pads (![0, 0, 1] : Fin 3 → Nat) ![0, 0, 0] ![0, 0, 0] ⟨3, ![a, b, m]⟩)
    (hu : 0 < u.numel) (i : Fin a) (r : Fin b) (k : Fin m) :
    pad ⟨3, ![a, b, m]⟩ ![0, 0, 1] ![0, 0, 0] ![0, 0, 0] x v h hu (ix3 i r k)
      = if hk : 0 < k.val then x (ix3 i r ⟨k.val - 1, by have := k.isLt; omega⟩) else v (Shape.Idx.first hu) := by
  split
  · next hk =>
    refine pad_apply_of_inside _ _ _ x v h hu (ix3 i r k) (ix3 i r ⟨k.val - 1, by have := k.isLt; omega⟩) fun ax => ?_
    match ax with
    | ⟨0, _⟩ => show i.val = 0 + i.val * (0 + 1); omega
    | ⟨1, _⟩ => show r.val = 0 + r.val * (0 + 1); omega
    | ⟨2, _⟩ => show k.val = 1 + (k.val - 1) * (0 + 1); omega
  · next hk =>
    refine pad_apply_of_not_inside _ _ _ x v h hu (ix3 i r k) ⟨2, (by omega : 2 < 3)⟩ fun hin => ?_
    have h1 : 1 ≤ k.val := hin.1
    omega

end Layout

/-! ## The reference's statements 1 to 56, stage by stage -/

variable [Facts]
open Facts₀ Facts

/-- %1: the scaled masses. -/
def massS (M : FVec Ideal S128 .f32) : FVec Ideal S128 .f32 :=
  have cst : FVec Ideal S_ .f32 := constant (F := Ideal) S_ .f32 0x3727C5AC#32
  have v0 : FVec Ideal S128 .f32 := broadcastInDim S128 ![] bcast_S_S128 cst
  mulf M v0

/-- %3: the scaled dampings. -/
def dampS (C : FVec Ideal S128 .f32) : FVec Ideal S128 .f32 :=
  have cst_0 : FVec Ideal S_ .f32 := constant (F := Ideal) S_ .f32 0x38D1B717#32
  have v2 : FVec Ideal S128 .f32 := broadcastInDim S128 ![] bcast_S_S128 cst_0
  mulf C v2

/-- %4: the displacements. -/
def disp (y : FVec Ideal S32x64x256 .f32) : FVec Ideal S32x64x128 .f32 :=
  extractStridedSlice S32x64x128 ![0, 0, 0] y slices_S32x64x256_S32x64x128_0_0_0

/-- %5: the velocities. -/
def vel (y : FVec Ideal S32x64x256 .f32) : FVec Ideal S32x64x128 .f32 :=
  extractStridedSlice S32x64x128 ![0, 0, 128] y slices_S32x64x256_S32x64x128_0_0_128

/-- @diff: the differences of neighbouring columns. -/
def diff (x : FVec Ideal S32x64x128 .f32) : FVec Ideal S32x64x127 .f32 :=
  have v0 : FVec Ideal S32x64x127 .f32 := extractStridedSlice S32x64x127 ![0, 0, 1] x slices_S32x64x128_S32x64x127_0_0_1
  have v1 : FVec Ideal S32x64x127 .f32 := extractStridedSlice S32x64x127 ![0, 0, 0] x slices_S32x64x128_S32x64x127_0_0_0
  subf v0 v1

/-- A vector of 127 entries repeated over every chunk and batch entry (the two `broadcast_in_dim`s). -/
def row (x : FVec Ideal S127 .f32) : FVec Ideal S32x64x127 .f32 :=
  have w : FVec Ideal S1x1x127 .f32 := broadcastInDim S1x1x127 ![2] bcast_S127_S1x1x127_2 x
  broadcastInDim S32x64x127 ![0, 1, 2] bcast_S1x1x127_S32x64x127_0_1_2 w

/-- %16: the link forces. -/
def force (y : FVec Ideal S32x64x256 .f32) (K C : FVec Ideal S128 .f32) : FVec Ideal S32x64x127 .f32 :=
  have v6 : FVec Ideal S32x64x127 .f32 := diff (disp y)
  have v7 : FVec Ideal S32x64x127 .f32 := diff (vel y)
  have v8 : FVec Ideal S127 .f32 := extractStridedSlice S127 ![0] K slices_S128_S127_0
  have v10 : FVec Ideal S32x64x127 .f32 := row v8
  have v11 : FVec Ideal S32x64x127 .f32 := mulf v10 v6
  have v12 : FVec Ideal S127 .f32 := extractStridedSlice S127 ![0] (dampS C) slices_S128_S127_0
  have v14 : FVec Ideal S32x64x127 .f32 := row v12
  have v15 : FVec Ideal S32x64x127 .f32 := mulf v14 v7
  addf v11 v15

/-- %21: the forward shares, a zero column at the high end. -/
def fwd (y : FVec Ideal S32x64x256 .f32) (K C M : FVec Ideal S128 .f32) : FVec Ideal S32x64x128 .f32 :=
  have v17 : FVec Ideal S127 .f32 := extractStridedSlice S127 ![0] (massS M) slices_S128_S127_0
  have v19 : FVec Ideal S32x64x127 .f32 := row v17
  have v20 : FVec Ideal S32x64x127 .f32 := Host.divf (force y K C) v19
  have c : IVec S_ 32 := constantI S_ 32 0#32
  have p0 : FVec Ideal S_ .f32 := sitofp .f32 c
  pad S32x64x128 ![0, 0, 0] ![0, 0, 1] ![0, 0, 0] v20 p0 pads_S32x64x127_S32x64x128_000_000_010 h_S_

/-- %27: the backward shares, a zero column at the low end. -/
def bwd (y : FVec Ideal S32x64x256 .f32) (K C M : FVec Ideal S128 .f32) : FVec Ideal S32x64x128 .f32 :=
  have v22 : FVec Ideal S32x64x127 .f32 := Host.negf (force y K C)
  have v23 : FVec Ideal S127 .f32 := extractStridedSlice S127 ![1] (massS M) slices_S128_S127_1
  have v25 : FVec Ideal S32x64x127 .f32 := row v23
  have v26 : FVec Ideal S32x64x127 .f32 := Host.divf v22 v25
  have c_1 : IVec S_ 32 := constantI S_ 32 0#32
  have q0 : FVec Ideal S_ .f32 := sitofp .f32 c_1
  pad S32x64x128 ![0, 0, 1] ![0, 0, 0] ![0, 0, 0] v26 q0 pads_S32x64x127_S32x64x128_000_000_100 h_S_

/-- %28: the links' shares of the accelerations. -/
def innerR (y : FVec Ideal S32x64x256 .f32) (K C M : FVec Ideal S128 .f32) : FVec Ideal S32x64x128 .f32 :=
  addf (fwd y K C M) (bwd y K C M)

/-- %46: the wall's pull on the last mass. -/
def wallU (y : FVec Ideal S32x64x256 .f32) (K C M : FVec Ideal S128 .f32) : FVec Ideal S32x64 .f32 :=
  have v29 : FVec Ideal S1 .f32 := extractStridedSlice S1 ![127] K slices_S128_S1_127
  have v30 : FVec Ideal S_ .f32 := shapeCast S_ v29 shapeCasts_S1_S_
  have v31 : FVec Ideal S32x64x1 .f32 := extractStridedSlice S32x64x1 ![0, 0, 127] (disp y) slices_S32x64x128_S32x64x1_0_0_127
  have v32 : FVec Ideal S32x64 .f32 := shapeCast S32x64 v31 shapeCasts_S32x64x1_S32x64
  have v33 : FVec Ideal S32x64 .f32 := broadcastInDim S32x64 ![] bcast_S_S32x64 v30
  have v34 : FVec Ideal S32x64 .f32 := mulf v33 v32
  have v35 : FVec Ideal S1 .f32 := extractStridedSlice S1 ![127] (dampS C) slices_S128_S1_127
  have v36 : FVec Ideal S_ .f32 := shapeCast S_ v35 shapeCasts_S1_S_
  have v37 : FVec Ideal S32x64x1 .f32 := extractStridedSlice S32x64x1 ![0, 0, 127] (vel y) slices_S32x64x128_S32x64x1_0_0_127
  have v38 : FVec Ideal S32x64 .f32 := shapeCast S32x64 v37 shapeCasts_S32x64x1_S32x64
  have v39 : FVec Ideal S32x64 .f32 := broadcastInDim S32x64 ![] bcast_S_S32x64 v36
  have v40 : FVec Ideal S32x64 .f32 := mulf v39 v38
  have v41 : FVec Ideal S32x64 .f32 := addf v34 v40
  have v42 : FVec Ideal S32x64 .f32 := Host.negf v41
  have v43 : FVec Ideal S1 .f32 := extractStridedSlice S1 ![127] (massS M) slices_S128_S1_127
  have v44 : FVec Ideal S_ .f32 := shapeCast S_ v43 shapeCasts_S1_S_
  have v45 : FVec Ideal S32x64 .f32 := broadcastInDim S32x64 ![] bcast_S_S32x64 v44
  Host.divf v42 v45

/-- %47: the index of the last column. -/
def idxLast : IVec S1 32 :=
  have c_2 : IVec S_ 32 := constantI S_ 32 127#32
  broadcastInDim S1 ![] bcast_S_S1 c_2

/-- %48: the wall's pull added into the last column. -/
def scat1 (y : FVec Ideal S32x64x256 .f32) (K C M : FVec Ideal S128 .f32) : FVec Ideal S32x64x128 .f32 :=
  Host.scatter scatter_S32x64x128_S1_S32x64_01_2_2_0 FloatOps.addf (innerR y K C M) idxLast (wallU y K C M)

/-- %53: the drive on the first mass. -/
def driveU (t : FVec Ideal S32x64 .f32) (M : FVec Ideal S128 .f32) : FVec Ideal S32x64 .f32 :=
  have v49 : FVec Ideal S32x64 .f32 := Host.sin t
  have v50 : FVec Ideal S1 .f32 := extractStridedSlice S1 ![0] (massS M) slices_S128_S1_0
  have v51 : FVec Ideal S_ .f32 := shapeCast S_ v50 shapeCasts_S1_S_
  have v52 : FVec Ideal S32x64 .f32 := broadcastInDim S32x64 ![] bcast_S_S32x64 v51
  Host.divf v49 v52

/-- %54: the index of the first column. -/
def idxFirst : IVec S1 32 :=
  have c_3 : IVec S_ 32 := constantI S_ 32 0#32
  broadcastInDim S1 ![] bcast_S_S1 c_3

/-- %55: the drive added into the first column. -/
def scat2 (t : FVec Ideal S32x64 .f32) (y : FVec Ideal S32x64x256 .f32) (K C M : FVec Ideal S128 .f32) :
    FVec Ideal S32x64x128 .f32 :=
  Host.scatter scatter_S32x64x128_S1_S32x64_01_2_2_0 FloatOps.addf (scat1 y K C M) idxFirst (driveU t M)

/-- %56: the reference's first result, as a function of its five arguments. -/
def refYdot (t : FVec Ideal S32x64 .f32) (y : FVec Ideal S32x64x256 .f32) (K C M : FVec Ideal S128 .f32) :
    FVec Ideal S32x64x256 .f32 :=
  concatenate S32x64x256 2 [⟨S32x64x128, vel y⟩, ⟨S32x64x128, scat2 t y K C M⟩]
    concatenates_S32x64x128_S32x64x128_S32x64x256_d2

/-! ## Each stage read at an index -/

variable (t : FVec Ideal S32x64 .f32) (y : FVec Ideal S32x64x256 .f32) (K C M : FVec Ideal S128 .f32)

theorem massS_apply (k : Fin 128) : massS M (ix1 k) = Cert.Spec.Ms M k := rfl
theorem dampS_apply (k : Fin 128) : dampS C (ix1 k) = Cert.Spec.Cs C k := rfl

theorem disp_apply (i : Fin 32) (r : Fin 64) (k : Fin 128) : disp y (ix3 i r k) = Cert.Spec.u y i r k :=
  slice3_zero y slices_S32x64x256_S32x64x128_0_0_0 i r k (by have := k.isLt; omega)

theorem vel_apply (i : Fin 32) (r : Fin 64) (k : Fin 128) : vel y (ix3 i r k) = Cert.Spec.v y i r k :=
  slice3_last 128 y slices_S32x64x256_S32x64x128_0_0_128 i r k (by have := k.isLt; omega)

theorem diff_apply (x : FVec Ideal S32x64x128 .f32) (i : Fin 32) (r : Fin 64) (k : Fin 127) :
    diff x (ix3 i r k) = x (ix3 i r ⟨1 + k.val, by have := k.isLt; omega⟩) - x (ix3 i r ⟨k.val, by have := k.isLt; omega⟩) := by
  show extractStridedSlice S32x64x127 ![0, 0, 1] x slices_S32x64x128_S32x64x127_0_0_1 (ix3 i r k)
    - extractStridedSlice S32x64x127 ![0, 0, 0] x slices_S32x64x128_S32x64x127_0_0_0 (ix3 i r k) = _
  rw [slice3_last 1 x slices_S32x64x128_S32x64x127_0_0_1 i r k (by have := k.isLt; omega),
    slice3_zero x slices_S32x64x128_S32x64x127_0_0_0 i r k (by have := k.isLt; omega)]

theorem row_apply (x : FVec Ideal S127 .f32) (i : Fin 32) (r : Fin 64) (k : Fin 127) : row x (ix3 i r k) = x (ix1 k) :=
  bcastRow_apply bcast_S127_S1x1x127_2 bcast_S1x1x127_S32x64x127_0_1_2 x i r k

theorem force_apply (i : Fin 32) (r : Fin 64) (k : Fin 127) : force y K C (ix3 i r k) = Cert.Spec.link y K C i r k := by
  show row (extractStridedSlice S127 ![0] K slices_S128_S127_0) (ix3 i r k) * diff (disp y) (ix3 i r k)
    + row (extractStridedSlice S127 ![0] (dampS C) slices_S128_S127_0) (ix3 i r k) * diff (vel y) (ix3 i r k) = _
  rw [row_apply, row_apply, diff_apply, diff_apply,
    slice1_zero K slices_S128_S127_0 k (by have := k.isLt; omega),
    slice1_zero (dampS C) slices_S128_S127_0 k (by have := k.isLt; omega),
    disp_apply, disp_apply, vel_apply, vel_apply, dampS_apply]
  rfl

/-- The padding value of both pads is zero. -/
theorem padValue (j : S_.Idx) : (sitofp .f32 (constantI S_ 32 0#32) : FVec Ideal S_ .f32) j = 0 := by
  show (((0#32 : BitVec 32).toInt : ℝ) : EReal) = 0
  simp

theorem fwd_apply (i : Fin 32) (r : Fin 64) (k : Fin 128) :
    fwd y K C M (ix3 i r k)
      = if h : k.val < 127 then Ideal.div (Cert.Spec.link y K C i r ⟨k.val, h⟩) (Cert.Spec.Ms M k) else 0 := by
  refine (padHigh_apply _ _ pads_S32x64x127_S32x64x128_000_000_010 h_S_ i r k).trans ?_
  split
  · next hk =>
    show Ideal.div (force y K C (ix3 i r ⟨k.val, hk⟩))
      (row (extractStridedSlice S127 ![0] (massS M) slices_S128_S127_0) (ix3 i r ⟨k.val, hk⟩)) = _
    rw [force_apply, row_apply, slice1_zero (massS M) slices_S128_S127_0 ⟨k.val, hk⟩ (by omega), massS_apply]
  · exact padValue _

theorem bwd_apply (i : Fin 32) (r : Fin 64) (k : Fin 128) :
    bwd y K C M (ix3 i r k)
      = if h : 0 < k.val then Ideal.div (-(Cert.Spec.link y K C i r ⟨k.val - 1, by have := k.isLt; omega⟩)) (Cert.Spec.Ms M k)
        else 0 := by
  refine (padLow_apply (by omega) _ _ pads_S32x64x127_S32x64x128_000_000_100 h_S_ i r k).trans ?_
  split
  · next hk =>
    show Ideal.div (-(force y K C (ix3 i r ⟨k.val - 1, _⟩)))
      (row (extractStridedSlice S127 ![1] (massS M) slices_S128_S127_1) (ix3 i r ⟨k.val - 1, _⟩)) = _
    rw [force_apply, row_apply,
      slice1 1 (massS M) slices_S128_S127_1 ⟨k.val - 1, by have := k.isLt; omega⟩ (by show 1 + (k.val - 1) < 128; have := k.isLt; omega),
      massS_apply]
    have hk1 : (⟨1 + (k.val - 1), by have := k.isLt; omega⟩ : Fin 128) = k := Fin.ext (by show 1 + (k.val - 1) = k.val; omega)
    rw [hk1]
  · exact padValue _

theorem innerR_apply (i : Fin 32) (r : Fin 64) (k : Fin 128) :
    innerR y K C M (ix3 i r k) = Cert.Spec.inner y K C M i r k := by
  show fwd y K C M (ix3 i r k) + bwd y K C M (ix3 i r k) = _
  rw [fwd_apply, bwd_apply]
  rfl

theorem wallU_apply (i : Fin 32) (r : Fin 64) : wallU y K C M (ix2 i r) = Cert.Spec.wall y K C M i r := by
  show Ideal.div (-(
      broadcastInDim S32x64 ![] bcast_S_S32x64 (shapeCast S_ (extractStridedSlice S1 ![127] K slices_S128_S1_127) shapeCasts_S1_S_) (ix2 i r)
        * shapeCast S32x64 (extractStridedSlice S32x64x1 ![0, 0, 127] (disp y) slices_S32x64x128_S32x64x1_0_0_127) shapeCasts_S32x64x1_S32x64 (ix2 i r)
      + broadcastInDim S32x64 ![] bcast_S_S32x64 (shapeCast S_ (extractStridedSlice S1 ![127] (dampS C) slices_S128_S1_127) shapeCasts_S1_S_) (ix2 i r)
        * shapeCast S32x64 (extractStridedSlice S32x64x1 ![0, 0, 127] (vel y) slices_S32x64x128_S32x64x1_0_0_127) shapeCasts_S32x64x1_S32x64 (ix2 i r)))
    (broadcastInDim S32x64 ![] bcast_S_S32x64 (shapeCast S_ (extractStridedSlice S1 ![127] (massS M) slices_S128_S1_127) shapeCasts_S1_S_) (ix2 i r)) = _
  rw [bcastScalar_apply, bcastScalar_apply, bcastScalar_apply,
    pick_apply 127 K slices_S128_S1_127 shapeCasts_S1_S_ (by omega),
    pick_apply 127 (dampS C) slices_S128_S1_127 shapeCasts_S1_S_ (by omega),
    pick_apply 127 (massS M) slices_S128_S1_127 shapeCasts_S1_S_ (by omega),
    dropLastUnit, dropLastUnit,
    slice3_last 127 (disp y) slices_S32x64x128_S32x64x1_0_0_127 i r (0 : Fin 1) (by show 127 + 0 < 128; omega),
    slice3_last 127 (vel y) slices_S32x64x128_S32x64x1_0_0_127 i r (0 : Fin 1) (by show 127 + 0 < 128; omega),
    disp_apply, vel_apply, dampS_apply, massS_apply]
  rfl

theorem driveU_apply (i : Fin 32) (r : Fin 64) : driveU t M (ix2 i r) = Cert.Spec.drive t M i r := by
  show Ideal.div (Ideal.sin (t (ix2 i r)))
    (broadcastInDim S32x64 ![] bcast_S_S32x64 (shapeCast S_ (extractStridedSlice S1 ![0] (massS M) slices_S128_S1_0) shapeCasts_S1_S_) (ix2 i r)) = _
  rw [bcastScalar_apply, pick_apply 0 (massS M) slices_S128_S1_0 shapeCasts_S1_S_ (by omega), massS_apply]
  rfl

/-- The last column's index, read signed, is 127. -/
theorem idxLast_toInt : (idxLast (ix1 (0 : Fin 1))).toInt = ((127 : Nat) : Int) := rfl
/-- The first column's index, read signed, is 0. -/
theorem idxFirst_toInt : (idxFirst (ix1 (0 : Fin 1))).toInt = ((0 : Nat) : Int) := rfl

theorem scat1_apply (i : Fin 32) (r : Fin 64) (k : Fin 128) :
    scat1 y K C M (ix3 i r k)
      = if k.val = 127 then Cert.Spec.inner y K C M i r k + Cert.Spec.wall y K C M i r else Cert.Spec.inner y K C M i r k := by
  refine (scatter_column_apply (A := 32) (B := 64) (N := 128) scatter_S32x64x128_S1_S32x64_01_2_2_0_wf
    FloatOps.addf (innerR y K C M) idxLast (wallU y K C M) 127 (by omega) idxLast_toInt i r k).trans ?_
  rw [innerR_apply, wallU_apply]
  rfl

theorem scat2_apply (i : Fin 32) (r : Fin 64) (k : Fin 128) :
    scat2 t y K C M (ix3 i r k)
      = if k.val = 0 then scat1 y K C M (ix3 i r k) + Cert.Spec.drive t M i r else scat1 y K C M (ix3 i r k) := by
  refine (scatter_column_apply (A := 32) (B := 64) (N := 128) scatter_S32x64x128_S1_S32x64_01_2_2_0_wf
    FloatOps.addf (scat1 y K C M) idxFirst (driveU t M) 0 (by omega) idxFirst_toInt i r k).trans ?_
  rw [driveU_apply]
  rfl

/-! ## The reference's first result is the specification's -/

theorem refYdot_apply (i : Fin 32) (r : Fin 64) (j : Fin 256) :
    refYdot t y K C M (ix3 i r j) = Cert.Spec.ydot t y K C M i r j := by
  refine (concat3_last (n := 256) (n1 := 128) (n2 := 128) rfl (vel y) (scat2 t y K C M)
    concatenates_S32x64x128_S32x64x128_S32x64x256_d2 i r j).trans ?_
  unfold Cert.Spec.ydot
  by_cases hj : j.val < 128
  · rw [dif_pos hj, dif_pos hj, vel_apply]
  · rw [dif_neg hj, dif_neg hj, scat2_apply, scat1_apply]
    unfold Cert.Spec.accel
    by_cases h127 : j.val - 128 = 127
    · have h0 : ¬ j.val - 128 = 0 := by omega
      rw [if_neg h0, if_pos h127, if_pos h127]
    · rw [if_neg h127, if_neg h127]

theorem refYdot_eq : refYdot t y K C M = Cert.Spec.Ydot t y K C M := by
  funext idx
  obtain ⟨i, r, j, rfl⟩ : ∃ (i : Fin 32) (r : Fin 64) (j : Fin 256), idx = ix3 i r j := ⟨idx 0, idx 1, idx 2, eq_ix3 idx⟩
  exact refYdot_apply t y K C M i r j

end Cert.ReferenceIdeal.RefYdot

end
-- ==== Proof.RefValue.lean ====
/-
  The reference's two results as values.

  The first result, the state's time derivative, is written by the ninth stretch of the reference's line and left
  alone by every later one. Reading the first nine stretches in four steps, each from contents about which only what
  the step reads is assumed, shows it to be the composed function of the five arguments that the first 56 statements
  spell: the scaled coefficients, the displacements, the velocities and their differences; the forward and the
  backward shares; the two one-column additions; the joining with the velocities.
  The second result, the Jacobian repeated over every chunk and batch entry, is the last operation of the line
  applied to the 256 by 256 matrix the line leaves just before it; the matrix is kept as it stands.
-/
import proofs.«118620_j87110526697627_1_alg».proof.Proof.RefRun
import proofs.«118620_j87110526697627_1_alg».proof.Proof.RefYdot
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.RefRun Cert.ReferenceIdeal.RefYdot
open Idealize.ShloMosaic Idealize.ShloMosaic.TcCoe Idealize.SL.Sem Idealize.ShloMosaic.StableHlo Idealize.ShloMosaic.ValueIdx

variable (t : FVec Ideal S32x64 .f32) (y : FVec Ideal S32x64x256 .f32) (K C M : FVec Ideal S128 .f32)

/-! ## The arguments stay -/

/-- The contents hold the five arguments `t`, `y`, `K`, `C`, `M`. -/
structure ArgsAre (W : Valuation τ sig (Elt Ideal)) : Prop where
  a0 : (W (main_arg0 : DevRef τ sig) : S32x64.Idx → Ideal .f32) = t
  a1 : (W (main_arg1 : DevRef τ sig) : S32x64x256.Idx → Ideal .f32) = y
  a2 : (W (main_arg2 : DevRef τ sig) : S128.Idx → Ideal .f32) = K
  a3 : (W (main_arg3 : DevRef τ sig) : S128.Idx → Ideal .f32) = C
  a4 : (W (main_arg4 : DevRef τ sig) : S128.Idx → Ideal .f32) = M

/-- A stretch that writes no argument keeps them. -/
theorem ArgsAre.after {W : Valuation τ sig (Elt Ideal)} (l : List (HloOp τ sig (Elt Ideal)))
    (hl : ∀ r ∈ args, ∀ V : Valuation τ sig (Elt Ideal), after l V (r : DevRef τ sig) = V (r : DevRef τ sig))
    (h : ArgsAre t y K C M W) : ArgsAre t y K C M (after l W) :=
  ⟨by rw [hl main_arg0 (by decide)]; exact h.a0, by rw [hl main_arg1 (by decide)]; exact h.a1,
   by rw [hl main_arg2 (by decide)]; exact h.a2, by rw [hl main_arg3 (by decide)]; exact h.a3,
   by rw [hl main_arg4 (by decide)]; exact h.a4⟩

/-! ## Step one: the scaled coefficients, the two halves of the state and their differences -/

theorem A_v1 (W : Valuation τ sig (Elt Ideal)) (h : ArgsAre t y K C M W) : (after seg2 (after seg1 (after seg0 (W))) (main_v1 : DevRef τ sig) : S128.Idx → Ideal .f32) = massS M := by
  after_results_simp
  rw [h.a4]; rfl
theorem A_v3 (W : Valuation τ sig (Elt Ideal)) (h : ArgsAre t y K C M W) : (after seg2 (after seg1 (after seg0 (W))) (main_v3 : DevRef τ sig) : S128.Idx → Ideal .f32) = dampS C := by
  after_results_simp
  rw [h.a3]; rfl
theorem A_v4 (W : Valuation τ sig (Elt Ideal)) (h : ArgsAre t y K C M W) : (after seg2 (after seg1 (after seg0 (W))) (main_v4 : DevRef τ sig) : S32x64x128.Idx → Ideal .f32) = disp y := by
  after_results_simp
  rw [h.a1]; rfl
theorem A_v5 (W : Valuation τ sig (Elt Ideal)) (h : ArgsAre t y K C M W) : (after seg2 (after seg1 (after seg0 (W))) (main_v5 : DevRef τ sig) : S32x64x128.Idx → Ideal .f32) = vel y := by
  after_results_simp
  rw [h.a1]; rfl
theorem A_v6 (W : Valuation τ sig (Elt Ideal)) (h : ArgsAre t y K C M W) : (after seg2 (after seg1 (after seg0 (W))) (main_v6 : DevRef τ sig) : S32x64x127.Idx → Ideal .f32) = diff (disp y) := by
  after_results_simp
  rw [h.a1]; rfl
theorem A_v7 (W : Valuation τ sig (Elt Ideal)) (h : ArgsAre t y K C M W) : (after seg2 (after seg1 (after seg0 (W))) (main_v7 : DevRef τ sig) : S32x64x127.Idx → Ideal .f32) = diff (vel y) := by
  after_results_simp
  rw [h.a1]; rfl

/-! ## Step two: the forward and the backward shares -/

theorem B_v21 (W : Valuation τ sig (Elt Ideal)) (h : ArgsAre t y K C M W)
    (hv1 : (W (main_v1 : DevRef τ sig) : S128.Idx → Ideal .f32) = massS M) (hv3 : (W (main_v3 : DevRef τ sig) : S128.Idx → Ideal .f32) = dampS C)
    (hv6 : (W (main_v6 : DevRef τ sig) : S32x64x127.Idx → Ideal .f32) = diff (disp y)) (hv7 : (W (main_v7 : DevRef τ sig) : S32x64x127.Idx → Ideal .f32) = diff (vel y)) :
    (after seg6 (after seg5 (after seg4 (after seg3 (W)))) (main_v21 : DevRef τ sig) : S32x64x128.Idx → Ideal .f32) = fwd y K C M := by
  after_results_simp
  rw [h.a2, hv1, hv3, hv6, hv7]; rfl
theorem B_v27 (W : Valuation τ sig (Elt Ideal)) (h : ArgsAre t y K C M W)
    (hv1 : (W (main_v1 : DevRef τ sig) : S128.Idx → Ideal .f32) = massS M) (hv3 : (W (main_v3 : DevRef τ sig) : S128.Idx → Ideal .f32) = dampS C)
    (hv6 : (W (main_v6 : DevRef τ sig) : S32x64x127.Idx → Ideal .f32) = diff (disp y)) (hv7 : (W (main_v7 : DevRef τ sig) : S32x64x127.Idx → Ideal .f32) = diff (vel y)) :
    (after seg6 (after seg5 (after seg4 (after seg3 (W)))) (main_v27 : DevRef τ sig) : S32x64x128.Idx → Ideal .f32) = bwd y K C M := by
  after_results_simp
  rw [h.a2, hv1, hv3, hv6, hv7]; rfl
theorem B_v1 (W : Valuation τ sig (Elt Ideal)) (X : FVec Ideal S128 .f32) (hv : (W (main_v1 : DevRef τ sig) : S128.Idx → Ideal .f32) = X) : (after seg6 (after seg5 (after seg4 (after seg3 (W)))) (main_v1 : DevRef τ sig) : S128.Idx → Ideal .f32) = X := by
  after_results_simp
  exact hv
theorem B_v3 (W : Valuation τ sig (Elt Ideal)) (X : FVec Ideal S128 .f32) (hv : (W (main_v3 : DevRef τ sig) : S128.Idx → Ideal .f32) = X) : (after seg6 (after seg5 (after seg4 (after seg3 (W)))) (main_v3 : DevRef τ sig) : S128.Idx → Ideal .f32) = X := by
  after_results_simp
  exact hv
theorem B_v4 (W : Valuation τ sig (Elt Ideal)) (X : FVec Ideal S32x64x128 .f32) (hv : (W (main_v4 : DevRef τ sig) : S32x64x128.Idx → Ideal .f32) = X) : (after seg6 (after seg5 (after seg4 (after seg3 (W)))) (main_v4 : DevRef τ sig) : S32x64x128.Idx → Ideal .f32) = X := by
  after_results_simp
  exact hv
theorem B_v5 (W : Valuation τ sig (Elt Ideal)) (X : FVec Ideal S32x64x128 .f32) (hv : (W (main_v5 : DevRef τ sig) : S32x64x128.Idx → Ideal .f32) = X) : (after seg6 (after seg5 (after seg4 (after seg3 (W)))) (main_v5 : DevRef τ sig) : S32x64x128.Idx → Ideal .f32) = X := by
  after_results_simp
  exact hv

/-! ## Step three: the wall's pull added into the last column, and the drive -/

theorem C_v48 (W : Valuation τ sig (Elt Ideal)) (h : ArgsAre t y K C M W)
    (hv1 : (W (main_v1 : DevRef τ sig) : S128.Idx → Ideal .f32) = massS M) (hv3 : (W (main_v3 : DevRef τ sig) : S128.Idx → Ideal .f32) = dampS C)
    (hv4 : (W (main_v4 : DevRef τ sig) : S32x64x128.Idx → Ideal .f32) = disp y) (hv5 : (W (main_v5 : DevRef τ sig) : S32x64x128.Idx → Ideal .f32) = vel y)
    (hv21 : (W (main_v21 : DevRef τ sig) : S32x64x128.Idx → Ideal .f32) = fwd y K C M) (hv27 : (W (main_v27 : DevRef τ sig) : S32x64x128.Idx → Ideal .f32) = bwd y K C M) :
    (after seg7 W (main_v48 : DevRef τ sig) : S32x64x128.Idx → Ideal .f32) = scat1 y K C M := by
  after_results_simp
  rw [h.a2, hv1, hv3, hv4, hv5, hv21, hv27]; rfl
theorem C_v53 (W : Valuation τ sig (Elt Ideal)) (h : ArgsAre t y K C M W) (hv1 : (W (main_v1 : DevRef τ sig) : S128.Idx → Ideal .f32) = massS M) :
    (after seg7 W (main_v53 : DevRef τ sig) : S32x64.Idx → Ideal .f32) = driveU t M := by
  after_results_simp
  rw [h.a0, hv1]; rfl
theorem C_c3 (W : Valuation τ sig (Elt Ideal)) : (after seg7 W (main_c_3 : DevRef τ sig) : S_.Idx → BitVec 32) = constantI S_ 32 0#32 := by
  after_results_simp
theorem C_v5 (W : Valuation τ sig (Elt Ideal)) (X : FVec Ideal S32x64x128 .f32) (hv : (W (main_v5 : DevRef τ sig) : S32x64x128.Idx → Ideal .f32) = X) : (after seg7 W (main_v5 : DevRef τ sig) : S32x64x128.Idx → Ideal .f32) = X := by
  after_results_simp
  exact hv

/-! ## Step four: the drive added into the first column, and the joining -/

theorem D_v56 (W : Valuation τ sig (Elt Ideal))
    (hv5 : (W (main_v5 : DevRef τ sig) : S32x64x128.Idx → Ideal .f32) = vel y) (hv48 : (W (main_v48 : DevRef τ sig) : S32x64x128.Idx → Ideal .f32) = scat1 y K C M)
    (hv53 : (W (main_v53 : DevRef τ sig) : S32x64.Idx → Ideal .f32) = driveU t M)
    (hc3 : (W (main_c_3 : DevRef τ sig) : S_.Idx → BitVec 32) = constantI S_ 32 0#32) :
    (after seg8 W (main_v56 : DevRef τ sig) : S32x64x256.Idx → Ideal .f32) = refYdot t y K C M := by
  after_results
  rw [hv5, hv48, hv53, hc3]; rfl

/-! ## The first result -/

set_option maxHeartbeats 4000000 in
/-- The stretches after the ninth leave the first result's buffer alone. -/
theorem ydot_keep (W : Valuation τ sig (Elt Ideal)) :
    after seg25 (after seg24 (after seg23 (after seg22 (after seg21 (after seg20 (after seg19 (after seg18 (after seg17 (after seg16 (after seg15 (after seg14 (after seg13 (after seg12 (after seg11 (after seg10 (after seg9 (W))))))))))))))))) (main_v56 : DevRef τ sig) = W (main_v56 : DevRef τ sig) := by
  after_results_simp

/-- The first nine stretches leave in the first result's buffer the composed function of the arguments. -/
theorem ydot_head (V : Valuation τ sig (Elt Ideal)) :
    (after seg8 (after seg7 (after seg6 (after seg5 (after seg4 (after seg3 (after seg2 (after seg1 (after seg0 (V))))))))) (main_v56 : DevRef τ sig) : S32x64x256.Idx → Ideal .f32)
      = refYdot (V (main_arg0 : DevRef τ sig)) (V (main_arg1 : DevRef τ sig)) (V (main_arg2 : DevRef τ sig))
          (V (main_arg3 : DevRef τ sig)) (V (main_arg4 : DevRef τ sig)) := by
  have h0 : ArgsAre (V (main_arg0 : DevRef τ sig)) (V (main_arg1 : DevRef τ sig)) (V (main_arg2 : DevRef τ sig))
      (V (main_arg3 : DevRef τ sig)) (V (main_arg4 : DevRef τ sig)) V := ⟨rfl, rfl, rfl, rfl, rfl⟩
  have h2 := ArgsAre.after _ _ _ _ _ seg2 seg2_args (ArgsAre.after _ _ _ _ _ seg1 seg1_args (ArgsAre.after _ _ _ _ _ seg0 seg0_args h0))
  have h6 := ArgsAre.after _ _ _ _ _ seg6 seg6_args (ArgsAre.after _ _ _ _ _ seg5 seg5_args
    (ArgsAre.after _ _ _ _ _ seg4 seg4_args (ArgsAre.after _ _ _ _ _ seg3 seg3_args h2)))
  -- after step one
  have a1 := A_v1 _ _ _ _ _ V h0
  have a3 := A_v3 _ _ _ _ _ V h0
  have a4 := A_v4 _ _ _ _ _ V h0
  have a5 := A_v5 _ _ _ _ _ V h0
  have a6 := A_v6 _ _ _ _ _ V h0
  have a7 := A_v7 _ _ _ _ _ V h0
  -- after step two
  have b21 := B_v21 _ _ _ _ _ _ h2 a1 a3 a6 a7
  have b27 := B_v27 _ _ _ _ _ _ h2 a1 a3 a6 a7
  have b1 := B_v1 _ _ a1
  have b3 := B_v3 _ _ a3
  have b4 := B_v4 _ _ a4
  have b5 := B_v5 _ _ a5
  -- after step three
  have c48 := C_v48 _ _ _ _ _ _ h6 b1 b3 b4 b5 b21 b27
  have c53 := C_v53 _ _ _ _ _ _ h6 b1
  have c3 := C_c3 (after seg6 (after seg5 (after seg4 (after seg3 (after seg2 (after seg1 (after seg0 (V))))))))
  have c5 := C_v5 _ _ b5
  exact D_v56 _ _ _ _ _ _ c5 c48 c53 c3

/-- After the whole line the first result's buffer holds the composed function of the five arguments. -/
theorem ydot_link (V : Valuation τ sig (Elt Ideal)) :
    (after ops V (main_v56 : DevRef τ sig) : S32x64x256.Idx → Ideal .f32)
      = refYdot (V (main_arg0 : DevRef τ sig)) (V (main_arg1 : DevRef τ sig)) (V (main_arg2 : DevRef τ sig))
          (V (main_arg3 : DevRef τ sig)) (V (main_arg4 : DevRef τ sig)) := by
  rw [after_ops, ydot_keep]
  exact ydot_head V

/-- After the whole line the first result is the specification's time derivative of the arguments. -/
theorem ydot_eq (V : Valuation τ sig (Elt Ideal)) :
    (after ops V (main_v56 : DevRef τ sig) : S32x64x256.Idx → Ideal .f32)
      = Cert.Spec.Ydot (V (main_arg0 : DevRef τ sig)) (V (main_arg1 : DevRef τ sig)) (V (main_arg2 : DevRef τ sig))
          (V (main_arg3 : DevRef τ sig)) (V (main_arg4 : DevRef τ sig)) :=
  (ydot_link V).trans (refYdot_eq _ _ _ _ _)

/-! ## The second result -/

/-- The last stretch, from any contents: its last operation repeats the matrix the stretch leaves before it. -/
theorem jac_last (W : Valuation τ sig (Elt Ideal)) :
    (after seg25 W (main_v120 : DevRef τ sig) : S32x64x256x256.Idx → Ideal .f32)
      = broadcastInDim S32x64x256x256 ![2, 3] bcast_S256x256_S32x64x256x256_2_3 (after seg25 W (main_v119 : DevRef τ sig)) := by
  after_results_simp

/-- After the whole line the second result's buffer holds the matrix left in the buffer before it, repeated over
    every chunk and batch entry. -/
theorem jac_link (V : Valuation τ sig (Elt Ideal)) :
    (after ops V (main_v120 : DevRef τ sig) : S32x64x256x256.Idx → Ideal .f32)
      = broadcastInDim S32x64x256x256 ![2, 3] bcast_S256x256_S32x64x256x256_2_3 (after ops V (main_v119 : DevRef τ sig)) := by
  rw [after_ops]
  exact jac_last _

/-- The second result at `(i, r, p, q)` is the matrix at `(p, q)`. -/
theorem jac_apply (V : Valuation τ sig (Elt Ideal)) (i : Fin 32) (r : Fin 64) (p q : Fin 256) :
    (after ops V (main_v120 : DevRef τ sig) : S32x64x256x256.Idx → Ideal .f32) (ix4 i r p q)
      = (after ops V (main_v119 : DevRef τ sig) : S256x256.Idx → Ideal .f32) (ix2 p q) := by
  rw [jac_link]
  refine broadcastInDim_apply _ bcast_S256x256_S32x64x256x256_2_3 _ (ix4 i r p q) (ix2 p q) fun a => ?_
  match a with
  | ⟨0, _⟩ => rfl
  | ⟨1, _⟩ => rfl

/-- The second result is the specification's Jacobian of that matrix. -/
theorem jac_eq (V : Valuation τ sig (Elt Ideal)) :
    (after ops V (main_v120 : DevRef τ sig) : S32x64x256x256.Idx → Ideal .f32)
      = Cert.Spec.Jac (after ops V (main_v119 : DevRef τ sig)) := by
  funext idx
  obtain ⟨i, r, p, q, rfl⟩ : ∃ (i : Fin 32) (r : Fin 64) (p q : Fin 256), idx = ix4 i r p q :=
    ⟨idx 0, idx 1, idx 2, idx 3, eq_ix4 idx⟩
  exact jac_apply V i r p q

end Cert.ReferenceIdeal.RefValue

end
-- ==== Proof.JbAgree.lean ====
/-
  One matrix, built twice.

  The kernel program, before its kernel runs, and the reference each build a 256×256 matrix from their third, fourth and
  fifth arguments (the specification's stiffness, damping and mass). The operations come in seventeen stretches on each
  side, and a stretch of one program is the corresponding stretch of the other over other buffers. So where two memories
  agree on the few buffers a stretch reads from before it, they agree after it on what it writes and on what it leaves
  alone (the lemmas `sJ_…`, one per stretch and buffer); seventeen such steps carry the agreement from the three
  arguments to the matrix (`jb_agree`).
-/
import proofs.«118620_j87110526697627_1_alg».proof.Proof.Gen.KernelIdeal.Launch
import proofs.«118620_j87110526697627_1_alg».proof.Proof.RefRun
import Idealize.ShloMosaic.PureOps.Ideal

noncomputable section

namespace Cert.JbAgree

open Idealize.ShloMosaic Idealize.ShloMosaic.TcCoe Idealize.SL.Sem Idealize.ShloMosaic.StableHlo
open Cert.ReferenceIdeal.RefRun

/-! ## The last stretch, in pieces

The kernel program's last stretch before its kernel is four pieces in a row: the second block's last sum with the matrix
of zeros and the identity block, then one piece per block written into the matrix. The reference's last stretch is
the last three of them (its stretch before holds the first). -/

section Pieces

variable {F : FTy → Type} [FloatOps F]

open Cert.KernelIdeal Cert.KernelIdeal.Gen in
abbrev kA : List (HloOp Cert.KernelIdeal.τ Cert.KernelIdeal.sig (Elt F)) :=
  [ StableHlo.binary main_v42 main_v46 main_v47 (addf : (⟨S128x128, .f32⟩ : BufTy).Contents (Elt F) → (⟨S128x128, .f32⟩ : BufTy).Contents (Elt F) → (⟨S128x128, .f32⟩ : BufTy).Contents (Elt F)),
    StableHlo.nullary main_cst_4 (constant S_ .f32 0x00000000#32),
    StableHlo.unary main_cst_4 main_v48 (broadcastInDim S256x256 ![] bcast_S_S256x256 : (⟨S_, .f32⟩ : BufTy).Contents (Elt F) → (⟨S256x256, .f32⟩ : BufTy).Contents (Elt F)),
    StableHlo.nullary main_v49 (iotaInDim S128x128 32 0),
    StableHlo.nullary main_v50 (iotaInDim S128x128 32 1),
    StableHlo.nullary main_c_5 (constantI S_ 32 0#32),
    StableHlo.unary main_c_5 main_v51 (broadcastInDim S128x128 ![] bcast_S_S128x128 : (⟨S_, .i32⟩ : BufTy).Contents (Elt F) → (⟨S128x128, .i32⟩ : BufTy).Contents (Elt F)),
    StableHlo.binary main_v49 main_v51 main_v52 (addi : (⟨S128x128, .i32⟩ : BufTy).Contents (Elt F) → (⟨S128x128, .i32⟩ : BufTy).Contents (Elt F) → (⟨S128x128, .i32⟩ : BufTy).Contents (Elt F)),
    StableHlo.binary main_v52 main_v50 main_v53 (cmpi .eq : (⟨S128x128, .i32⟩ : BufTy).Contents (Elt F) → (⟨S128x128, .i32⟩ : BufTy).Contents (Elt F) → (⟨S128x128, .i1⟩ : BufTy).Contents (Elt F)),
    StableHlo.unary main_v53 main_v54 (uitofp .f32 : (⟨S128x128, .i1⟩ : BufTy).Contents (Elt F) → (⟨S128x128, .f32⟩ : BufTy).Contents (Elt F)) ]

open Cert.KernelIdeal Cert.KernelIdeal.Gen in
abbrev kB : List (HloOp Cert.KernelIdeal.τ Cert.KernelIdeal.sig (Elt F)) :=
  [ StableHlo.nullary main_c_6 (constantI S_ 32 0#32),
    StableHlo.unary main_c_6 main_v55 (broadcastInDim S1 ![] bcast_S_S1 : (⟨S_, .i32⟩ : BufTy).Contents (Elt F) → (⟨S1, .i32⟩ : BufTy).Contents (Elt F)),
    StableHlo.nullary main_c_7 (constantI S_ 32 128#32),
    StableHlo.unary main_c_7 main_v56 (broadcastInDim S1 ![] bcast_S_S1 : (⟨S_, .i32⟩ : BufTy).Contents (Elt F) → (⟨S1, .i32⟩ : BufTy).Contents (Elt F)),
    StableHlo.binary main_v55 main_v56 main_v57 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v48 main_v57 main_v54 main_v58 ((fun x i u => Host.scatter scatter_S256x256_S2_S128x128_01_n_01_0 (fun _ b => b) x i u) : (⟨S256x256, .f32⟩ : BufTy).Contents (Elt F) → (⟨S2, .i32⟩ : BufTy).Contents (Elt F) → (⟨S128x128, .f32⟩ : BufTy).Contents (Elt F) → (⟨S256x256, .f32⟩ : BufTy).Contents (Elt F)) ]

open Cert.KernelIdeal Cert.KernelIdeal.Gen in
abbrev kC : List (HloOp Cert.KernelIdeal.τ Cert.KernelIdeal.sig (Elt F)) :=
  [ StableHlo.nullary main_c_8 (constantI S_ 32 128#32),
    StableHlo.unary main_c_8 main_v59 (broadcastInDim S1 ![] bcast_S_S1 : (⟨S_, .i32⟩ : BufTy).Contents (Elt F) → (⟨S1, .i32⟩ : BufTy).Contents (Elt F)),
    StableHlo.nullary main_c_9 (constantI S_ 32 0#32),
    StableHlo.unary main_c_9 main_v60 (broadcastInDim S1 ![] bcast_S_S1 : (⟨S_, .i32⟩ : BufTy).Contents (Elt F) → (⟨S1, .i32⟩ : BufTy).Contents (Elt F)),
    StableHlo.binary main_v59 main_v60 main_v61 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v58 main_v61 main_v25 main_v62 ((fun x i u => Host.scatter scatter_S256x256_S2_S128x128_01_n_01_0 (fun _ b => b) x i u) : (⟨S256x256, .f32⟩ : BufTy).Contents (Elt F) → (⟨S2, .i32⟩ : BufTy).Contents (Elt F) → (⟨S128x128, .f32⟩ : BufTy).Contents (Elt F) → (⟨S256x256, .f32⟩ : BufTy).Contents (Elt F)) ]

open Cert.KernelIdeal Cert.KernelIdeal.Gen in
abbrev kD : List (HloOp Cert.KernelIdeal.τ Cert.KernelIdeal.sig (Elt F)) :=
  [ StableHlo.nullary main_c_10 (constantI S_ 32 128#32),
    StableHlo.unary main_c_10 main_v63 (broadcastInDim S1 ![] bcast_S_S1 : (⟨S_, .i32⟩ : BufTy).Contents (Elt F) → (⟨S1, .i32⟩ : BufTy).Contents (Elt F)),
    StableHlo.nullary main_c_11 (constantI S_ 32 128#32),
    StableHlo.unary main_c_11 main_v64 (broadcastInDim S1 ![] bcast_S_S1 : (⟨S_, .i32⟩ : BufTy).Contents (Elt F) → (⟨S1, .i32⟩ : BufTy).Contents (Elt F)),
    StableHlo.binary main_v63 main_v64 main_v65 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v62 main_v65 main_v47 main_v66 ((fun x i u => Host.scatter scatter_S256x256_S2_S128x128_01_n_01_0 (fun _ b => b) x i u) : (⟨S256x256, .f32⟩ : BufTy).Contents (Elt F) → (⟨S2, .i32⟩ : BufTy).Contents (Elt F) → (⟨S128x128, .f32⟩ : BufTy).Contents (Elt F) → (⟨S256x256, .f32⟩ : BufTy).Contents (Elt F)),
    StableHlo.unary main_arg0 main_v67 (broadcastInDim S32x64x1 ![0, 1] bcast_S32x64_S32x64x1_0_1 : (⟨S32x64, .f32⟩ : BufTy).Contents (Elt F) → (⟨S32x64x1, .f32⟩ : BufTy).Contents (Elt F)) ]

open Cert.ReferenceIdeal Cert.ReferenceIdeal.Gen in
abbrev rB : List (HloOp Cert.ReferenceIdeal.τ Cert.ReferenceIdeal.sig (Elt F)) :=
  [ StableHlo.nullary main_c_10 (constantI S_ 32 0#32),
    StableHlo.unary main_c_10 main_v108 (broadcastInDim S1 ![] bcast_S_S1 : (⟨S_, .i32⟩ : BufTy).Contents (Elt F) → (⟨S1, .i32⟩ : BufTy).Contents (Elt F)),
    StableHlo.nullary main_c_11 (constantI S_ 32 128#32),
    StableHlo.unary main_c_11 main_v109 (broadcastInDim S1 ![] bcast_S_S1 : (⟨S_, .i32⟩ : BufTy).Contents (Elt F) → (⟨S1, .i32⟩ : BufTy).Contents (Elt F)),
    StableHlo.binary main_v108 main_v109 main_v110 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v101 main_v110 main_v107 main_v111 ((fun x i u => Host.scatter scatter_S256x256_S2_S128x128_01_n_01_0 (fun _ b => b) x i u) : (⟨S256x256, .f32⟩ : BufTy).Contents (Elt F) → (⟨S2, .i32⟩ : BufTy).Contents (Elt F) → (⟨S128x128, .f32⟩ : BufTy).Contents (Elt F) → (⟨S256x256, .f32⟩ : BufTy).Contents (Elt F)) ]

open Cert.ReferenceIdeal Cert.ReferenceIdeal.Gen in
abbrev rC : List (HloOp Cert.ReferenceIdeal.τ Cert.ReferenceIdeal.sig (Elt F)) :=
  [ StableHlo.nullary main_c_12 (constantI S_ 32 128#32),
    StableHlo.unary main_c_12 main_v112 (broadcastInDim S1 ![] bcast_S_S1 : (⟨S_, .i32⟩ : BufTy).Contents (Elt F) → (⟨S1, .i32⟩ : BufTy).Contents (Elt F)),
    StableHlo.nullary main_c_13 (constantI S_ 32 0#32),
    StableHlo.unary main_c_13 main_v113 (broadcastInDim S1 ![] bcast_S_S1 : (⟨S_, .i32⟩ : BufTy).Contents (Elt F) → (⟨S1, .i32⟩ : BufTy).Contents (Elt F)),
    StableHlo.binary main_v112 main_v113 main_v114 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v111 main_v114 main_v78 main_v115 ((fun x i u => Host.scatter scatter_S256x256_S2_S128x128_01_n_01_0 (fun _ b => b) x i u) : (⟨S256x256, .f32⟩ : BufTy).Contents (Elt F) → (⟨S2, .i32⟩ : BufTy).Contents (Elt F) → (⟨S128x128, .f32⟩ : BufTy).Contents (Elt F) → (⟨S256x256, .f32⟩ : BufTy).Contents (Elt F)) ]

open Cert.ReferenceIdeal Cert.ReferenceIdeal.Gen in
abbrev rD : List (HloOp Cert.ReferenceIdeal.τ Cert.ReferenceIdeal.sig (Elt F)) :=
  [ StableHlo.nullary main_c_14 (constantI S_ 32 128#32),
    StableHlo.unary main_c_14 main_v116 (broadcastInDim S1 ![] bcast_S_S1 : (⟨S_, .i32⟩ : BufTy).Contents (Elt F) → (⟨S1, .i32⟩ : BufTy).Contents (Elt F)),
    StableHlo.nullary main_c_15 (constantI S_ 32 128#32),
    StableHlo.unary main_c_15 main_v117 (broadcastInDim S1 ![] bcast_S_S1 : (⟨S_, .i32⟩ : BufTy).Contents (Elt F) → (⟨S1, .i32⟩ : BufTy).Contents (Elt F)),
    StableHlo.binary main_v116 main_v117 main_v118 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.ternary main_v115 main_v118 main_v100 main_v119 ((fun x i u => Host.scatter scatter_S256x256_S2_S128x128_01_n_01_0 (fun _ b => b) x i u) : (⟨S256x256, .f32⟩ : BufTy).Contents (Elt F) → (⟨S2, .i32⟩ : BufTy).Contents (Elt F) → (⟨S128x128, .f32⟩ : BufTy).Contents (Elt F) → (⟨S256x256, .f32⟩ : BufTy).Contents (Elt F)),
    StableHlo.unary main_v119 main_v120 (broadcastInDim S32x64x256x256 ![2, 3] bcast_S256x256_S32x64x256x256_2_3 : (⟨S256x256, .f32⟩ : BufTy).Contents (Elt F) → (⟨S32x64x256x256, .f32⟩ : BufTy).Contents (Elt F)) ]

theorem k16_split : (Cert.KernelIdeal.Gen.hostOps0_16 : List (HloOp Cert.KernelIdeal.τ Cert.KernelIdeal.sig (Elt F))) = kA ++ (kB ++ (kC ++ kD)) := rfl

theorem r25_split : (seg25 : List (HloOp Cert.ReferenceIdeal.τ Cert.ReferenceIdeal.sig (Elt F))) = rB ++ (rC ++ rD) := rfl

end Pieces

/-! ## The steps -/

variable (Wk : Valuation Cert.KernelIdeal.τ Cert.KernelIdeal.sig (Elt Ideal))
  (Wr : Valuation Cert.ReferenceIdeal.τ Cert.ReferenceIdeal.sig (Elt Ideal))

/-! ### Step 0 -/

theorem s0_main_v5
    (h2 : (Wr (Cert.ReferenceIdeal.main_arg2 : DevRef Cert.ReferenceIdeal.τ Cert.ReferenceIdeal.sig) : (⟨Cert.KernelIdeal.S128, .f32⟩ : BufTy).Contents (Elt Ideal)) = Wk (Cert.KernelIdeal.main_arg2 : DevRef Cert.KernelIdeal.τ Cert.KernelIdeal.sig))
    (h4 : (Wr (Cert.ReferenceIdeal.main_arg4 : DevRef Cert.ReferenceIdeal.τ Cert.ReferenceIdeal.sig) : (⟨Cert.KernelIdeal.S128, .f32⟩ : BufTy).Contents (Elt Ideal)) = Wk (Cert.KernelIdeal.main_arg4 : DevRef Cert.KernelIdeal.τ Cert.KernelIdeal.sig)) :
    ((after seg8 (after seg7 (after seg6 (after seg5 (after seg4 (after seg3 (after seg2 (after seg1 (after seg0 Wr))))))))) (Cert.ReferenceIdeal.main_v58 : DevRef Cert.ReferenceIdeal.τ Cert.ReferenceIdeal.sig) : (⟨Cert.KernelIdeal.S128, .f32⟩ : BufTy).Contents (Elt Ideal)) = (after Cert.KernelIdeal.Gen.hostOps0 Wk) (Cert.KernelIdeal.main_v5 : DevRef Cert.KernelIdeal.τ Cert.KernelIdeal.sig) := by
  after_results_simp
  rw [h2, h4] <;> rfl

theorem s0_main_arg2
    (h2 : (Wr (Cert.ReferenceIdeal.main_arg2 : DevRef Cert.ReferenceIdeal.τ Cert.ReferenceIdeal.sig) : (⟨Cert.KernelIdeal.S128, .f32⟩ : BufTy).Contents (Elt Ideal)) = Wk (Cert.KernelIdeal.main_arg2 : DevRef Cert.KernelIdeal.τ Cert.KernelIdeal.sig)) :
    ((after seg8 (after seg7 (after seg6 (after seg5 (after seg4 (after seg3 (after seg2 (after seg1 (after seg0 Wr))))))))) (Cert.ReferenceIdeal.main_arg2 : DevRef Cert.ReferenceIdeal.τ Cert.ReferenceIdeal.sig) : (⟨Cert.KernelIdeal.S128, .f32⟩ : BufTy).Contents (Elt Ideal)) = (after Cert.KernelIdeal.Gen.hostOps0 Wk) (Cert.KernelIdeal.main_arg2 : DevRef Cert.KernelIdeal.τ Cert.KernelIdeal.sig) := by
  after_results_simp
  exact h2

theorem s0_main_v1
    (h4 : (Wr (Cert.ReferenceIdeal.main_arg4 : DevRef Cert.ReferenceIdeal.τ Cert.ReferenceIdeal.sig) : (⟨Cert.KernelIdeal.S128, .f32⟩ : BufTy).Contents (Elt Ideal)) = Wk (Cert.KernelIdeal.main_arg4 : DevRef Cert.KernelIdeal.τ Cert.KernelIdeal.sig)) :
    ((after seg8 (after seg7 (after seg6 (after seg5 (after seg4 (after seg3 (after seg2 (after seg1 (after seg0 Wr))))))))) (Cert.ReferenceIdeal.main_v1 : DevRef Cert.ReferenceIdeal.τ Cert.ReferenceIdeal.sig) : (⟨Cert.KernelIdeal.S128, .f32⟩ : BufTy).Contents (Elt Ideal)) = (after Cert.KernelIdeal.Gen.hostOps0 Wk) (Cert.KernelIdeal.main_v1 : DevRef Cert.KernelIdeal.τ Cert.KernelIdeal.sig) := by
  after_results_simp
  rw [h4] <;> rfl

theorem s0_main_v3
    (h3 : (Wr (Cert.ReferenceIdeal.main_arg3 : DevRef Cert.ReferenceIdeal.τ Cert.ReferenceIdeal.sig) : (⟨Cert.KernelIdeal.S128, .f32⟩ : BufTy).Contents (Elt Ideal)) = Wk (Cert.KernelIdeal.main_arg3 : DevRef Cert.KernelIdeal.τ Cert.KernelIdeal.sig)) :
    ((after seg8 (after seg7 (after seg6 (after seg5 (after seg4 (after seg3 (after seg2 (after seg1 (after seg0 Wr))))))))) (Cert.ReferenceIdeal.main_v3 : DevRef Cert.ReferenceIdeal.τ Cert.ReferenceIdeal.sig) : (⟨Cert.KernelIdeal.S128, .f32⟩ : BufTy).Contents (Elt Ideal)) = (after Cert.KernelIdeal.Gen.hostOps0 Wk) (Cert.KernelIdeal.main_v3 : DevRef Cert.KernelIdeal.τ Cert.KernelIdeal.sig) := by
  after_results_simp
  rw [h3] <;> rfl

/-! ### Step 1 -/

theorem s1_main_arg2
    (h_main_arg2 : (Wr (Cert.ReferenceIdeal.main_arg2 : DevRef Cert.ReferenceIdeal.τ Cert.ReferenceIdeal.sig) : (⟨Cert.KernelIdeal.S128, .f32⟩ : BufTy).Contents (Elt Ideal)) = Wk (Cert.KernelIdeal.main_arg2 : DevRef Cert.KernelIdeal.τ Cert.KernelIdeal.sig)) :
    ((after seg9 Wr) (Cert.ReferenceIdeal.main_arg2 : DevRef Cert.ReferenceIdeal.τ Cert.ReferenceIdeal.sig) : (⟨Cert.KernelIdeal.S128, .f32⟩ : BufTy).Contents (Elt Ideal)) = (after Cert.KernelIdeal.Gen.hostOps0_1 Wk) (Cert.KernelIdeal.main_arg2 : DevRef Cert.KernelIdeal.τ Cert.KernelIdeal.sig) := by
  after_results_simp
  exact h_main_arg2

theorem s1_main_v1
    (h_main_v1 : (Wr (Cert.ReferenceIdeal.main_v1 : DevRef Cert.ReferenceIdeal.τ Cert.ReferenceIdeal.sig) : (⟨Cert.KernelIdeal.S128, .f32⟩ : BufTy).Contents (Elt Ideal)) = Wk (Cert.KernelIdeal.main_v1 : DevRef Cert.KernelIdeal.τ Cert.KernelIdeal.sig)) :
    ((after seg9 Wr) (Cert.ReferenceIdeal.main_v1 : DevRef Cert.ReferenceIdeal.τ Cert.ReferenceIdeal.sig) : (⟨Cert.KernelIdeal.S128, .f32⟩ : BufTy).Contents (Elt Ideal)) = (after Cert.KernelIdeal.Gen.hostOps0_1 Wk) (Cert.KernelIdeal.main_v1 : DevRef Cert.KernelIdeal.τ Cert.KernelIdeal.sig) := by
  after_results_simp
  exact h_main_v1

theorem s1_main_v6
    (h_main_v5 : (Wr (Cert.ReferenceIdeal.main_v58 : DevRef Cert.ReferenceIdeal.τ Cert.ReferenceIdeal.sig) : (⟨Cert.KernelIdeal.S128, .f32⟩ : BufTy).Contents (Elt Ideal)) = Wk (Cert.KernelIdeal.main_v5 : DevRef Cert.KernelIdeal.τ Cert.KernelIdeal.sig)) :
    ((after seg9 Wr) (Cert.ReferenceIdeal.main_v59 : DevRef Cert.ReferenceIdeal.τ Cert.ReferenceIdeal.sig) : (⟨Cert.KernelIdeal.S128x128, .f32⟩ : BufTy).Contents (Elt Ideal)) = (after Cert.KernelIdeal.Gen.hostOps0_1 Wk) (Cert.KernelIdeal.main_v6 : DevRef Cert.KernelIdeal.τ Cert.KernelIdeal.sig) := by
  after_results_simp
  rw [h_main_v5] <;> rfl

theorem s1_main_v3
    (h_main_v3 : (Wr (Cert.ReferenceIdeal.main_v3 : DevRef Cert.ReferenceIdeal.τ Cert.ReferenceIdeal.sig) : (⟨Cert.KernelIdeal.S128, .f32⟩ : BufTy).Contents (Elt Ideal)) = Wk (Cert.KernelIdeal.main_v3 : DevRef Cert.KernelIdeal.τ Cert.KernelIdeal.sig)) :
    ((after seg9 Wr) (Cert.ReferenceIdeal.main_v3 : DevRef Cert.ReferenceIdeal.τ Cert.ReferenceIdeal.sig) : (⟨Cert.KernelIdeal.S128, .f32⟩ : BufTy).Contents (Elt Ideal)) = (after Cert.KernelIdeal.Gen.hostOps0_1 Wk) (Cert.KernelIdeal.main_v3 : DevRef Cert.KernelIdeal.τ Cert.KernelIdeal.sig) := by
  after_results_simp
  exact h_main_v3

/-! ### Step 2 -/

theorem s2_main_v10
    (h_main_arg2 : (Wr (Cert.ReferenceIdeal.main_arg2 : DevRef Cert.ReferenceIdeal.τ Cert.ReferenceIdeal.sig) : (⟨Cert.KernelIdeal.S128, .f32⟩ : BufTy).Contents (Elt Ideal)) = Wk (Cert.KernelIdeal.main_arg2 : DevRef Cert.KernelIdeal.τ Cert.KernelIdeal.sig))
    (h_main_v1 : (Wr (Cert.ReferenceIdeal.main_v1 : DevRef Cert.ReferenceIdeal.τ Cert.ReferenceIdeal.sig) : (⟨Cert.KernelIdeal.S128, .f32⟩ : BufTy).Contents (Elt Ideal)) = Wk (Cert.KernelIdeal.main_v1 : DevRef Cert.KernelIdeal.τ Cert.KernelIdeal.sig)) :
    ((after seg10 Wr) (Cert.ReferenceIdeal.main_v63 : DevRef Cert.ReferenceIdeal.τ Cert.ReferenceIdeal.sig) : (⟨Cert.KernelIdeal.S127, .f32⟩ : BufTy).Contents (Elt Ideal)) = (after Cert.KernelIdeal.Gen.hostOps0_2 Wk) (Cert.KernelIdeal.main_v10 : DevRef Cert.KernelIdeal.τ Cert.KernelIdeal.sig) := by
  after_results_simp
  rw [h_main_arg2, h_main_v1] <;> rfl

theorem s2_main_v6
    (h_main_v6 : (Wr (Cert.ReferenceIdeal.main_v59 : DevRef Cert.ReferenceIdeal.τ Cert.ReferenceIdeal.sig) : (⟨Cert.KernelIdeal.S128x128, .f32⟩ : BufTy).Contents (Elt Ideal)) = Wk (Cert.KernelIdeal.main_v6 : DevRef Cert.KernelIdeal.τ Cert.KernelIdeal.sig)) :
    ((after seg10 Wr) (Cert.ReferenceIdeal.main_v59 : DevRef Cert.ReferenceIdeal.τ Cert.ReferenceIdeal.sig) : (⟨Cert.KernelIdeal.S128x128, .f32⟩ : BufTy).Contents (Elt Ideal)) = (after Cert.KernelIdeal.Gen.hostOps0_2 Wk) (Cert.KernelIdeal.main_v6 : DevRef Cert.KernelIdeal.τ Cert.KernelIdeal.sig) := by
  after_results_simp
  exact h_main_v6

theorem s2_main_arg2
    (h_main_arg2 : (Wr (Cert.ReferenceIdeal.main_arg2 : DevRef Cert.ReferenceIdeal.τ Cert.ReferenceIdeal.sig) : (⟨Cert.KernelIdeal.S128, .f32⟩ : BufTy).Contents (Elt Ideal)) = Wk (Cert.KernelIdeal.main_arg2 : DevRef Cert.KernelIdeal.τ Cert.KernelIdeal.sig)) :
    ((after seg10 Wr) (Cert.ReferenceIdeal.main_arg2 : DevRef Cert.ReferenceIdeal.τ Cert.ReferenceIdeal.sig) : (⟨Cert.KernelIdeal.S128, .f32⟩ : BufTy).Contents (Elt Ideal)) = (after Cert.KernelIdeal.Gen.hostOps0_2 Wk) (Cert.KernelIdeal.main_arg2 : DevRef Cert.KernelIdeal.τ Cert.KernelIdeal.sig) := by
  after_results_simp
  exact h_main_arg2

theorem s2_main_v1
    (h_main_v1 : (Wr (Cert.ReferenceIdeal.main_v1 : DevRef Cert.ReferenceIdeal.τ Cert.ReferenceIdeal.sig) : (⟨Cert.KernelIdeal.S128, .f32⟩ : BufTy).Contents (Elt Ideal)) = Wk (Cert.KernelIdeal.main_v1 : DevRef Cert.KernelIdeal.τ Cert.KernelIdeal.sig)) :
    ((after seg10 Wr) (Cert.ReferenceIdeal.main_v1 : DevRef Cert.ReferenceIdeal.τ Cert.ReferenceIdeal.sig) : (⟨Cert.KernelIdeal.S128, .f32⟩ : BufTy).Contents (Elt Ideal)) = (after Cert.KernelIdeal.Gen.hostOps0_2 Wk) (Cert.KernelIdeal.main_v1 : DevRef Cert.KernelIdeal.τ Cert.KernelIdeal.sig) := by
  after_results_simp
  exact h_main_v1

theorem s2_main_v3
    (h_main_v3 : (Wr (Cert.ReferenceIdeal.main_v3 : DevRef Cert.ReferenceIdeal.τ Cert.ReferenceIdeal.sig) : (⟨Cert.KernelIdeal.S128, .f32⟩ : BufTy).Contents (Elt Ideal)) = Wk (Cert.KernelIdeal.main_v3 : DevRef Cert.KernelIdeal.τ Cert.KernelIdeal.sig)) :
    ((after seg10 Wr) (Cert.ReferenceIdeal.main_v3 : DevRef Cert.ReferenceIdeal.τ Cert.ReferenceIdeal.sig) : (⟨Cert.KernelIdeal.S128, .f32⟩ : BufTy).Contents (Elt Ideal)) = (after Cert.KernelIdeal.Gen.hostOps0_2 Wk) (Cert.KernelIdeal.main_v3 : DevRef Cert.KernelIdeal.τ Cert.KernelIdeal.sig) := by
  after_results_simp
  exact h_main_v3

/-! ### Step 3 -/

theorem s3_main_v6
    (h_main_v6 : (Wr (Cert.ReferenceIdeal.main_v59 : DevRef Cert.ReferenceIdeal.τ Cert.ReferenceIdeal.sig) : (⟨Cert.KernelIdeal.S128x128, .f32⟩ : BufTy).Contents (Elt Ideal)) = Wk (Cert.KernelIdeal.main_v6 : DevRef Cert.KernelIdeal.τ Cert.KernelIdeal.sig)) :
    ((after seg11 Wr) (Cert.ReferenceIdeal.main_v59 : DevRef Cert.ReferenceIdeal.τ Cert.ReferenceIdeal.sig) : (⟨Cert.KernelIdeal.S128x128, .f32⟩ : BufTy).Contents (Elt Ideal)) = (after Cert.KernelIdeal.Gen.hostOps0_3 Wk) (Cert.KernelIdeal.main_v6 : DevRef Cert.KernelIdeal.τ Cert.KernelIdeal.sig) := by
  after_results_simp
  exact h_main_v6

theorem s3_main_v11
    (h_main_v10 : (Wr (Cert.ReferenceIdeal.main_v63 : DevRef Cert.ReferenceIdeal.τ Cert.ReferenceIdeal.sig) : (⟨Cert.KernelIdeal.S127, .f32⟩ : BufTy).Contents (Elt Ideal)) = Wk (Cert.KernelIdeal.main_v10 : DevRef Cert.KernelIdeal.τ Cert.KernelIdeal.sig)) :
    ((after seg11 Wr) (Cert.ReferenceIdeal.main_v64 : DevRef Cert.ReferenceIdeal.τ Cert.ReferenceIdeal.sig) : (⟨Cert.KernelIdeal.S127x127, .f32⟩ : BufTy).Contents (Elt Ideal)) = (after Cert.KernelIdeal.Gen.hostOps0_3 Wk) (Cert.KernelIdeal.main_v11 : DevRef Cert.KernelIdeal.τ Cert.KernelIdeal.sig) := by
  after_results_simp
  rw [h_main_v10] <;> rfl

theorem s3_main_arg2
    (h_main_arg2 : (Wr (Cert.ReferenceIdeal.main_arg2 : DevRef Cert.ReferenceIdeal.τ Cert.ReferenceIdeal.sig) : (⟨Cert.KernelIdeal.S128, .f32⟩ : BufTy).Contents (Elt Ideal)) = Wk (Cert.KernelIdeal.main_arg2 : DevRef Cert.KernelIdeal.τ Cert.KernelIdeal.sig)) :
    ((after seg11 Wr) (Cert.ReferenceIdeal.main_arg2 : DevRef Cert.ReferenceIdeal.τ Cert.ReferenceIdeal.sig) : (⟨Cert.KernelIdeal.S128, .f32⟩ : BufTy).Contents (Elt Ideal)) = (after Cert.KernelIdeal.Gen.hostOps0_3 Wk) (Cert.KernelIdeal.main_arg2 : DevRef Cert.KernelIdeal.τ Cert.KernelIdeal.sig) := by
  after_results_simp
  exact h_main_arg2

theorem s3_main_v1
    (h_main_v1 : (Wr (Cert.ReferenceIdeal.main_v1 : DevRef Cert.ReferenceIdeal.τ Cert.ReferenceIdeal.sig) : (⟨Cert.KernelIdeal.S128, .f32⟩ : BufTy).Contents (Elt Ideal)) = Wk (Cert.KernelIdeal.main_v1 : DevRef Cert.KernelIdeal.τ Cert.KernelIdeal.sig)) :
    ((after seg11 Wr) (Cert.ReferenceIdeal.main_v1 : DevRef Cert.ReferenceIdeal.τ Cert.ReferenceIdeal.sig) : (⟨Cert.KernelIdeal.S128, .f32⟩ : BufTy).Contents (Elt Ideal)) = (after Cert.KernelIdeal.Gen.hostOps0_3 Wk) (Cert.KernelIdeal.main_v1 : DevRef Cert.KernelIdeal.τ Cert.KernelIdeal.sig) := by
  after_results_simp
  exact h_main_v1

theorem s3_main_v3
    (h_main_v3 : (Wr (Cert.ReferenceIdeal.main_v3 : DevRef Cert.ReferenceIdeal.τ Cert.ReferenceIdeal.sig) : (⟨Cert.KernelIdeal.S128, .f32⟩ : BufTy).Contents (Elt Ideal)) = Wk (Cert.KernelIdeal.main_v3 : DevRef Cert.KernelIdeal.τ Cert.KernelIdeal.sig)) :
    ((after seg11 Wr) (Cert.ReferenceIdeal.main_v3 : DevRef Cert.ReferenceIdeal.τ Cert.ReferenceIdeal.sig) : (⟨Cert.KernelIdeal.S128, .f32⟩ : BufTy).Contents (Elt Ideal)) = (after Cert.KernelIdeal.Gen.hostOps0_3 Wk) (Cert.KernelIdeal.main_v3 : DevRef Cert.KernelIdeal.τ Cert.KernelIdeal.sig) := by
  after_results_simp
  exact h_main_v3

/-! ### Step 4 -/

theorem s4_main_v18
    (h_main_arg2 : (Wr (Cert.ReferenceIdeal.main_arg2 : DevRef Cert.ReferenceIdeal.τ Cert.ReferenceIdeal.sig) : (⟨Cert.KernelIdeal.S128, .f32⟩ : BufTy).Contents (Elt Ideal)) = Wk (Cert.KernelIdeal.main_arg2 : DevRef Cert.KernelIdeal.τ Cert.KernelIdeal.sig))
    (h_main_v1 : (Wr (Cert.ReferenceIdeal.main_v1 : DevRef Cert.ReferenceIdeal.τ Cert.ReferenceIdeal.sig) : (⟨Cert.KernelIdeal.S128, .f32⟩ : BufTy).Contents (Elt Ideal)) = Wk (Cert.KernelIdeal.main_v1 : DevRef Cert.KernelIdeal.τ Cert.KernelIdeal.sig)) :
    ((after seg12 Wr) (Cert.ReferenceIdeal.main_v71 : DevRef Cert.ReferenceIdeal.τ Cert.ReferenceIdeal.sig) : (⟨Cert.KernelIdeal.S127, .f32⟩ : BufTy).Contents (Elt Ideal)) = (after Cert.KernelIdeal.Gen.hostOps0_4 Wk) (Cert.KernelIdeal.main_v18 : DevRef Cert.KernelIdeal.τ Cert.KernelIdeal.sig) := by
  after_results_simp
  rw [h_main_arg2, h_main_v1] <;> rfl

theorem s4_main_v15
    (h_main_v6 : (Wr (Cert.ReferenceIdeal.main_v59 : DevRef Cert.ReferenceIdeal.τ Cert.ReferenceIdeal.sig) : (⟨Cert.KernelIdeal.S128x128, .f32⟩ : BufTy).Contents (Elt Ideal)) = Wk (Cert.KernelIdeal.main_v6 : DevRef Cert.KernelIdeal.τ Cert.KernelIdeal.sig))
    (h_main_v11 : (Wr (Cert.ReferenceIdeal.main_v64 : DevRef Cert.ReferenceIdeal.τ Cert.ReferenceIdeal.sig) : (⟨Cert.KernelIdeal.S127x127, .f32⟩ : BufTy).Contents (Elt Ideal)) = Wk (Cert.KernelIdeal.main_v11 : DevRef Cert.KernelIdeal.τ Cert.KernelIdeal.sig)) :
    ((after seg12 Wr) (Cert.ReferenceIdeal.main_v68 : DevRef Cert.ReferenceIdeal.τ Cert.ReferenceIdeal.sig) : (⟨Cert.KernelIdeal.S128x128, .f32⟩ : BufTy).Contents (Elt Ideal)) = (after Cert.KernelIdeal.Gen.hostOps0_4 Wk) (Cert.KernelIdeal.main_v15 : DevRef Cert.KernelIdeal.τ Cert.KernelIdeal.sig) := by
  after_results
  rw [h_main_v6, h_main_v11] <;> rfl

theorem s4_main_arg2
    (h_main_arg2 : (Wr (Cert.ReferenceIdeal.main_arg2 : DevRef Cert.ReferenceIdeal.τ Cert.ReferenceIdeal.sig) : (⟨Cert.KernelIdeal.S128, .f32⟩ : BufTy).Contents (Elt Ideal)) = Wk (Cert.KernelIdeal.main_arg2 : DevRef Cert.KernelIdeal.τ Cert.KernelIdeal.sig)) :
    ((after seg12 Wr) (Cert.ReferenceIdeal.main_arg2 : DevRef Cert.ReferenceIdeal.τ Cert.ReferenceIdeal.sig) : (⟨Cert.KernelIdeal.S128, .f32⟩ : BufTy).Contents (Elt Ideal)) = (after Cert.KernelIdeal.Gen.hostOps0_4 Wk) (Cert.KernelIdeal.main_arg2 : DevRef Cert.KernelIdeal.τ Cert.KernelIdeal.sig) := by
  after_results_simp
  exact h_main_arg2

theorem s4_main_v1
    (h_main_v1 : (Wr (Cert.ReferenceIdeal.main_v1 : DevRef Cert.ReferenceIdeal.τ Cert.ReferenceIdeal.sig) : (⟨Cert.KernelIdeal.S128, .f32⟩ : BufTy).Contents (Elt Ideal)) = Wk (Cert.KernelIdeal.main_v1 : DevRef Cert.KernelIdeal.τ Cert.KernelIdeal.sig)) :
    ((after seg12 Wr) (Cert.ReferenceIdeal.main_v1 : DevRef Cert.ReferenceIdeal.τ Cert.ReferenceIdeal.sig) : (⟨Cert.KernelIdeal.S128, .f32⟩ : BufTy).Contents (Elt Ideal)) = (after Cert.KernelIdeal.Gen.hostOps0_4 Wk) (Cert.KernelIdeal.main_v1 : DevRef Cert.KernelIdeal.τ Cert.KernelIdeal.sig) := by
  after_results_simp
  exact h_main_v1

theorem s4_main_v3
    (h_main_v3 : (Wr (Cert.ReferenceIdeal.main_v3 : DevRef Cert.ReferenceIdeal.τ Cert.ReferenceIdeal.sig) : (⟨Cert.KernelIdeal.S128, .f32⟩ : BufTy).Contents (Elt Ideal)) = Wk (Cert.KernelIdeal.main_v3 : DevRef Cert.KernelIdeal.τ Cert.KernelIdeal.sig)) :
    ((after seg12 Wr) (Cert.ReferenceIdeal.main_v3 : DevRef Cert.ReferenceIdeal.τ Cert.ReferenceIdeal.sig) : (⟨Cert.KernelIdeal.S128, .f32⟩ : BufTy).Contents (Elt Ideal)) = (after Cert.KernelIdeal.Gen.hostOps0_4 Wk) (Cert.KernelIdeal.main_v3 : DevRef Cert.KernelIdeal.τ Cert.KernelIdeal.sig) := by
  after_results_simp
  exact h_main_v3

/-! ### Step 5 -/

theorem s5_main_v15
    (h_main_v15 : (Wr (Cert.ReferenceIdeal.main_v68 : DevRef Cert.ReferenceIdeal.τ Cert.ReferenceIdeal.sig) : (⟨Cert.KernelIdeal.S128x128, .f32⟩ : BufTy).Contents (Elt Ideal)) = Wk (Cert.KernelIdeal.main_v15 : DevRef Cert.KernelIdeal.τ Cert.KernelIdeal.sig)) :
    ((after seg13 Wr) (Cert.ReferenceIdeal.main_v68 : DevRef Cert.ReferenceIdeal.τ Cert.ReferenceIdeal.sig) : (⟨Cert.KernelIdeal.S128x128, .f32⟩ : BufTy).Contents (Elt Ideal)) = (after Cert.KernelIdeal.Gen.hostOps0_5 Wk) (Cert.KernelIdeal.main_v15 : DevRef Cert.KernelIdeal.τ Cert.KernelIdeal.sig) := by
  after_results_simp
  exact h_main_v15

theorem s5_main_v19
    (h_main_v18 : (Wr (Cert.ReferenceIdeal.main_v71 : DevRef Cert.ReferenceIdeal.τ Cert.ReferenceIdeal.sig) : (⟨Cert.KernelIdeal.S127, .f32⟩ : BufTy).Contents (Elt Ideal)) = Wk (Cert.KernelIdeal.main_v18 : DevRef Cert.KernelIdeal.τ Cert.KernelIdeal.sig)) :
    ((after seg13 Wr) (Cert.ReferenceIdeal.main_v72 : DevRef Cert.ReferenceIdeal.τ Cert.ReferenceIdeal.sig) : (⟨Cert.KernelIdeal.S128x128, .f32⟩ : BufTy).Contents (Elt Ideal)) = (after Cert.KernelIdeal.Gen.hostOps0_5 Wk) (Cert.KernelIdeal.main_v19 : DevRef Cert.KernelIdeal.τ Cert.KernelIdeal.sig) := by
  after_results_simp
  rw [h_main_v18] <;> rfl

theorem s5_main_arg2
    (h_main_arg2 : (Wr (Cert.ReferenceIdeal.main_arg2 : DevRef Cert.ReferenceIdeal.τ Cert.ReferenceIdeal.sig) : (⟨Cert.KernelIdeal.S128, .f32⟩ : BufTy).Contents (Elt Ideal)) = Wk (Cert.KernelIdeal.main_arg2 : DevRef Cert.KernelIdeal.τ Cert.KernelIdeal.sig)) :
    ((after seg13 Wr) (Cert.ReferenceIdeal.main_arg2 : DevRef Cert.ReferenceIdeal.τ Cert.ReferenceIdeal.sig) : (⟨Cert.KernelIdeal.S128, .f32⟩ : BufTy).Contents (Elt Ideal)) = (after Cert.KernelIdeal.Gen.hostOps0_5 Wk) (Cert.KernelIdeal.main_arg2 : DevRef Cert.KernelIdeal.τ Cert.KernelIdeal.sig) := by
  after_results_simp
  exact h_main_arg2

theorem s5_main_v1
    (h_main_v1 : (Wr (Cert.ReferenceIdeal.main_v1 : DevRef Cert.ReferenceIdeal.τ Cert.ReferenceIdeal.sig) : (⟨Cert.KernelIdeal.S128, .f32⟩ : BufTy).Contents (Elt Ideal)) = Wk (Cert.KernelIdeal.main_v1 : DevRef Cert.KernelIdeal.τ Cert.KernelIdeal.sig)) :
    ((after seg13 Wr) (Cert.ReferenceIdeal.main_v1 : DevRef Cert.ReferenceIdeal.τ Cert.ReferenceIdeal.sig) : (⟨Cert.KernelIdeal.S128, .f32⟩ : BufTy).Contents (Elt Ideal)) = (after Cert.KernelIdeal.Gen.hostOps0_5 Wk) (Cert.KernelIdeal.main_v1 : DevRef Cert.KernelIdeal.τ Cert.KernelIdeal.sig) := by
  after_results_simp
  exact h_main_v1

theorem s5_main_v3
    (h_main_v3 : (Wr (Cert.ReferenceIdeal.main_v3 : DevRef Cert.ReferenceIdeal.τ Cert.ReferenceIdeal.sig) : (⟨Cert.KernelIdeal.S128, .f32⟩ : BufTy).Contents (Elt Ideal)) = Wk (Cert.KernelIdeal.main_v3 : DevRef Cert.KernelIdeal.τ Cert.KernelIdeal.sig)) :
    ((after seg13 Wr) (Cert.ReferenceIdeal.main_v3 : DevRef Cert.ReferenceIdeal.τ Cert.ReferenceIdeal.sig) : (⟨Cert.KernelIdeal.S128, .f32⟩ : BufTy).Contents (Elt Ideal)) = (after Cert.KernelIdeal.Gen.hostOps0_5 Wk) (Cert.KernelIdeal.main_v3 : DevRef Cert.KernelIdeal.τ Cert.KernelIdeal.sig) := by
  after_results_simp
  exact h_main_v3

/-! ### Step 6 -/

theorem s6_main_v23
    (h_main_arg2 : (Wr (Cert.ReferenceIdeal.main_arg2 : DevRef Cert.ReferenceIdeal.τ Cert.ReferenceIdeal.sig) : (⟨Cert.KernelIdeal.S128, .f32⟩ : BufTy).Contents (Elt Ideal)) = Wk (Cert.KernelIdeal.main_arg2 : DevRef Cert.KernelIdeal.τ Cert.KernelIdeal.sig))
    (h_main_v1 : (Wr (Cert.ReferenceIdeal.main_v1 : DevRef Cert.ReferenceIdeal.τ Cert.ReferenceIdeal.sig) : (⟨Cert.KernelIdeal.S128, .f32⟩ : BufTy).Contents (Elt Ideal)) = Wk (Cert.KernelIdeal.main_v1 : DevRef Cert.KernelIdeal.τ Cert.KernelIdeal.sig)) :
    ((after seg14 Wr) (Cert.ReferenceIdeal.main_v76 : DevRef Cert.ReferenceIdeal.τ Cert.ReferenceIdeal.sig) : (⟨Cert.KernelIdeal.S127, .f32⟩ : BufTy).Contents (Elt Ideal)) = (after Cert.KernelIdeal.Gen.hostOps0_6 Wk) (Cert.KernelIdeal.main_v23 : DevRef Cert.KernelIdeal.τ Cert.KernelIdeal.sig) := by
  after_results_simp
  rw [h_main_arg2, h_main_v1] <;> rfl

theorem s6_main_v20
    (h_main_v15 : (Wr (Cert.ReferenceIdeal.main_v68 : DevRef Cert.ReferenceIdeal.τ Cert.ReferenceIdeal.sig) : (⟨Cert.KernelIdeal.S128x128, .f32⟩ : BufTy).Contents (Elt Ideal)) = Wk (Cert.KernelIdeal.main_v15 : DevRef Cert.KernelIdeal.τ Cert.KernelIdeal.sig))
    (h_main_v19 : (Wr (Cert.ReferenceIdeal.main_v72 : DevRef Cert.ReferenceIdeal.τ Cert.ReferenceIdeal.sig) : (⟨Cert.KernelIdeal.S128x128, .f32⟩ : BufTy).Contents (Elt Ideal)) = Wk (Cert.KernelIdeal.main_v19 : DevRef Cert.KernelIdeal.τ Cert.KernelIdeal.sig)) :
    ((after seg14 Wr) (Cert.ReferenceIdeal.main_v73 : DevRef Cert.ReferenceIdeal.τ Cert.ReferenceIdeal.sig) : (⟨Cert.KernelIdeal.S128x128, .f32⟩ : BufTy).Contents (Elt Ideal)) = (after Cert.KernelIdeal.Gen.hostOps0_6 Wk) (Cert.KernelIdeal.main_v20 : DevRef Cert.KernelIdeal.τ Cert.KernelIdeal.sig) := by
  after_results_simp
  rw [h_main_v15, h_main_v19] <;> rfl

theorem s6_main_v3
    (h_main_v3 : (Wr (Cert.ReferenceIdeal.main_v3 : DevRef Cert.ReferenceIdeal.τ Cert.ReferenceIdeal.sig) : (⟨Cert.KernelIdeal.S128, .f32⟩ : BufTy).Contents (Elt Ideal)) = Wk (Cert.KernelIdeal.main_v3 : DevRef Cert.KernelIdeal.τ Cert.KernelIdeal.sig)) :
    ((after seg14 Wr) (Cert.ReferenceIdeal.main_v3 : DevRef Cert.ReferenceIdeal.τ Cert.ReferenceIdeal.sig) : (⟨Cert.KernelIdeal.S128, .f32⟩ : BufTy).Contents (Elt Ideal)) = (after Cert.KernelIdeal.Gen.hostOps0_6 Wk) (Cert.KernelIdeal.main_v3 : DevRef Cert.KernelIdeal.τ Cert.KernelIdeal.sig) := by
  after_results_simp
  exact h_main_v3

theorem s6_main_v1
    (h_main_v1 : (Wr (Cert.ReferenceIdeal.main_v1 : DevRef Cert.ReferenceIdeal.τ Cert.ReferenceIdeal.sig) : (⟨Cert.KernelIdeal.S128, .f32⟩ : BufTy).Contents (Elt Ideal)) = Wk (Cert.KernelIdeal.main_v1 : DevRef Cert.KernelIdeal.τ Cert.KernelIdeal.sig)) :
    ((after seg14 Wr) (Cert.ReferenceIdeal.main_v1 : DevRef Cert.ReferenceIdeal.τ Cert.ReferenceIdeal.sig) : (⟨Cert.KernelIdeal.S128, .f32⟩ : BufTy).Contents (Elt Ideal)) = (after Cert.KernelIdeal.Gen.hostOps0_6 Wk) (Cert.KernelIdeal.main_v1 : DevRef Cert.KernelIdeal.τ Cert.KernelIdeal.sig) := by
  after_results_simp
  exact h_main_v1

/-! ### Step 7 -/

theorem s7_main_v20
    (h_main_v20 : (Wr (Cert.ReferenceIdeal.main_v73 : DevRef Cert.ReferenceIdeal.τ Cert.ReferenceIdeal.sig) : (⟨Cert.KernelIdeal.S128x128, .f32⟩ : BufTy).Contents (Elt Ideal)) = Wk (Cert.KernelIdeal.main_v20 : DevRef Cert.KernelIdeal.τ Cert.KernelIdeal.sig)) :
    ((after seg15 Wr) (Cert.ReferenceIdeal.main_v73 : DevRef Cert.ReferenceIdeal.τ Cert.ReferenceIdeal.sig) : (⟨Cert.KernelIdeal.S128x128, .f32⟩ : BufTy).Contents (Elt Ideal)) = (after Cert.KernelIdeal.Gen.hostOps0_7 Wk) (Cert.KernelIdeal.main_v20 : DevRef Cert.KernelIdeal.τ Cert.KernelIdeal.sig) := by
  after_results_simp
  exact h_main_v20

theorem s7_main_v24
    (h_main_v23 : (Wr (Cert.ReferenceIdeal.main_v76 : DevRef Cert.ReferenceIdeal.τ Cert.ReferenceIdeal.sig) : (⟨Cert.KernelIdeal.S127, .f32⟩ : BufTy).Contents (Elt Ideal)) = Wk (Cert.KernelIdeal.main_v23 : DevRef Cert.KernelIdeal.τ Cert.KernelIdeal.sig)) :
    ((after seg15 Wr) (Cert.ReferenceIdeal.main_v77 : DevRef Cert.ReferenceIdeal.τ Cert.ReferenceIdeal.sig) : (⟨Cert.KernelIdeal.S128x128, .f32⟩ : BufTy).Contents (Elt Ideal)) = (after Cert.KernelIdeal.Gen.hostOps0_7 Wk) (Cert.KernelIdeal.main_v24 : DevRef Cert.KernelIdeal.τ Cert.KernelIdeal.sig) := by
  after_results_simp
  rw [h_main_v23] <;> rfl

theorem s7_main_v3
    (h_main_v3 : (Wr (Cert.ReferenceIdeal.main_v3 : DevRef Cert.ReferenceIdeal.τ Cert.ReferenceIdeal.sig) : (⟨Cert.KernelIdeal.S128, .f32⟩ : BufTy).Contents (Elt Ideal)) = Wk (Cert.KernelIdeal.main_v3 : DevRef Cert.KernelIdeal.τ Cert.KernelIdeal.sig)) :
    ((after seg15 Wr) (Cert.ReferenceIdeal.main_v3 : DevRef Cert.ReferenceIdeal.τ Cert.ReferenceIdeal.sig) : (⟨Cert.KernelIdeal.S128, .f32⟩ : BufTy).Contents (Elt Ideal)) = (after Cert.KernelIdeal.Gen.hostOps0_7 Wk) (Cert.KernelIdeal.main_v3 : DevRef Cert.KernelIdeal.τ Cert.KernelIdeal.sig) := by
  after_results_simp
  exact h_main_v3

theorem s7_main_v1
    (h_main_v1 : (Wr (Cert.ReferenceIdeal.main_v1 : DevRef Cert.ReferenceIdeal.τ Cert.ReferenceIdeal.sig) : (⟨Cert.KernelIdeal.S128, .f32⟩ : BufTy).Contents (Elt Ideal)) = Wk (Cert.KernelIdeal.main_v1 : DevRef Cert.KernelIdeal.τ Cert.KernelIdeal.sig)) :
    ((after seg15 Wr) (Cert.ReferenceIdeal.main_v1 : DevRef Cert.ReferenceIdeal.τ Cert.ReferenceIdeal.sig) : (⟨Cert.KernelIdeal.S128, .f32⟩ : BufTy).Contents (Elt Ideal)) = (after Cert.KernelIdeal.Gen.hostOps0_7 Wk) (Cert.KernelIdeal.main_v1 : DevRef Cert.KernelIdeal.τ Cert.KernelIdeal.sig) := by
  after_results_simp
  exact h_main_v1

/-! ### Step 8 -/

theorem s8_main_v27
    (h_main_v3 : (Wr (Cert.ReferenceIdeal.main_v3 : DevRef Cert.ReferenceIdeal.τ Cert.ReferenceIdeal.sig) : (⟨Cert.KernelIdeal.S128, .f32⟩ : BufTy).Contents (Elt Ideal)) = Wk (Cert.KernelIdeal.main_v3 : DevRef Cert.KernelIdeal.τ Cert.KernelIdeal.sig))
    (h_main_v1 : (Wr (Cert.ReferenceIdeal.main_v1 : DevRef Cert.ReferenceIdeal.τ Cert.ReferenceIdeal.sig) : (⟨Cert.KernelIdeal.S128, .f32⟩ : BufTy).Contents (Elt Ideal)) = Wk (Cert.KernelIdeal.main_v1 : DevRef Cert.KernelIdeal.τ Cert.KernelIdeal.sig)) :
    ((after seg16 Wr) (Cert.ReferenceIdeal.main_v80 : DevRef Cert.ReferenceIdeal.τ Cert.ReferenceIdeal.sig) : (⟨Cert.KernelIdeal.S128, .f32⟩ : BufTy).Contents (Elt Ideal)) = (after Cert.KernelIdeal.Gen.hostOps0_8 Wk) (Cert.KernelIdeal.main_v27 : DevRef Cert.KernelIdeal.τ Cert.KernelIdeal.sig) := by
  after_results_simp
  rw [h_main_v3, h_main_v1] <;> rfl

theorem s8_main_v3
    (h_main_v3 : (Wr (Cert.ReferenceIdeal.main_v3 : DevRef Cert.ReferenceIdeal.τ Cert.ReferenceIdeal.sig) : (⟨Cert.KernelIdeal.S128, .f32⟩ : BufTy).Contents (Elt Ideal)) = Wk (Cert.KernelIdeal.main_v3 : DevRef Cert.KernelIdeal.τ Cert.KernelIdeal.sig)) :
    ((after seg16 Wr) (Cert.ReferenceIdeal.main_v3 : DevRef Cert.ReferenceIdeal.τ Cert.ReferenceIdeal.sig) : (⟨Cert.KernelIdeal.S128, .f32⟩ : BufTy).Contents (Elt Ideal)) = (after Cert.KernelIdeal.Gen.hostOps0_8 Wk) (Cert.KernelIdeal.main_v3 : DevRef Cert.KernelIdeal.τ Cert.KernelIdeal.sig) := by
  after_results_simp
  exact h_main_v3

theorem s8_main_v1
    (h_main_v1 : (Wr (Cert.ReferenceIdeal.main_v1 : DevRef Cert.ReferenceIdeal.τ Cert.ReferenceIdeal.sig) : (⟨Cert.KernelIdeal.S128, .f32⟩ : BufTy).Contents (Elt Ideal)) = Wk (Cert.KernelIdeal.main_v1 : DevRef Cert.KernelIdeal.τ Cert.KernelIdeal.sig)) :
    ((after seg16 Wr) (Cert.ReferenceIdeal.main_v1 : DevRef Cert.ReferenceIdeal.τ Cert.ReferenceIdeal.sig) : (⟨Cert.KernelIdeal.S128, .f32⟩ : BufTy).Contents (Elt Ideal)) = (after Cert.KernelIdeal.Gen.hostOps0_8 Wk) (Cert.KernelIdeal.main_v1 : DevRef Cert.KernelIdeal.τ Cert.KernelIdeal.sig) := by
  after_results_simp
  exact h_main_v1

theorem s8_main_v25
    (h_main_v20 : (Wr (Cert.ReferenceIdeal.main_v73 : DevRef Cert.ReferenceIdeal.τ Cert.ReferenceIdeal.sig) : (⟨Cert.KernelIdeal.S128x128, .f32⟩ : BufTy).Contents (Elt Ideal)) = Wk (Cert.KernelIdeal.main_v20 : DevRef Cert.KernelIdeal.τ Cert.KernelIdeal.sig))
    (h_main_v24 : (Wr (Cert.ReferenceIdeal.main_v77 : DevRef Cert.ReferenceIdeal.τ Cert.ReferenceIdeal.sig) : (⟨Cert.KernelIdeal.S128x128, .f32⟩ : BufTy).Contents (Elt Ideal)) = Wk (Cert.KernelIdeal.main_v24 : DevRef Cert.KernelIdeal.τ Cert.KernelIdeal.sig)) :
    ((after seg16 Wr) (Cert.ReferenceIdeal.main_v78 : DevRef Cert.ReferenceIdeal.τ Cert.ReferenceIdeal.sig) : (⟨Cert.KernelIdeal.S128x128, .f32⟩ : BufTy).Contents (Elt Ideal)) = (after Cert.KernelIdeal.Gen.hostOps0_8 Wk) (Cert.KernelIdeal.main_v25 : DevRef Cert.KernelIdeal.τ Cert.KernelIdeal.sig) := by
  after_results_simp
  rw [h_main_v20, h_main_v24] <;> rfl

/-! ### Step 9 -/

theorem s9_main_v3
    (h_main_v3 : (Wr (Cert.ReferenceIdeal.main_v3 : DevRef Cert.ReferenceIdeal.τ Cert.ReferenceIdeal.sig) : (⟨Cert.KernelIdeal.S128, .f32⟩ : BufTy).Contents (Elt Ideal)) = Wk (Cert.KernelIdeal.main_v3 : DevRef Cert.KernelIdeal.τ Cert.KernelIdeal.sig)) :
    ((after seg17 Wr) (Cert.ReferenceIdeal.main_v3 : DevRef Cert.ReferenceIdeal.τ Cert.ReferenceIdeal.sig) : (⟨Cert.KernelIdeal.S128, .f32⟩ : BufTy).Contents (Elt Ideal)) = (after Cert.KernelIdeal.Gen.hostOps0_9 Wk) (Cert.KernelIdeal.main_v3 : DevRef Cert.KernelIdeal.τ Cert.KernelIdeal.sig) := by
  after_results_simp
  exact h_main_v3

theorem s9_main_v1
    (h_main_v1 : (Wr (Cert.ReferenceIdeal.main_v1 : DevRef Cert.ReferenceIdeal.τ Cert.ReferenceIdeal.sig) : (⟨Cert.KernelIdeal.S128, .f32⟩ : BufTy).Contents (Elt Ideal)) = Wk (Cert.KernelIdeal.main_v1 : DevRef Cert.KernelIdeal.τ Cert.KernelIdeal.sig)) :
    ((after seg17 Wr) (Cert.ReferenceIdeal.main_v1 : DevRef Cert.ReferenceIdeal.τ Cert.ReferenceIdeal.sig) : (⟨Cert.KernelIdeal.S128, .f32⟩ : BufTy).Contents (Elt Ideal)) = (after Cert.KernelIdeal.Gen.hostOps0_9 Wk) (Cert.KernelIdeal.main_v1 : DevRef Cert.KernelIdeal.τ Cert.KernelIdeal.sig) := by
  after_results_simp
  exact h_main_v1

theorem s9_main_v28
    (h_main_v27 : (Wr (Cert.ReferenceIdeal.main_v80 : DevRef Cert.ReferenceIdeal.τ Cert.ReferenceIdeal.sig) : (⟨Cert.KernelIdeal.S128, .f32⟩ : BufTy).Contents (Elt Ideal)) = Wk (Cert.KernelIdeal.main_v27 : DevRef Cert.KernelIdeal.τ Cert.KernelIdeal.sig)) :
    ((after seg17 Wr) (Cert.ReferenceIdeal.main_v81 : DevRef Cert.ReferenceIdeal.τ Cert.ReferenceIdeal.sig) : (⟨Cert.KernelIdeal.S128x128, .f32⟩ : BufTy).Contents (Elt Ideal)) = (after Cert.KernelIdeal.Gen.hostOps0_9 Wk) (Cert.KernelIdeal.main_v28 : DevRef Cert.KernelIdeal.τ Cert.KernelIdeal.sig) := by
  after_results_simp
  rw [h_main_v27] <;> rfl

theorem s9_main_v25
    (h_main_v25 : (Wr (Cert.ReferenceIdeal.main_v78 : DevRef Cert.ReferenceIdeal.τ Cert.ReferenceIdeal.sig) : (⟨Cert.KernelIdeal.S128x128, .f32⟩ : BufTy).Contents (Elt Ideal)) = Wk (Cert.KernelIdeal.main_v25 : DevRef Cert.KernelIdeal.τ Cert.KernelIdeal.sig)) :
    ((after seg17 Wr) (Cert.ReferenceIdeal.main_v78 : DevRef Cert.ReferenceIdeal.τ Cert.ReferenceIdeal.sig) : (⟨Cert.KernelIdeal.S128x128, .f32⟩ : BufTy).Contents (Elt Ideal)) = (after Cert.KernelIdeal.Gen.hostOps0_9 Wk) (Cert.KernelIdeal.main_v25 : DevRef Cert.KernelIdeal.τ Cert.KernelIdeal.sig) := by
  after_results_simp
  exact h_main_v25

/-! ### Step 10 -/

theorem s10_main_v32
    (h_main_v3 : (Wr (Cert.ReferenceIdeal.main_v3 : DevRef Cert.ReferenceIdeal.τ Cert.ReferenceIdeal.sig) : (⟨Cert.KernelIdeal.S128, .f32⟩ : BufTy).Contents (Elt Ideal)) = Wk (Cert.KernelIdeal.main_v3 : DevRef Cert.KernelIdeal.τ Cert.KernelIdeal.sig))
    (h_main_v1 : (Wr (Cert.ReferenceIdeal.main_v1 : DevRef Cert.ReferenceIdeal.τ Cert.ReferenceIdeal.sig) : (⟨Cert.KernelIdeal.S128, .f32⟩ : BufTy).Contents (Elt Ideal)) = Wk (Cert.KernelIdeal.main_v1 : DevRef Cert.KernelIdeal.τ Cert.KernelIdeal.sig)) :
    ((after seg18 Wr) (Cert.ReferenceIdeal.main_v85 : DevRef Cert.ReferenceIdeal.τ Cert.ReferenceIdeal.sig) : (⟨Cert.KernelIdeal.S127, .f32⟩ : BufTy).Contents (Elt Ideal)) = (after Cert.KernelIdeal.Gen.hostOps0_10 Wk) (Cert.KernelIdeal.main_v32 : DevRef Cert.KernelIdeal.τ Cert.KernelIdeal.sig) := by
  after_results_simp
  rw [h_main_v3, h_main_v1] <;> rfl

theorem s10_main_v28
    (h_main_v28 : (Wr (Cert.ReferenceIdeal.main_v81 : DevRef Cert.ReferenceIdeal.τ Cert.ReferenceIdeal.sig) : (⟨Cert.KernelIdeal.S128x128, .f32⟩ : BufTy).Contents (Elt Ideal)) = Wk (Cert.KernelIdeal.main_v28 : DevRef Cert.KernelIdeal.τ Cert.KernelIdeal.sig)) :
    ((after seg18 Wr) (Cert.ReferenceIdeal.main_v81 : DevRef Cert.ReferenceIdeal.τ Cert.ReferenceIdeal.sig) : (⟨Cert.KernelIdeal.S128x128, .f32⟩ : BufTy).Contents (Elt Ideal)) = (after Cert.KernelIdeal.Gen.hostOps0_10 Wk) (Cert.KernelIdeal.main_v28 : DevRef Cert.KernelIdeal.τ Cert.KernelIdeal.sig) := by
  after_results_simp
  exact h_main_v28

theorem s10_main_v3
    (h_main_v3 : (Wr (Cert.ReferenceIdeal.main_v3 : DevRef Cert.ReferenceIdeal.τ Cert.ReferenceIdeal.sig) : (⟨Cert.KernelIdeal.S128, .f32⟩ : BufTy).Contents (Elt Ideal)) = Wk (Cert.KernelIdeal.main_v3 : DevRef Cert.KernelIdeal.τ Cert.KernelIdeal.sig)) :
    ((after seg18 Wr) (Cert.ReferenceIdeal.main_v3 : DevRef Cert.ReferenceIdeal.τ Cert.ReferenceIdeal.sig) : (⟨Cert.KernelIdeal.S128, .f32⟩ : BufTy).Contents (Elt Ideal)) = (after Cert.KernelIdeal.Gen.hostOps0_10 Wk) (Cert.KernelIdeal.main_v3 : DevRef Cert.KernelIdeal.τ Cert.KernelIdeal.sig) := by
  after_results_simp
  exact h_main_v3

theorem s10_main_v1
    (h_main_v1 : (Wr (Cert.ReferenceIdeal.main_v1 : DevRef Cert.ReferenceIdeal.τ Cert.ReferenceIdeal.sig) : (⟨Cert.KernelIdeal.S128, .f32⟩ : BufTy).Contents (Elt Ideal)) = Wk (Cert.KernelIdeal.main_v1 : DevRef Cert.KernelIdeal.τ Cert.KernelIdeal.sig)) :
    ((after seg18 Wr) (Cert.ReferenceIdeal.main_v1 : DevRef Cert.ReferenceIdeal.τ Cert.ReferenceIdeal.sig) : (⟨Cert.KernelIdeal.S128, .f32⟩ : BufTy).Contents (Elt Ideal)) = (after Cert.KernelIdeal.Gen.hostOps0_10 Wk) (Cert.KernelIdeal.main_v1 : DevRef Cert.KernelIdeal.τ Cert.KernelIdeal.sig) := by
  after_results_simp
  exact h_main_v1

theorem s10_main_v25
    (h_main_v25 : (Wr (Cert.ReferenceIdeal.main_v78 : DevRef Cert.ReferenceIdeal.τ Cert.ReferenceIdeal.sig) : (⟨Cert.KernelIdeal.S128x128, .f32⟩ : BufTy).Contents (Elt Ideal)) = Wk (Cert.KernelIdeal.main_v25 : DevRef Cert.KernelIdeal.τ Cert.KernelIdeal.sig)) :
    ((after seg18 Wr) (Cert.ReferenceIdeal.main_v78 : DevRef Cert.ReferenceIdeal.τ Cert.ReferenceIdeal.sig) : (⟨Cert.KernelIdeal.S128x128, .f32⟩ : BufTy).Contents (Elt Ideal)) = (after Cert.KernelIdeal.Gen.hostOps0_10 Wk) (Cert.KernelIdeal.main_v25 : DevRef Cert.KernelIdeal.τ Cert.KernelIdeal.sig) := by
  after_results_simp
  exact h_main_v25

/-! ### Step 11 -/

theorem s11_main_v28
    (h_main_v28 : (Wr (Cert.ReferenceIdeal.main_v81 : DevRef Cert.ReferenceIdeal.τ Cert.ReferenceIdeal.sig) : (⟨Cert.KernelIdeal.S128x128, .f32⟩ : BufTy).Contents (Elt Ideal)) = Wk (Cert.KernelIdeal.main_v28 : DevRef Cert.KernelIdeal.τ Cert.KernelIdeal.sig)) :
    ((after seg19 Wr) (Cert.ReferenceIdeal.main_v81 : DevRef Cert.ReferenceIdeal.τ Cert.ReferenceIdeal.sig) : (⟨Cert.KernelIdeal.S128x128, .f32⟩ : BufTy).Contents (Elt Ideal)) = (after Cert.KernelIdeal.Gen.hostOps0_11 Wk) (Cert.KernelIdeal.main_v28 : DevRef Cert.KernelIdeal.τ Cert.KernelIdeal.sig) := by
  after_results_simp
  exact h_main_v28

theorem s11_main_v33
    (h_main_v32 : (Wr (Cert.ReferenceIdeal.main_v85 : DevRef Cert.ReferenceIdeal.τ Cert.ReferenceIdeal.sig) : (⟨Cert.KernelIdeal.S127, .f32⟩ : BufTy).Contents (Elt Ideal)) = Wk (Cert.KernelIdeal.main_v32 : DevRef Cert.KernelIdeal.τ Cert.KernelIdeal.sig)) :
    ((after seg19 Wr) (Cert.ReferenceIdeal.main_v86 : DevRef Cert.ReferenceIdeal.τ Cert.ReferenceIdeal.sig) : (⟨Cert.KernelIdeal.S127x127, .f32⟩ : BufTy).Contents (Elt Ideal)) = (after Cert.KernelIdeal.Gen.hostOps0_11 Wk) (Cert.KernelIdeal.main_v33 : DevRef Cert.KernelIdeal.τ Cert.KernelIdeal.sig) := by
  after_results_simp
  rw [h_main_v32] <;> rfl

theorem s11_main_v3
    (h_main_v3 : (Wr (Cert.ReferenceIdeal.main_v3 : DevRef Cert.ReferenceIdeal.τ Cert.ReferenceIdeal.sig) : (⟨Cert.KernelIdeal.S128, .f32⟩ : BufTy).Contents (Elt Ideal)) = Wk (Cert.KernelIdeal.main_v3 : DevRef Cert.KernelIdeal.τ Cert.KernelIdeal.sig)) :
    ((after seg19 Wr) (Cert.ReferenceIdeal.main_v3 : DevRef Cert.ReferenceIdeal.τ Cert.ReferenceIdeal.sig) : (⟨Cert.KernelIdeal.S128, .f32⟩ : BufTy).Contents (Elt Ideal)) = (after Cert.KernelIdeal.Gen.hostOps0_11 Wk) (Cert.KernelIdeal.main_v3 : DevRef Cert.KernelIdeal.τ Cert.KernelIdeal.sig) := by
  after_results_simp
  exact h_main_v3

theorem s11_main_v1
    (h_main_v1 : (Wr (Cert.ReferenceIdeal.main_v1 : DevRef Cert.ReferenceIdeal.τ Cert.ReferenceIdeal.sig) : (⟨Cert.KernelIdeal.S128, .f32⟩ : BufTy).Contents (Elt Ideal)) = Wk (Cert.KernelIdeal.main_v1 : DevRef Cert.KernelIdeal.τ Cert.KernelIdeal.sig)) :
    ((after seg19 Wr) (Cert.ReferenceIdeal.main_v1 : DevRef Cert.ReferenceIdeal.τ Cert.ReferenceIdeal.sig) : (⟨Cert.KernelIdeal.S128, .f32⟩ : BufTy).Contents (Elt Ideal)) = (after Cert.KernelIdeal.Gen.hostOps0_11 Wk) (Cert.KernelIdeal.main_v1 : DevRef Cert.KernelIdeal.τ Cert.KernelIdeal.sig) := by
  after_results_simp
  exact h_main_v1

theorem s11_main_v25
    (h_main_v25 : (Wr (Cert.ReferenceIdeal.main_v78 : DevRef Cert.ReferenceIdeal.τ Cert.ReferenceIdeal.sig) : (⟨Cert.KernelIdeal.S128x128, .f32⟩ : BufTy).Contents (Elt Ideal)) = Wk (Cert.KernelIdeal.main_v25 : DevRef Cert.KernelIdeal.τ Cert.KernelIdeal.sig)) :
    ((after seg19 Wr) (Cert.ReferenceIdeal.main_v78 : DevRef Cert.ReferenceIdeal.τ Cert.ReferenceIdeal.sig) : (⟨Cert.KernelIdeal.S128x128, .f32⟩ : BufTy).Contents (Elt Ideal)) = (after Cert.KernelIdeal.Gen.hostOps0_11 Wk) (Cert.KernelIdeal.main_v25 : DevRef Cert.KernelIdeal.τ Cert.KernelIdeal.sig) := by
  after_results_simp
  exact h_main_v25

/-! ### Step 12 -/

theorem s12_main_v40
    (h_main_v3 : (Wr (Cert.ReferenceIdeal.main_v3 : DevRef Cert.ReferenceIdeal.τ Cert.ReferenceIdeal.sig) : (⟨Cert.KernelIdeal.S128, .f32⟩ : BufTy).Contents (Elt Ideal)) = Wk (Cert.KernelIdeal.main_v3 : DevRef Cert.KernelIdeal.τ Cert.KernelIdeal.sig))
    (h_main_v1 : (Wr (Cert.ReferenceIdeal.main_v1 : DevRef Cert.ReferenceIdeal.τ Cert.ReferenceIdeal.sig) : (⟨Cert.KernelIdeal.S128, .f32⟩ : BufTy).Contents (Elt Ideal)) = Wk (Cert.KernelIdeal.main_v1 : DevRef Cert.KernelIdeal.τ Cert.KernelIdeal.sig)) :
    ((after seg20 Wr) (Cert.ReferenceIdeal.main_v93 : DevRef Cert.ReferenceIdeal.τ Cert.ReferenceIdeal.sig) : (⟨Cert.KernelIdeal.S127, .f32⟩ : BufTy).Contents (Elt Ideal)) = (after Cert.KernelIdeal.Gen.hostOps0_12 Wk) (Cert.KernelIdeal.main_v40 : DevRef Cert.KernelIdeal.τ Cert.KernelIdeal.sig) := by
  after_results_simp
  rw [h_main_v3, h_main_v1] <;> rfl

theorem s12_main_v37
    (h_main_v28 : (Wr (Cert.ReferenceIdeal.main_v81 : DevRef Cert.ReferenceIdeal.τ Cert.ReferenceIdeal.sig) : (⟨Cert.KernelIdeal.S128x128, .f32⟩ : BufTy).Contents (Elt Ideal)) = Wk (Cert.KernelIdeal.main_v28 : DevRef Cert.KernelIdeal.τ Cert.KernelIdeal.sig))
    (h_main_v33 : (Wr (Cert.ReferenceIdeal.main_v86 : DevRef Cert.ReferenceIdeal.τ Cert.ReferenceIdeal.sig) : (⟨Cert.KernelIdeal.S127x127, .f32⟩ : BufTy).Contents (Elt Ideal)) = Wk (Cert.KernelIdeal.main_v33 : DevRef Cert.KernelIdeal.τ Cert.KernelIdeal.sig)) :
    ((after seg20 Wr) (Cert.ReferenceIdeal.main_v90 : DevRef Cert.ReferenceIdeal.τ Cert.ReferenceIdeal.sig) : (⟨Cert.KernelIdeal.S128x128, .f32⟩ : BufTy).Contents (Elt Ideal)) = (after Cert.KernelIdeal.Gen.hostOps0_12 Wk) (Cert.KernelIdeal.main_v37 : DevRef Cert.KernelIdeal.τ Cert.KernelIdeal.sig) := by
  after_results
  rw [h_main_v28, h_main_v33] <;> rfl

theorem s12_main_v3
    (h_main_v3 : (Wr (Cert.ReferenceIdeal.main_v3 : DevRef Cert.ReferenceIdeal.τ Cert.ReferenceIdeal.sig) : (⟨Cert.KernelIdeal.S128, .f32⟩ : BufTy).Contents (Elt Ideal)) = Wk (Cert.KernelIdeal.main_v3 : DevRef Cert.KernelIdeal.τ Cert.KernelIdeal.sig)) :
    ((after seg20 Wr) (Cert.ReferenceIdeal.main_v3 : DevRef Cert.ReferenceIdeal.τ Cert.ReferenceIdeal.sig) : (⟨Cert.KernelIdeal.S128, .f32⟩ : BufTy).Contents (Elt Ideal)) = (after Cert.KernelIdeal.Gen.hostOps0_12 Wk) (Cert.KernelIdeal.main_v3 : DevRef Cert.KernelIdeal.τ Cert.KernelIdeal.sig) := by
  after_results_simp
  exact h_main_v3

theorem s12_main_v1
    (h_main_v1 : (Wr (Cert.ReferenceIdeal.main_v1 : DevRef Cert.ReferenceIdeal.τ Cert.ReferenceIdeal.sig) : (⟨Cert.KernelIdeal.S128, .f32⟩ : BufTy).Contents (Elt Ideal)) = Wk (Cert.KernelIdeal.main_v1 : DevRef Cert.KernelIdeal.τ Cert.KernelIdeal.sig)) :
    ((after seg20 Wr) (Cert.ReferenceIdeal.main_v1 : DevRef Cert.ReferenceIdeal.τ Cert.ReferenceIdeal.sig) : (⟨Cert.KernelIdeal.S128, .f32⟩ : BufTy).Contents (Elt Ideal)) = (after Cert.KernelIdeal.Gen.hostOps0_12 Wk) (Cert.KernelIdeal.main_v1 : DevRef Cert.KernelIdeal.τ Cert.KernelIdeal.sig) := by
  after_results_simp
  exact h_main_v1

theorem s12_main_v25
    (h_main_v25 : (Wr (Cert.ReferenceIdeal.main_v78 : DevRef Cert.ReferenceIdeal.τ Cert.ReferenceIdeal.sig) : (⟨Cert.KernelIdeal.S128x128, .f32⟩ : BufTy).Contents (Elt Ideal)) = Wk (Cert.KernelIdeal.main_v25 : DevRef Cert.KernelIdeal.τ Cert.KernelIdeal.sig)) :
    ((after seg20 Wr) (Cert.ReferenceIdeal.main_v78 : DevRef Cert.ReferenceIdeal.τ Cert.ReferenceIdeal.sig) : (⟨Cert.KernelIdeal.S128x128, .f32⟩ : BufTy).Contents (Elt Ideal)) = (after Cert.KernelIdeal.Gen.hostOps0_12 Wk) (Cert.KernelIdeal.main_v25 : DevRef Cert.KernelIdeal.τ Cert.KernelIdeal.sig) := by
  after_results_simp
  exact h_main_v25

/-! ### Step 13 -/

theorem s13_main_v37
    (h_main_v37 : (Wr (Cert.ReferenceIdeal.main_v90 : DevRef Cert.ReferenceIdeal.τ Cert.ReferenceIdeal.sig) : (⟨Cert.KernelIdeal.S128x128, .f32⟩ : BufTy).Contents (Elt Ideal)) = Wk (Cert.KernelIdeal.main_v37 : DevRef Cert.KernelIdeal.τ Cert.KernelIdeal.sig)) :
    ((after seg21 Wr) (Cert.ReferenceIdeal.main_v90 : DevRef Cert.ReferenceIdeal.τ Cert.ReferenceIdeal.sig) : (⟨Cert.KernelIdeal.S128x128, .f32⟩ : BufTy).Contents (Elt Ideal)) = (after Cert.KernelIdeal.Gen.hostOps0_13 Wk) (Cert.KernelIdeal.main_v37 : DevRef Cert.KernelIdeal.τ Cert.KernelIdeal.sig) := by
  after_results_simp
  exact h_main_v37

theorem s13_main_v41
    (h_main_v40 : (Wr (Cert.ReferenceIdeal.main_v93 : DevRef Cert.ReferenceIdeal.τ Cert.ReferenceIdeal.sig) : (⟨Cert.KernelIdeal.S127, .f32⟩ : BufTy).Contents (Elt Ideal)) = Wk (Cert.KernelIdeal.main_v40 : DevRef Cert.KernelIdeal.τ Cert.KernelIdeal.sig)) :
    ((after seg21 Wr) (Cert.ReferenceIdeal.main_v94 : DevRef Cert.ReferenceIdeal.τ Cert.ReferenceIdeal.sig) : (⟨Cert.KernelIdeal.S128x128, .f32⟩ : BufTy).Contents (Elt Ideal)) = (after Cert.KernelIdeal.Gen.hostOps0_13 Wk) (Cert.KernelIdeal.main_v41 : DevRef Cert.KernelIdeal.τ Cert.KernelIdeal.sig) := by
  after_results_simp
  rw [h_main_v40] <;> rfl

theorem s13_main_v3
    (h_main_v3 : (Wr (Cert.ReferenceIdeal.main_v3 : DevRef Cert.ReferenceIdeal.τ Cert.ReferenceIdeal.sig) : (⟨Cert.KernelIdeal.S128, .f32⟩ : BufTy).Contents (Elt Ideal)) = Wk (Cert.KernelIdeal.main_v3 : DevRef Cert.KernelIdeal.τ Cert.KernelIdeal.sig)) :
    ((after seg21 Wr) (Cert.ReferenceIdeal.main_v3 : DevRef Cert.ReferenceIdeal.τ Cert.ReferenceIdeal.sig) : (⟨Cert.KernelIdeal.S128, .f32⟩ : BufTy).Contents (Elt Ideal)) = (after Cert.KernelIdeal.Gen.hostOps0_13 Wk) (Cert.KernelIdeal.main_v3 : DevRef Cert.KernelIdeal.τ Cert.KernelIdeal.sig) := by
  after_results_simp
  exact h_main_v3

theorem s13_main_v1
    (h_main_v1 : (Wr (Cert.ReferenceIdeal.main_v1 : DevRef Cert.ReferenceIdeal.τ Cert.ReferenceIdeal.sig) : (⟨Cert.KernelIdeal.S128, .f32⟩ : BufTy).Contents (Elt Ideal)) = Wk (Cert.KernelIdeal.main_v1 : DevRef Cert.KernelIdeal.τ Cert.KernelIdeal.sig)) :
    ((after seg21 Wr) (Cert.ReferenceIdeal.main_v1 : DevRef Cert.ReferenceIdeal.τ Cert.ReferenceIdeal.sig) : (⟨Cert.KernelIdeal.S128, .f32⟩ : BufTy).Contents (Elt Ideal)) = (after Cert.KernelIdeal.Gen.hostOps0_13 Wk) (Cert.KernelIdeal.main_v1 : DevRef Cert.KernelIdeal.τ Cert.KernelIdeal.sig) := by
  after_results_simp
  exact h_main_v1

theorem s13_main_v25
    (h_main_v25 : (Wr (Cert.ReferenceIdeal.main_v78 : DevRef Cert.ReferenceIdeal.τ Cert.ReferenceIdeal.sig) : (⟨Cert.KernelIdeal.S128x128, .f32⟩ : BufTy).Contents (Elt Ideal)) = Wk (Cert.KernelIdeal.main_v25 : DevRef Cert.KernelIdeal.τ Cert.KernelIdeal.sig)) :
    ((after seg21 Wr) (Cert.ReferenceIdeal.main_v78 : DevRef Cert.ReferenceIdeal.τ Cert.ReferenceIdeal.sig) : (⟨Cert.KernelIdeal.S128x128, .f32⟩ : BufTy).Contents (Elt Ideal)) = (after Cert.KernelIdeal.Gen.hostOps0_13 Wk) (Cert.KernelIdeal.main_v25 : DevRef Cert.KernelIdeal.τ Cert.KernelIdeal.sig) := by
  after_results_simp
  exact h_main_v25

/-! ### Step 14 -/

theorem s14_main_v45
    (h_main_v3 : (Wr (Cert.ReferenceIdeal.main_v3 : DevRef Cert.ReferenceIdeal.τ Cert.ReferenceIdeal.sig) : (⟨Cert.KernelIdeal.S128, .f32⟩ : BufTy).Contents (Elt Ideal)) = Wk (Cert.KernelIdeal.main_v3 : DevRef Cert.KernelIdeal.τ Cert.KernelIdeal.sig))
    (h_main_v1 : (Wr (Cert.ReferenceIdeal.main_v1 : DevRef Cert.ReferenceIdeal.τ Cert.ReferenceIdeal.sig) : (⟨Cert.KernelIdeal.S128, .f32⟩ : BufTy).Contents (Elt Ideal)) = Wk (Cert.KernelIdeal.main_v1 : DevRef Cert.KernelIdeal.τ Cert.KernelIdeal.sig)) :
    ((after seg22 Wr) (Cert.ReferenceIdeal.main_v98 : DevRef Cert.ReferenceIdeal.τ Cert.ReferenceIdeal.sig) : (⟨Cert.KernelIdeal.S127, .f32⟩ : BufTy).Contents (Elt Ideal)) = (after Cert.KernelIdeal.Gen.hostOps0_14 Wk) (Cert.KernelIdeal.main_v45 : DevRef Cert.KernelIdeal.τ Cert.KernelIdeal.sig) := by
  after_results_simp
  rw [h_main_v3, h_main_v1] <;> rfl

theorem s14_main_v42
    (h_main_v37 : (Wr (Cert.ReferenceIdeal.main_v90 : DevRef Cert.ReferenceIdeal.τ Cert.ReferenceIdeal.sig) : (⟨Cert.KernelIdeal.S128x128, .f32⟩ : BufTy).Contents (Elt Ideal)) = Wk (Cert.KernelIdeal.main_v37 : DevRef Cert.KernelIdeal.τ Cert.KernelIdeal.sig))
    (h_main_v41 : (Wr (Cert.ReferenceIdeal.main_v94 : DevRef Cert.ReferenceIdeal.τ Cert.ReferenceIdeal.sig) : (⟨Cert.KernelIdeal.S128x128, .f32⟩ : BufTy).Contents (Elt Ideal)) = Wk (Cert.KernelIdeal.main_v41 : DevRef Cert.KernelIdeal.τ Cert.KernelIdeal.sig)) :
    ((after seg22 Wr) (Cert.ReferenceIdeal.main_v95 : DevRef Cert.ReferenceIdeal.τ Cert.ReferenceIdeal.sig) : (⟨Cert.KernelIdeal.S128x128, .f32⟩ : BufTy).Contents (Elt Ideal)) = (after Cert.KernelIdeal.Gen.hostOps0_14 Wk) (Cert.KernelIdeal.main_v42 : DevRef Cert.KernelIdeal.τ Cert.KernelIdeal.sig) := by
  after_results_simp
  rw [h_main_v37, h_main_v41] <;> rfl

theorem s14_main_v25
    (h_main_v25 : (Wr (Cert.ReferenceIdeal.main_v78 : DevRef Cert.ReferenceIdeal.τ Cert.ReferenceIdeal.sig) : (⟨Cert.KernelIdeal.S128x128, .f32⟩ : BufTy).Contents (Elt Ideal)) = Wk (Cert.KernelIdeal.main_v25 : DevRef Cert.KernelIdeal.τ Cert.KernelIdeal.sig)) :
    ((after seg22 Wr) (Cert.ReferenceIdeal.main_v78 : DevRef Cert.ReferenceIdeal.τ Cert.ReferenceIdeal.sig) : (⟨Cert.KernelIdeal.S128x128, .f32⟩ : BufTy).Contents (Elt Ideal)) = (after Cert.KernelIdeal.Gen.hostOps0_14 Wk) (Cert.KernelIdeal.main_v25 : DevRef Cert.KernelIdeal.τ Cert.KernelIdeal.sig) := by
  after_results_simp
  exact h_main_v25

/-! ### Step 15 -/

theorem s15_main_v42
    (h_main_v42 : (Wr (Cert.ReferenceIdeal.main_v95 : DevRef Cert.ReferenceIdeal.τ Cert.ReferenceIdeal.sig) : (⟨Cert.KernelIdeal.S128x128, .f32⟩ : BufTy).Contents (Elt Ideal)) = Wk (Cert.KernelIdeal.main_v42 : DevRef Cert.KernelIdeal.τ Cert.KernelIdeal.sig)) :
    ((after seg23 Wr) (Cert.ReferenceIdeal.main_v95 : DevRef Cert.ReferenceIdeal.τ Cert.ReferenceIdeal.sig) : (⟨Cert.KernelIdeal.S128x128, .f32⟩ : BufTy).Contents (Elt Ideal)) = (after Cert.KernelIdeal.Gen.hostOps0_15 Wk) (Cert.KernelIdeal.main_v42 : DevRef Cert.KernelIdeal.τ Cert.KernelIdeal.sig) := by
  after_results_simp
  exact h_main_v42

theorem s15_main_v46
    (h_main_v45 : (Wr (Cert.ReferenceIdeal.main_v98 : DevRef Cert.ReferenceIdeal.τ Cert.ReferenceIdeal.sig) : (⟨Cert.KernelIdeal.S127, .f32⟩ : BufTy).Contents (Elt Ideal)) = Wk (Cert.KernelIdeal.main_v45 : DevRef Cert.KernelIdeal.τ Cert.KernelIdeal.sig)) :
    ((after seg23 Wr) (Cert.ReferenceIdeal.main_v99 : DevRef Cert.ReferenceIdeal.τ Cert.ReferenceIdeal.sig) : (⟨Cert.KernelIdeal.S128x128, .f32⟩ : BufTy).Contents (Elt Ideal)) = (after Cert.KernelIdeal.Gen.hostOps0_15 Wk) (Cert.KernelIdeal.main_v46 : DevRef Cert.KernelIdeal.τ Cert.KernelIdeal.sig) := by
  after_results_simp
  rw [h_main_v45] <;> rfl

theorem s15_main_v25
    (h_main_v25 : (Wr (Cert.ReferenceIdeal.main_v78 : DevRef Cert.ReferenceIdeal.τ Cert.ReferenceIdeal.sig) : (⟨Cert.KernelIdeal.S128x128, .f32⟩ : BufTy).Contents (Elt Ideal)) = Wk (Cert.KernelIdeal.main_v25 : DevRef Cert.KernelIdeal.τ Cert.KernelIdeal.sig)) :
    ((after seg23 Wr) (Cert.ReferenceIdeal.main_v78 : DevRef Cert.ReferenceIdeal.τ Cert.ReferenceIdeal.sig) : (⟨Cert.KernelIdeal.S128x128, .f32⟩ : BufTy).Contents (Elt Ideal)) = (after Cert.KernelIdeal.Gen.hostOps0_15 Wk) (Cert.KernelIdeal.main_v25 : DevRef Cert.KernelIdeal.τ Cert.KernelIdeal.sig) := by
  after_results_simp
  exact h_main_v25

/-! ### Step 16 -/

theorem s16_main_v48 :
    ((after seg24 Wr) (Cert.ReferenceIdeal.main_v101 : DevRef Cert.ReferenceIdeal.τ Cert.ReferenceIdeal.sig) : (⟨Cert.KernelIdeal.S256x256, .f32⟩ : BufTy).Contents (Elt Ideal)) = (after kA Wk) (Cert.KernelIdeal.main_v48 : DevRef Cert.KernelIdeal.τ Cert.KernelIdeal.sig) := by
  after_results_simp <;> rfl

theorem s16_main_v54 :
    ((after seg24 Wr) (Cert.ReferenceIdeal.main_v107 : DevRef Cert.ReferenceIdeal.τ Cert.ReferenceIdeal.sig) : (⟨Cert.KernelIdeal.S128x128, .f32⟩ : BufTy).Contents (Elt Ideal)) = (after kA Wk) (Cert.KernelIdeal.main_v54 : DevRef Cert.KernelIdeal.τ Cert.KernelIdeal.sig) := by
  after_results_simp <;> rfl

theorem s16_main_v25
    (h_main_v25 : (Wr (Cert.ReferenceIdeal.main_v78 : DevRef Cert.ReferenceIdeal.τ Cert.ReferenceIdeal.sig) : (⟨Cert.KernelIdeal.S128x128, .f32⟩ : BufTy).Contents (Elt Ideal)) = Wk (Cert.KernelIdeal.main_v25 : DevRef Cert.KernelIdeal.τ Cert.KernelIdeal.sig)) :
    ((after seg24 Wr) (Cert.ReferenceIdeal.main_v78 : DevRef Cert.ReferenceIdeal.τ Cert.ReferenceIdeal.sig) : (⟨Cert.KernelIdeal.S128x128, .f32⟩ : BufTy).Contents (Elt Ideal)) = (after kA Wk) (Cert.KernelIdeal.main_v25 : DevRef Cert.KernelIdeal.τ Cert.KernelIdeal.sig) := by
  after_results_simp
  exact h_main_v25

theorem s16_main_v47
    (h_main_v42 : (Wr (Cert.ReferenceIdeal.main_v95 : DevRef Cert.ReferenceIdeal.τ Cert.ReferenceIdeal.sig) : (⟨Cert.KernelIdeal.S128x128, .f32⟩ : BufTy).Contents (Elt Ideal)) = Wk (Cert.KernelIdeal.main_v42 : DevRef Cert.KernelIdeal.τ Cert.KernelIdeal.sig))
    (h_main_v46 : (Wr (Cert.ReferenceIdeal.main_v99 : DevRef Cert.ReferenceIdeal.τ Cert.ReferenceIdeal.sig) : (⟨Cert.KernelIdeal.S128x128, .f32⟩ : BufTy).Contents (Elt Ideal)) = Wk (Cert.KernelIdeal.main_v46 : DevRef Cert.KernelIdeal.τ Cert.KernelIdeal.sig)) :
    ((after seg24 Wr) (Cert.ReferenceIdeal.main_v100 : DevRef Cert.ReferenceIdeal.τ Cert.ReferenceIdeal.sig) : (⟨Cert.KernelIdeal.S128x128, .f32⟩ : BufTy).Contents (Elt Ideal)) = (after kA Wk) (Cert.KernelIdeal.main_v47 : DevRef Cert.KernelIdeal.τ Cert.KernelIdeal.sig) := by
  after_results_simp
  rw [h_main_v42, h_main_v46] <;> rfl

/-! ### Step 17 -/

theorem s17_main_v58
    (h_main_v48 : (Wr (Cert.ReferenceIdeal.main_v101 : DevRef Cert.ReferenceIdeal.τ Cert.ReferenceIdeal.sig) : (⟨Cert.KernelIdeal.S256x256, .f32⟩ : BufTy).Contents (Elt Ideal)) = Wk (Cert.KernelIdeal.main_v48 : DevRef Cert.KernelIdeal.τ Cert.KernelIdeal.sig))
    (h_main_v54 : (Wr (Cert.ReferenceIdeal.main_v107 : DevRef Cert.ReferenceIdeal.τ Cert.ReferenceIdeal.sig) : (⟨Cert.KernelIdeal.S128x128, .f32⟩ : BufTy).Contents (Elt Ideal)) = Wk (Cert.KernelIdeal.main_v54 : DevRef Cert.KernelIdeal.τ Cert.KernelIdeal.sig)) :
    ((after rB Wr) (Cert.ReferenceIdeal.main_v111 : DevRef Cert.ReferenceIdeal.τ Cert.ReferenceIdeal.sig) : (⟨Cert.KernelIdeal.S256x256, .f32⟩ : BufTy).Contents (Elt Ideal)) = (after kB Wk) (Cert.KernelIdeal.main_v58 : DevRef Cert.KernelIdeal.τ Cert.KernelIdeal.sig) := by
  after_results
  rw [h_main_v48, h_main_v54] <;> rfl

theorem s17_main_v25
    (h_main_v25 : (Wr (Cert.ReferenceIdeal.main_v78 : DevRef Cert.ReferenceIdeal.τ Cert.ReferenceIdeal.sig) : (⟨Cert.KernelIdeal.S128x128, .f32⟩ : BufTy).Contents (Elt Ideal)) = Wk (Cert.KernelIdeal.main_v25 : DevRef Cert.KernelIdeal.τ Cert.KernelIdeal.sig)) :
    ((after rB Wr) (Cert.ReferenceIdeal.main_v78 : DevRef Cert.ReferenceIdeal.τ Cert.ReferenceIdeal.sig) : (⟨Cert.KernelIdeal.S128x128, .f32⟩ : BufTy).Contents (Elt Ideal)) = (after kB Wk) (Cert.KernelIdeal.main_v25 : DevRef Cert.KernelIdeal.τ Cert.KernelIdeal.sig) := by
  after_results_simp
  exact h_main_v25

theorem s17_main_v47
    (h_main_v47 : (Wr (Cert.ReferenceIdeal.main_v100 : DevRef Cert.ReferenceIdeal.τ Cert.ReferenceIdeal.sig) : (⟨Cert.KernelIdeal.S128x128, .f32⟩ : BufTy).Contents (Elt Ideal)) = Wk (Cert.KernelIdeal.main_v47 : DevRef Cert.KernelIdeal.τ Cert.KernelIdeal.sig)) :
    ((after rB Wr) (Cert.ReferenceIdeal.main_v100 : DevRef Cert.ReferenceIdeal.τ Cert.ReferenceIdeal.sig) : (⟨Cert.KernelIdeal.S128x128, .f32⟩ : BufTy).Contents (Elt Ideal)) = (after kB Wk) (Cert.KernelIdeal.main_v47 : DevRef Cert.KernelIdeal.τ Cert.KernelIdeal.sig) := by
  after_results_simp
  exact h_main_v47

/-! ### Step 18 -/

theorem s18_main_v62
    (h_main_v58 : (Wr (Cert.ReferenceIdeal.main_v111 : DevRef Cert.ReferenceIdeal.τ Cert.ReferenceIdeal.sig) : (⟨Cert.KernelIdeal.S256x256, .f32⟩ : BufTy).Contents (Elt Ideal)) = Wk (Cert.KernelIdeal.main_v58 : DevRef Cert.KernelIdeal.τ Cert.KernelIdeal.sig))
    (h_main_v25 : (Wr (Cert.ReferenceIdeal.main_v78 : DevRef Cert.ReferenceIdeal.τ Cert.ReferenceIdeal.sig) : (⟨Cert.KernelIdeal.S128x128, .f32⟩ : BufTy).Contents (Elt Ideal)) = Wk (Cert.KernelIdeal.main_v25 : DevRef Cert.KernelIdeal.τ Cert.KernelIdeal.sig)) :
    ((after rC Wr) (Cert.ReferenceIdeal.main_v115 : DevRef Cert.ReferenceIdeal.τ Cert.ReferenceIdeal.sig) : (⟨Cert.KernelIdeal.S256x256, .f32⟩ : BufTy).Contents (Elt Ideal)) = (after kC Wk) (Cert.KernelIdeal.main_v62 : DevRef Cert.KernelIdeal.τ Cert.KernelIdeal.sig) := by
  after_results
  rw [h_main_v58, h_main_v25] <;> rfl

theorem s18_main_v47
    (h_main_v47 : (Wr (Cert.ReferenceIdeal.main_v100 : DevRef Cert.ReferenceIdeal.τ Cert.ReferenceIdeal.sig) : (⟨Cert.KernelIdeal.S128x128, .f32⟩ : BufTy).Contents (Elt Ideal)) = Wk (Cert.KernelIdeal.main_v47 : DevRef Cert.KernelIdeal.τ Cert.KernelIdeal.sig)) :
    ((after rC Wr) (Cert.ReferenceIdeal.main_v100 : DevRef Cert.ReferenceIdeal.τ Cert.ReferenceIdeal.sig) : (⟨Cert.KernelIdeal.S128x128, .f32⟩ : BufTy).Contents (Elt Ideal)) = (after kC Wk) (Cert.KernelIdeal.main_v47 : DevRef Cert.KernelIdeal.τ Cert.KernelIdeal.sig) := by
  after_results_simp
  exact h_main_v47

/-! ### Step 19 -/

theorem s19_main_v66
    (h_main_v62 : (Wr (Cert.ReferenceIdeal.main_v115 : DevRef Cert.ReferenceIdeal.τ Cert.ReferenceIdeal.sig) : (⟨Cert.KernelIdeal.S256x256, .f32⟩ : BufTy).Contents (Elt Ideal)) = Wk (Cert.KernelIdeal.main_v62 : DevRef Cert.KernelIdeal.τ Cert.KernelIdeal.sig))
    (h_main_v47 : (Wr (Cert.ReferenceIdeal.main_v100 : DevRef Cert.ReferenceIdeal.τ Cert.ReferenceIdeal.sig) : (⟨Cert.KernelIdeal.S128x128, .f32⟩ : BufTy).Contents (Elt Ideal)) = Wk (Cert.KernelIdeal.main_v47 : DevRef Cert.KernelIdeal.τ Cert.KernelIdeal.sig)) :
    ((after rD Wr) (Cert.ReferenceIdeal.main_v119 : DevRef Cert.ReferenceIdeal.τ Cert.ReferenceIdeal.sig) : (⟨Cert.KernelIdeal.S256x256, .f32⟩ : BufTy).Contents (Elt Ideal)) = (after kD Wk) (Cert.KernelIdeal.main_v66 : DevRef Cert.KernelIdeal.τ Cert.KernelIdeal.sig) := by
  after_results
  rw [h_main_v62, h_main_v47] <;> rfl

/-! ## The matrix -/

/-- The kernel program's memory after its seventeen stretches, stretch by stretch. -/
theorem k_nest (V : Valuation Cert.KernelIdeal.τ Cert.KernelIdeal.sig (Elt Ideal)) :
    after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16]) V = after Cert.KernelIdeal.Gen.hostOps0_16 (after Cert.KernelIdeal.Gen.hostOps0_15 (after Cert.KernelIdeal.Gen.hostOps0_14 (after Cert.KernelIdeal.Gen.hostOps0_13 (after Cert.KernelIdeal.Gen.hostOps0_12 (after Cert.KernelIdeal.Gen.hostOps0_11 (after Cert.KernelIdeal.Gen.hostOps0_10 (after Cert.KernelIdeal.Gen.hostOps0_9 (after Cert.KernelIdeal.Gen.hostOps0_8 (after Cert.KernelIdeal.Gen.hostOps0_7 (after Cert.KernelIdeal.Gen.hostOps0_6 (after Cert.KernelIdeal.Gen.hostOps0_5 (after Cert.KernelIdeal.Gen.hostOps0_4 (after Cert.KernelIdeal.Gen.hostOps0_3 (after Cert.KernelIdeal.Gen.hostOps0_2 (after Cert.KernelIdeal.Gen.hostOps0_1 (after Cert.KernelIdeal.Gen.hostOps0 V)))))))))))))))) := by
  rw [after_flatten]
  rfl

/-- The same with the last stretch in its four pieces. -/
theorem k_after (V : Valuation Cert.KernelIdeal.τ Cert.KernelIdeal.sig (Elt Ideal)) :
    after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16]) V = after kD (after kC (after kB (after kA (after Cert.KernelIdeal.Gen.hostOps0_15 (after Cert.KernelIdeal.Gen.hostOps0_14 (after Cert.KernelIdeal.Gen.hostOps0_13 (after Cert.KernelIdeal.Gen.hostOps0_12 (after Cert.KernelIdeal.Gen.hostOps0_11 (after Cert.KernelIdeal.Gen.hostOps0_10 (after Cert.KernelIdeal.Gen.hostOps0_9 (after Cert.KernelIdeal.Gen.hostOps0_8 (after Cert.KernelIdeal.Gen.hostOps0_7 (after Cert.KernelIdeal.Gen.hostOps0_6 (after Cert.KernelIdeal.Gen.hostOps0_5 (after Cert.KernelIdeal.Gen.hostOps0_4 (after Cert.KernelIdeal.Gen.hostOps0_3 (after Cert.KernelIdeal.Gen.hostOps0_2 (after Cert.KernelIdeal.Gen.hostOps0_1 (after Cert.KernelIdeal.Gen.hostOps0 V))))))))))))))))))) := by
  rw [k_nest, k16_split, after_app, after_app, after_app]

/-- The reference's memory after its line, stretch by stretch, the last stretch in its three pieces. -/
theorem r_after (V : Valuation Cert.ReferenceIdeal.τ Cert.ReferenceIdeal.sig (Elt Ideal)) :
    after ops V = after rD (after rC (after rB (after seg24 (after seg23 (after seg22 (after seg21 (after seg20 (after seg19 (after seg18 (after seg17 (after seg16 (after seg15 (after seg14 (after seg13 (after seg12 (after seg11 (after seg10 (after seg9 (after seg8 (after seg7 (after seg6 (after seg5 (after seg4 (after seg3 (after seg2 (after seg1 (after seg0 V))))))))))))))))))))))))))) := by
  rw [after_ops, r25_split, after_app, after_app]

/-- From memories that agree on the third, fourth and fifth arguments, the two programs build the same matrix. -/
theorem jb_agree
    (Vk : Valuation Cert.KernelIdeal.τ Cert.KernelIdeal.sig (Elt Ideal))
    (Vr : Valuation Cert.ReferenceIdeal.τ Cert.ReferenceIdeal.sig (Elt Ideal))
    (h2 : (Vr (Cert.ReferenceIdeal.main_arg2 : DevRef Cert.ReferenceIdeal.τ Cert.ReferenceIdeal.sig) : Cert.KernelIdeal.S128.Idx → Ideal .f32) = Vk (Cert.KernelIdeal.main_arg2 : DevRef Cert.KernelIdeal.τ Cert.KernelIdeal.sig))
    (h3 : (Vr (Cert.ReferenceIdeal.main_arg3 : DevRef Cert.ReferenceIdeal.τ Cert.ReferenceIdeal.sig) : Cert.KernelIdeal.S128.Idx → Ideal .f32) = Vk (Cert.KernelIdeal.main_arg3 : DevRef Cert.KernelIdeal.τ Cert.KernelIdeal.sig))
    (h4 : (Vr (Cert.ReferenceIdeal.main_arg4 : DevRef Cert.ReferenceIdeal.τ Cert.ReferenceIdeal.sig) : Cert.KernelIdeal.S128.Idx → Ideal .f32) = Vk (Cert.KernelIdeal.main_arg4 : DevRef Cert.KernelIdeal.τ Cert.KernelIdeal.sig)) :
    (after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16]) Vk (Cert.KernelIdeal.main_v66 : DevRef Cert.KernelIdeal.τ Cert.KernelIdeal.sig) : Cert.KernelIdeal.S256x256.Idx → Ideal .f32)
      = after Cert.ReferenceIdeal.RefRun.ops Vr (Cert.ReferenceIdeal.main_v119 : DevRef Cert.ReferenceIdeal.τ Cert.ReferenceIdeal.sig) := by
  rw [k_after, r_after]
  have a0_main_v5 := s0_main_v5 Vk Vr h2 h4
  have a0_main_arg2 := s0_main_arg2 Vk Vr h2
  have a0_main_v1 := s0_main_v1 Vk Vr h4
  have a0_main_v3 := s0_main_v3 Vk Vr h3
  have a1_main_arg2 := s1_main_arg2 _ _ a0_main_arg2
  have a1_main_v1 := s1_main_v1 _ _ a0_main_v1
  have a1_main_v6 := s1_main_v6 _ _ a0_main_v5
  have a1_main_v3 := s1_main_v3 _ _ a0_main_v3
  have a2_main_v10 := s2_main_v10 _ _ a1_main_arg2 a1_main_v1
  have a2_main_v6 := s2_main_v6 _ _ a1_main_v6
  have a2_main_arg2 := s2_main_arg2 _ _ a1_main_arg2
  have a2_main_v1 := s2_main_v1 _ _ a1_main_v1
  have a2_main_v3 := s2_main_v3 _ _ a1_main_v3
  have a3_main_v6 := s3_main_v6 _ _ a2_main_v6
  have a3_main_v11 := s3_main_v11 _ _ a2_main_v10
  have a3_main_arg2 := s3_main_arg2 _ _ a2_main_arg2
  have a3_main_v1 := s3_main_v1 _ _ a2_main_v1
  have a3_main_v3 := s3_main_v3 _ _ a2_main_v3
  have a4_main_v18 := s4_main_v18 _ _ a3_main_arg2 a3_main_v1
  have a4_main_v15 := s4_main_v15 _ _ a3_main_v6 a3_main_v11
  have a4_main_arg2 := s4_main_arg2 _ _ a3_main_arg2
  have a4_main_v1 := s4_main_v1 _ _ a3_main_v1
  have a4_main_v3 := s4_main_v3 _ _ a3_main_v3
  have a5_main_v15 := s5_main_v15 _ _ a4_main_v15
  have a5_main_v19 := s5_main_v19 _ _ a4_main_v18
  have a5_main_arg2 := s5_main_arg2 _ _ a4_main_arg2
  have a5_main_v1 := s5_main_v1 _ _ a4_main_v1
  have a5_main_v3 := s5_main_v3 _ _ a4_main_v3
  have a6_main_v23 := s6_main_v23 _ _ a5_main_arg2 a5_main_v1
  have a6_main_v20 := s6_main_v20 _ _ a5_main_v15 a5_main_v19
  have a6_main_v3 := s6_main_v3 _ _ a5_main_v3
  have a6_main_v1 := s6_main_v1 _ _ a5_main_v1
  have a7_main_v20 := s7_main_v20 _ _ a6_main_v20
  have a7_main_v24 := s7_main_v24 _ _ a6_main_v23
  have a7_main_v3 := s7_main_v3 _ _ a6_main_v3
  have a7_main_v1 := s7_main_v1 _ _ a6_main_v1
  have a8_main_v27 := s8_main_v27 _ _ a7_main_v3 a7_main_v1
  have a8_main_v3 := s8_main_v3 _ _ a7_main_v3
  have a8_main_v1 := s8_main_v1 _ _ a7_main_v1
  have a8_main_v25 := s8_main_v25 _ _ a7_main_v20 a7_main_v24
  have a9_main_v3 := s9_main_v3 _ _ a8_main_v3
  have a9_main_v1 := s9_main_v1 _ _ a8_main_v1
  have a9_main_v28 := s9_main_v28 _ _ a8_main_v27
  have a9_main_v25 := s9_main_v25 _ _ a8_main_v25
  have a10_main_v32 := s10_main_v32 _ _ a9_main_v3 a9_main_v1
  have a10_main_v28 := s10_main_v28 _ _ a9_main_v28
  have a10_main_v3 := s10_main_v3 _ _ a9_main_v3
  have a10_main_v1 := s10_main_v1 _ _ a9_main_v1
  have a10_main_v25 := s10_main_v25 _ _ a9_main_v25
  have a11_main_v28 := s11_main_v28 _ _ a10_main_v28
  have a11_main_v33 := s11_main_v33 _ _ a10_main_v32
  have a11_main_v3 := s11_main_v3 _ _ a10_main_v3
  have a11_main_v1 := s11_main_v1 _ _ a10_main_v1
  have a11_main_v25 := s11_main_v25 _ _ a10_main_v25
  have a12_main_v40 := s12_main_v40 _ _ a11_main_v3 a11_main_v1
  have a12_main_v37 := s12_main_v37 _ _ a11_main_v28 a11_main_v33
  have a12_main_v3 := s12_main_v3 _ _ a11_main_v3
  have a12_main_v1 := s12_main_v1 _ _ a11_main_v1
  have a12_main_v25 := s12_main_v25 _ _ a11_main_v25
  have a13_main_v37 := s13_main_v37 _ _ a12_main_v37
  have a13_main_v41 := s13_main_v41 _ _ a12_main_v40
  have a13_main_v3 := s13_main_v3 _ _ a12_main_v3
  have a13_main_v1 := s13_main_v1 _ _ a12_main_v1
  have a13_main_v25 := s13_main_v25 _ _ a12_main_v25
  have a14_main_v45 := s14_main_v45 _ _ a13_main_v3 a13_main_v1
  have a14_main_v42 := s14_main_v42 _ _ a13_main_v37 a13_main_v41
  have a14_main_v25 := s14_main_v25 _ _ a13_main_v25
  have a15_main_v42 := s15_main_v42 _ _ a14_main_v42
  have a15_main_v46 := s15_main_v46 _ _ a14_main_v45
  have a15_main_v25 := s15_main_v25 _ _ a14_main_v25
  have a16_main_v48 := s16_main_v48
    (after Cert.KernelIdeal.Gen.hostOps0_15 (after Cert.KernelIdeal.Gen.hostOps0_14 (after Cert.KernelIdeal.Gen.hostOps0_13 (after Cert.KernelIdeal.Gen.hostOps0_12 (after Cert.KernelIdeal.Gen.hostOps0_11 (after Cert.KernelIdeal.Gen.hostOps0_10 (after Cert.KernelIdeal.Gen.hostOps0_9 (after Cert.KernelIdeal.Gen.hostOps0_8 (after Cert.KernelIdeal.Gen.hostOps0_7 (after Cert.KernelIdeal.Gen.hostOps0_6 (after Cert.KernelIdeal.Gen.hostOps0_5 (after Cert.KernelIdeal.Gen.hostOps0_4 (after Cert.KernelIdeal.Gen.hostOps0_3 (after Cert.KernelIdeal.Gen.hostOps0_2 (after Cert.KernelIdeal.Gen.hostOps0_1 (after Cert.KernelIdeal.Gen.hostOps0 Vk))))))))))))))))
    (after seg23 (after seg22 (after seg21 (after seg20 (after seg19 (after seg18 (after seg17 (after seg16 (after seg15 (after seg14 (after seg13 (after seg12 (after seg11 (after seg10 (after seg9 (after seg8 (after seg7 (after seg6 (after seg5 (after seg4 (after seg3 (after seg2 (after seg1 (after seg0 Vr))))))))))))))))))))))))
  have a16_main_v54 := s16_main_v54
    (after Cert.KernelIdeal.Gen.hostOps0_15 (after Cert.KernelIdeal.Gen.hostOps0_14 (after Cert.KernelIdeal.Gen.hostOps0_13 (after Cert.KernelIdeal.Gen.hostOps0_12 (after Cert.KernelIdeal.Gen.hostOps0_11 (after Cert.KernelIdeal.Gen.hostOps0_10 (after Cert.KernelIdeal.Gen.hostOps0_9 (after Cert.KernelIdeal.Gen.hostOps0_8 (after Cert.KernelIdeal.Gen.hostOps0_7 (after Cert.KernelIdeal.Gen.hostOps0_6 (after Cert.KernelIdeal.Gen.hostOps0_5 (after Cert.KernelIdeal.Gen.hostOps0_4 (after Cert.KernelIdeal.Gen.hostOps0_3 (after Cert.KernelIdeal.Gen.hostOps0_2 (after Cert.KernelIdeal.Gen.hostOps0_1 (after Cert.KernelIdeal.Gen.hostOps0 Vk))))))))))))))))
    (after seg23 (after seg22 (after seg21 (after seg20 (after seg19 (after seg18 (after seg17 (after seg16 (after seg15 (after seg14 (after seg13 (after seg12 (after seg11 (after seg10 (after seg9 (after seg8 (after seg7 (after seg6 (after seg5 (after seg4 (after seg3 (after seg2 (after seg1 (after seg0 Vr))))))))))))))))))))))))
  have a16_main_v25 := s16_main_v25 _ _ a15_main_v25
  have a16_main_v47 := s16_main_v47 _ _ a15_main_v42 a15_main_v46
  have a17_main_v58 := s17_main_v58 _ _ a16_main_v48 a16_main_v54
  have a17_main_v25 := s17_main_v25 _ _ a16_main_v25
  have a17_main_v47 := s17_main_v47 _ _ a16_main_v47
  have a18_main_v62 := s18_main_v62 _ _ a17_main_v58 a17_main_v25
  have a18_main_v47 := s18_main_v47 _ _ a17_main_v47
  have a19_main_v66 := s19_main_v66 _ _ a18_main_v62 a18_main_v47
  exact a19_main_v66.symm

end Cert.JbAgree

end
-- ==== Proof.lean ====
/-
  A chain of 128 masses joined by springs and dampers, driven at its first mass: the state's time derivative and its
  Jacobian, computed by a kernel over a 32 × 2 grid and by a host reference. The time derivative is the velocities followed
  by the accelerations; an acceleration is the links' pull divided by the scaled mass, plus a wall term at the last mass and
  the drive `sin t` at the first. The kernel assembles each row of accelerations from pieces joined along the masses
  (zero columns where a term is absent) and adds them; the reference pads, adds and then adds the wall term and the drive
  into their single columns. On the extended reals adding a zero changes nothing and `0 − x = −x`, so both give the same
  entry at every index (`Cert.Spec.Ydot`). The Jacobian is one 256 × 256 matrix that both programs build on the host by the
  same operations of the stiffness, damping and mass vectors, repeated over every chunk and batch row
  (`Cert.Spec.Jac`). No rewrite was applied between the kernel and its idealization, so that conjunct is `True`.
-/
import proofs.«118620_j87110526697627_1_alg».proof.Defs
import proofs.«118620_j87110526697627_1_alg».proof.Proof.Gen.Kernel
import proofs.«118620_j87110526697627_1_alg».proof.Proof.Gen.Kernel.Skeleton
import proofs.«118620_j87110526697627_1_alg».proof.Proof.Gen.Kernel.Launch
import proofs.«118620_j87110526697627_1_alg».proof.Proof.Gen.Kernel.Points
import proofs.«118620_j87110526697627_1_alg».proof.Proof.Gen.Kernel.Frame
import proofs.«118620_j87110526697627_1_alg».proof.Proof.Gen.KernelIdeal
import proofs.«118620_j87110526697627_1_alg».proof.Proof.Gen.KernelIdeal.Skeleton
import proofs.«118620_j87110526697627_1_alg».proof.Proof.Gen.KernelIdeal.Launch
import proofs.«118620_j87110526697627_1_alg».proof.Proof.Gen.KernelIdeal.Points
import proofs.«118620_j87110526697627_1_alg».proof.Proof.Gen.KernelIdeal.Frame
import proofs.«118620_j87110526697627_1_alg».proof.Proof.Gen.KernelIdeal.Value
import proofs.«118620_j87110526697627_1_alg».proof.Proof.Gen.ReferenceIdeal
import proofs.«118620_j87110526697627_1_alg».proof.Proof.Gen.Pre_finite_inputs
import proofs.«118620_j87110526697627_1_alg».proof.Proof.KerJac
import proofs.«118620_j87110526697627_1_alg».proof.Proof.RefRun
import proofs.«118620_j87110526697627_1_alg».proof.Proof.RefValue
import proofs.«118620_j87110526697627_1_alg».proof.Proof.JbAgree
import Idealize.ShloMosaic.Adequacy
import Idealize.ShloMosaic.Init

noncomputable section

namespace Cert.Proof

open Idealize.ShloMosaic Idealize.ShloMosaic.TcCoe Idealize.SL.Sem Idealize.ShloMosaic.StableHlo

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of array operations none of which writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefRun.arg0_eq _),
     (h c Cert.ReferenceIdeal.main_arg1).trans (Cert.ReferenceIdeal.RefRun.arg1_eq _),
     (h c Cert.ReferenceIdeal.main_arg2).trans (Cert.ReferenceIdeal.RefRun.arg2_eq _),
     (h c Cert.ReferenceIdeal.main_arg3).trans (Cert.ReferenceIdeal.RefRun.arg3_eq _),
     (h c Cert.ReferenceIdeal.main_arg4).trans (Cert.ReferenceIdeal.RefRun.arg4_eq _)⟩)
    (Cert.ReferenceIdeal.RefRun.run_main (F := Ideal) m ρ)

/-- Nothing was rewritten between the kernel and its idealization. -/
theorem preserves : Cert.preserves_Kernel_KernelIdeal := trivial

/-- From memories that agree on the arguments both idealized programs end with the same two arrays. -/
theorem algebraic_ydot (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    after Cert.ReferenceIdeal.RefRun.ops (launchContents m' c) (Cert.ReferenceIdeal.main_v56 : DevRef Cert.ReferenceIdeal.τ Cert.ReferenceIdeal.sig)
      = Cert.KernelIdeal.KerBlocks.G6 m c := by
  refine (Cert.ReferenceIdeal.RefValue.ydot_eq (launchContents m' c)).trans ?_
  have e0 : launchContents m' c (Cert.ReferenceIdeal.main_arg0 : DevRef Cert.ReferenceIdeal.τ Cert.ReferenceIdeal.sig) = m ((c.tc : Thread Cert.KernelIdeal.nD Cert.KernelIdeal.τ).loc Cert.KernelIdeal.main_arg0) := a0
  have e1 : launchContents m' c (Cert.ReferenceIdeal.main_arg1 : DevRef Cert.ReferenceIdeal.τ Cert.ReferenceIdeal.sig) = m ((c.tc : Thread Cert.KernelIdeal.nD Cert.KernelIdeal.τ).loc Cert.KernelIdeal.main_arg1) := a1
  have e2 : launchContents m' c (Cert.ReferenceIdeal.main_arg2 : DevRef Cert.ReferenceIdeal.τ Cert.ReferenceIdeal.sig) = m ((c.tc : Thread Cert.KernelIdeal.nD Cert.KernelIdeal.τ).loc Cert.KernelIdeal.main_arg2) := a2
  have e3 : launchContents m' c (Cert.ReferenceIdeal.main_arg3 : DevRef Cert.ReferenceIdeal.τ Cert.ReferenceIdeal.sig) = m ((c.tc : Thread Cert.KernelIdeal.nD Cert.KernelIdeal.τ).loc Cert.KernelIdeal.main_arg3) := a3
  have e4 : launchContents m' c (Cert.ReferenceIdeal.main_arg4 : DevRef Cert.ReferenceIdeal.τ Cert.ReferenceIdeal.sig) = m ((c.tc : Thread Cert.KernelIdeal.nD Cert.KernelIdeal.τ).loc Cert.KernelIdeal.main_arg4) := a4
  rw [e0, e1, e2, e3, e4]

/-- The reference's second result is the matrix its host chain builds, repeated; the kernel's host chain builds the same
    matrix from the same three vectors. -/
theorem algebraic_jac (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    after Cert.ReferenceIdeal.RefRun.ops (launchContents m' c) (Cert.ReferenceIdeal.main_v120 : DevRef Cert.ReferenceIdeal.τ Cert.ReferenceIdeal.sig)
      = Cert.KernelIdeal.KerBlocks.G7 m c := by
  refine (Cert.ReferenceIdeal.RefValue.jac_eq (launchContents m' c)).trans ?_
  exact congrArg Cert.Spec.Jac (Cert.JbAgree.jb_agree (fun b => m (c, b)) (launchContents m' c) a2 a3 a4).symm

/-- From memories that agree on the arguments both idealized programs run and end with the same two arrays: the
    specification's `Ydot` of the arguments and the host's matrix repeated. -/
theorem algebraic : Cert.algebraic_KernelIdeal_ReferenceIdeal := by
  intro m ρ m' ρ' _ hagree
  refine ⟨fun c => Cert.KernelIdeal.KerBlocks.G6 m c, fun c => Cert.KernelIdeal.KerBlocks.G7 m c, Cert.KernelIdeal.KerBlocks.run m ρ, ?_⟩
  refine (θ_run Cert.ReferenceIdeal.defs _ _).mono (fun r h c => ?_) (Cert.ReferenceIdeal.RefRun.run_main (F := Ideal) m' ρ')
  obtain ⟨a0, a1, a2, a3, a4⟩ := hagree c
  exact ⟨(h c Cert.ReferenceIdeal.main_v56).trans (algebraic_ydot m m' c a0 a1 a2 a3 a4),
    (h c Cert.ReferenceIdeal.main_v120).trans (algebraic_jac m m' c a2 a3 a4),
    (h c Cert.ReferenceIdeal.main_arg0).trans (Cert.ReferenceIdeal.RefRun.arg0_eq _),
    (h c Cert.ReferenceIdeal.main_arg1).trans (Cert.ReferenceIdeal.RefRun.arg1_eq _),
    (h c Cert.ReferenceIdeal.main_arg2).trans (Cert.ReferenceIdeal.RefRun.arg2_eq _),
    (h c Cert.ReferenceIdeal.main_arg3).trans (Cert.ReferenceIdeal.RefRun.arg3_eq _),
    (h c Cert.ReferenceIdeal.main_arg4).trans (Cert.ReferenceIdeal.RefRun.arg4_eq _)⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
